-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S32x128 .f32) (main_arg14 : FVec F S128 .f32) (main_arg15 : FVec F S128 .f32) (main_arg16 : FVec F S128 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S32x128 .f32 := Host.absf main_arg13
  let main_cst_22 : FVec F S_ .f32 := constant S_ .f32 0x7F800000#32
  let main_v60 : FVec F S32x128 .f32 := broadcastInDim S32x128 ![] bcast_S_S32x128 main_cst_22
  let main_v61 : IVec S32x128 1 := cmpf .olt main_v59 main_v60
  let main_c_23 : IVec S_ 1 := constantI S_ 1 1#1
  let main_v62 : IVec S_ 1 := (fun x v => Host.reduce IntOp.andi x v reducesTo_S32x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S32x128 .f32) (main_arg12 : FVec F S128 .f32) (main_arg13 : FVec F S32x128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg11
  let main_cst_18 : FVec F S_ .f32 := constant S_ .f32 0x7F800000#32
  let main_v50 : FVec F S32x128 .f32 := broadcastInDim S32x128 ![] bcast_S_S32x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S32x128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000x32 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S32x128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S1x800000 : Shape := ⟨2, ![1, 800000]⟩
abbrev S800000 : Shape := ⟨1, ![800000]⟩
abbrev S128x384 : Shape := ⟨2, ![128, 384]⟩
abbrev S384 : Shape := ⟨1, ![384]⟩
abbrev S50000x384 : Shape := ⟨2, ![50000, 384]⟩
abbrev S5000x128 : Shape := ⟨2, ![5000, 128]⟩
abbrev S5000x384 : Shape := ⟨2, ![5000, 384]⟩
abbrev S1x384 : Shape := ⟨2, ![1, 384]⟩
abbrev S_ : Shape := ⟨0, ![]⟩
abbrev S800000x1 : Shape := ⟨2, ![800000, 1]⟩
abbrev S800000x128 : Shape := ⟨2, ![800000, 128]⟩
abbrev S32x256 : Shape := ⟨2, ![32, 256]⟩
abbrev S256 : Shape := ⟨1, ![256]⟩
abbrev S4000x32 : Shape := ⟨2, ![4000, 32]⟩
abbrev S4000x128 : Shape := ⟨2, ![4000, 128]⟩
abbrev S4000x1 : Shape := ⟨2, ![4000, 1]⟩
abbrev S4000x256 : Shape := ⟨2, ![4000, 256]⟩
abbrev S1x256 : Shape := ⟨2, ![1, 256]⟩
abbrev S4000x16 : Shape := ⟨2, ![4000, 16]⟩
abbrev S4000 : Shape := ⟨1, ![4000]⟩
abbrev S4000x8 : Shape := ⟨2, ![4000, 8]⟩
abbrev S50000x1 : Shape := ⟨2, ![50000, 1]⟩
abbrev S5000x1 : Shape := ⟨2, ![5000, 1]⟩
abbrev S1x128 : Shape := ⟨2, ![1, 128]⟩
abbrev S5000 : Shape := ⟨1, ![5000]⟩

abbrev nBuf : Space → Nat
  | .hbm => 67
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x128, .f32⟩
  | .hbm, ⟨12, _⟩ => ⟨S128, .f32⟩
  | .hbm, ⟨13, _⟩ => ⟨S32x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S128x384, .f32⟩
  | .hbm, ⟨22, _⟩ => ⟨S384, .f32⟩
  | .hbm, ⟨23, _⟩ => ⟨S50000x384, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S32x256, .f32⟩
  | .hbm, ⟨55, _⟩ => ⟨S256, .f32⟩
  | .hbm, ⟨56, _⟩ => ⟨S800000x128, .f32⟩
  | .hbm, ⟨57, _⟩ => ⟨S800000x1, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S384, .f32⟩
  | .local _ .vmem, ⟨4, _⟩ => ⟨S5000x384, .f32⟩
  | .local _ .vmem, ⟨5, _⟩ => ⟨S5000x384, .f32⟩
  | .local _ .vmem, ⟨6, _⟩ => ⟨S4000x32, .f32⟩
  | .local _ .vmem, ⟨7, _⟩ => ⟨S4000x32, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S32x256, .f32⟩
  | .local _ .vmem, ⟨15, _⟩ => ⟨S256, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_cst : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x384_d1 : Shape.Concatenates [S128x128, S128x128, S128x128] S128x384 1
  concatenates_S128_S128_S128_S384_d0 : Shape.Concatenates [S128, S128, S128] S384 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  concatenates_S32x128_S32x128_S32x256_d1 : Shape.Concatenates [S32x128, S32x128] S32x256 1
  concatenates_S128_S128_S256_d0 : Shape.Concatenates [S128, S128] S256 0
  inb_S4000x32_S4000x32_0_0 : ∀ a, (![0, 0] : Fin 2 → Nat) a + S4000x32.size a ≤ S4000x32.size a
  h_S4000x32 : 0 < S4000x32.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4000x256 : S1x256.Broadcasts S4000x256
  slices_S4000x256_o0_0_S4000x128 : S4000x256.Slices ![0, 0] S4000x128
  slices_S4000x256_o0_128_S4000x128 : S4000x256.Slices ![0, 128] S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x16 : S4000x128.Slices ![0, 0] S4000x16
  reduces_S4000x16_S4000 : S4000x16.Reduces [1] S4000
  shapeCasts_S4000_S4000x1 : S4000.ShapeCasts S4000x1
  slices_S4000x128_o0_16_S4000x16 : S4000x128.Slices ![0, 16] S4000x16
  slices_S4000x128_o0_32_S4000x16 : S4000x128.Slices ![0, 32] S4000x16
  slices_S4000x128_o0_48_S4000x16 : S4000x128.Slices ![0, 48] S4000x16
  slices_S4000x128_o0_64_S4000x16 : S4000x128.Slices ![0, 64] S4000x16
  slices_S4000x128_o0_80_S4000x16 : S4000x128.Slices ![0, 80] S4000x16
  slices_S4000x128_o0_96_S4000x16 : S4000x128.Slices ![0, 96] S4000x16
  slices_S4000x128_o0_112_S4000x16 : S4000x128.Slices ![0, 112] S4000x16
  concatenates_S4000x1_S4000x1_S4000x1_S4000x1_S4000x1_S4000x1_S4000x1_S4000x1_S4000x8_d1 : Shape.Concatenates [S4000x1, S4000x1, S4000x1, S4000x1, S4000x1, S4000x1, S4000x1, S4000x1] S4000x8 1
  reduces_S4000x8_S4000 : S4000x8.Reduces [1] S4000
  broadcasts_S4000x1_S4000x128 : S4000x1.Broadcasts S4000x128
  inb_S4000x1_S4000x1_0_0 : ∀ a, (![0, 0] : Fin 2 → Nat) a + S4000x1.size a ≤ S4000x1.size a
  h_S4000x1 : 0 < S4000x1.numel
  bcast_S_S50000x128 : S_.BroadcastsInDim S50000x128 (![] : Fin 0 → Fin S50000x128.rank)
  bcast_S_S50000x1 : S_.BroadcastsInDim S50000x1 (![] : Fin 0 → Fin S50000x1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  dot_S5000x128_S128x384_S5000x384_1_0_0_1_n_n_wf : DotDims.WF S5000x128 S128x384 S5000x384 [1] [0] [0] [1] [] []
  gather_S50000x128_S800000x1_S800000x128_1_0_n_n_0_1_1128_wf : GatherDims.WF S50000x128 S800000x1 S800000x128 [1] [0] [] [0] [] 1 ![1, 128]
  dot_S4000x32_S32x256_S4000x256_1_0_0_1_n_n_wf : DotDims.WF S4000x32 S32x256 S4000x256 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .f32 = 32 ∨ (Rect.block (s := S50000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S800000x32.size a
  hwx1_0 : ∀ i : grid1.Coords, EltTy.bits .f32 = 32 ∨ (Rect.block (s := S800000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .f32 = 32 ∨ (Rect.block (s := S800000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x256.size a ≤ S32x256.size a
  hwx1_4 : ∀ i : grid1.Coords, EltTy.bits .f32 = 32 ∨ (Rect.block (s := S32x256) S32x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S800000x1.size a
  hwx1_7 : ∀ i : grid1.Coords, EltTy.bits .f32 = 32 ∨ (Rect.block (s := S800000x1) S4000x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S32x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v33_1) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S1x800000 : Shape := ⟨2, ![1, 800000]⟩
abbrev S800000 : Shape := ⟨1, ![800000]⟩
abbrev S1x128 : Shape := ⟨2, ![1, 128]⟩
abbrev S800000x128 : Shape := ⟨2, ![800000, 128]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x1x1 : Shape := ⟨3, ![800000, 1, 1]⟩
abbrev S50000x1 : Shape := ⟨2, ![50000, 1]⟩
abbrev S50000 : Shape := ⟨1, ![50000]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S32x128, .f32⟩
  | 12 => ⟨S128, .f32⟩
  | 13 => ⟨S32x128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S800000x128, .f32⟩
  | 34 => ⟨S1x128, .f32⟩
  | 35 => ⟨S800000x128, .f32⟩
  | 36 => ⟨S800000x128, .f32⟩
  | 37 => ⟨S800000x128, .f32⟩
  | 38 => ⟨S1x128, .f32⟩
  | 39 => ⟨S800000x128, .f32⟩
  | 40 => ⟨S800000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x8x16, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x8x16, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x8x16, .f32⟩
  | 73 => ⟨S800000x8x16, .f32⟩
  | 74 => ⟨S_, .f32⟩
  | 75 => ⟨S800000x8, .f32⟩
  | 76 => ⟨S_, .f32⟩
  | 77 => ⟨S800000x8, .f32⟩
  | 78 => ⟨S800000x8, .f32⟩
  | 79 => ⟨S_, .f32⟩
  | 80 => ⟨S_, .f32⟩
  | 81 => ⟨S_, .f32⟩
  | 82 => ⟨S800000x8, .f32⟩
  | 83 => ⟨S800000x8, .f32⟩
  | 84 => ⟨S_, .f32⟩
  | 85 => ⟨S800000x8, .f32⟩
  | 86 => ⟨S800000x8, .f32⟩
  | 87 => ⟨S800000x8, .f32⟩
  | 88 => ⟨S_, .f32⟩
  | 89 => ⟨S800000, .f32⟩
  | 90 => ⟨S800000x1, .f32⟩
  | 91 => ⟨S_, .f32⟩
  | 92 => ⟨S800000x1, .f32⟩
  | 93 => ⟨S800000x1, .f32⟩
  | 94 => ⟨S800000x1x1, .f32⟩
  | 95 => ⟨S800000x8x16, .f32⟩
  | 96 => ⟨S800000x8x16, .f32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S50000x1, .f32⟩
  | 104 => ⟨S800000x1, .i32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x1, .f32⟩
  | 7 => ⟨S50000x1, .f32⟩
  | 8 => ⟨S50000x1, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_1 : Ref sig .tc := ⟨.hbm, 52, rfl⟩
abbrev main_v33 : Ref sig .tc := ⟨.hbm, 53, rfl⟩
abbrev main_v34 : Ref sig .tc := ⟨.hbm, 54, rfl⟩
abbrev main_c_2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_3 : Ref sig .tc := ⟨.hbm, 62, rfl⟩
abbrev main_v41 : Ref sig .tc := ⟨.hbm, 63, rfl⟩
abbrev main_v42 : Ref sig .tc := ⟨.hbm, 64, rfl⟩
abbrev main_c_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_15 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_17 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x128_S800000x8x16 : S800000x128.ShapeCasts S800000x8x16
  reducesTo_S800000x8x16_S800000x8_d2 : S800000x8x16.ReducesTo [2] S800000x8
  h_S_ : 0 < S_.numel
  bcast_S_S800000x8 : S_.BroadcastsInDim S800000x8 (![] : Fin 0 → Fin S800000x8.rank)
  reducesTo_S800000x8_S800000_d1 : S800000x8.ReducesTo [1] S800000
  bcast_S_S800000x1 : S_.BroadcastsInDim S800000x1 (![] : Fin 0 → Fin S800000x1.rank)
  bcast_S800000x1_S800000x1x1_0_1 : S800000x1.BroadcastsInDim S800000x1x1 (![0, 1] : Fin 2 → Fin S800000x1x1.rank)
  bcast_S800000x1x1_S800000x8x16_0_1_2 : S800000x1x1.BroadcastsInDim S800000x8x16 (![0, 1, 2] : Fin 3 → Fin S800000x8x16.rank)
  shapeCasts_S800000x8x16_S800000x128 : S800000x8x16.ShapeCasts S800000x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KBRegion0.lean ====
/-
  Region 0: the fused projection. One grid point takes a block of 5000 input rows, the whole concatenated weight matrix and bias, and leaves the 5000 × 384 block of projected rows in its output buffer.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.Kernel.Launch
import proofs.«119884_j21492016349943_1_alg».proof.Proof.Gen.Kernel.Skeleton
import proofs.«119884_j21492016349943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S384 := Rect.unit (s := S384) ![0] S384.size inb_S384_S384_0
abbrev r0_3 : Rect S5000x384 := Rect.unit (s := S5000x384) ![0, 0] S5000x384.size inb_S5000x384_S5000x384_0_0

/-! ## What the body leaves in each output buffer -/

/-- Output window 3's buffer after the body: its one whole-buffer store of the body's value over the loaded input blocks. -/
def out0_3 (x0 : Vec F S5000x128 .f32) (x1 : Vec F S128x384 .f32) (x2 : Vec F S384 .f32) : Vec F S5000x384 .f32 :=
  View.canon [⟨r0_3, k0_pay1 (View.ld x0 r0_0) (View.ld x1 r0_1) (View.ld x2 r0_2)⟩]

/-- The one store covers the buffer. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 4000000 in
/-- The body on whole staging buffers, the inputs' at contents `x·` and the outputs' at anything, runs to a continuation that
    holds the inputs' as they were and each output's at its stored value. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each input's
    buffer at its block and each output's at its stored value of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the body's triple applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBRegion1.lean ====
/-
  Region 1: the edge kernel. One grid point takes 4000 edges: their attributes, the gathered query, key and value rows, and the concatenated edge projection; it leaves the weighted value rows and the edges' attention weights.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.Kernel.Launch
import proofs.«119884_j21492016349943_1_alg».proof.Proof.Gen.Kernel.Skeleton
import proofs.«119884_j21492016349943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev r1_0 : Rect S4000x32 := Rect.unit (s := S4000x32) ![0, 0] S4000x32.size inb_S4000x32_S4000x32_0_0
abbrev r1_1 : Rect S4000x128 := Rect.unit (s := S4000x128) ![0, 0] S4000x128.size inb_S4000x128_S4000x128_0_0
abbrev r1_2 : Rect S4000x128 := Rect.unit (s := S4000x128) ![0, 0] S4000x128.size inb_S4000x128_S4000x128_0_0
abbrev r1_3 : Rect S4000x128 := Rect.unit (s := S4000x128) ![0, 0] S4000x128.size inb_S4000x128_S4000x128_0_0
abbrev r1_4 : Rect S32x256 := Rect.unit (s := S32x256) ![0, 0] S32x256.size inb_S32x256_S32x256_0_0
abbrev r1_5 : Rect S256 := Rect.unit (s := S256) ![0] S256.size inb_S256_S256_0
abbrev r1_6 : Rect S4000x128 := Rect.unit (s := S4000x128) ![0, 0] S4000x128.size inb_S4000x128_S4000x128_0_0
abbrev r1_7 : Rect S4000x1 := Rect.unit (s := S4000x1) ![0, 0] S4000x1.size inb_S4000x1_S4000x1_0_0

/-! ## What the body leaves in each output buffer -/

/-- Output window 6's buffer after the body: its one whole-buffer store of the body's value over the loaded input blocks. -/
def out1_6 (x0 : Vec F S4000x32 .f32) (x1 : Vec F S4000x128 .f32) (x2 : Vec F S4000x128 .f32) (x3 : Vec F S4000x128 .f32) (x4 : Vec F S32x256 .f32) (x5 : Vec F S256 .f32) : Vec F S4000x128 .f32 :=
  View.canon [⟨r1_6, k1_pay1 (k1_pay5 (View.ld x0 r1_0) (View.ld x4 r1_4) (View.ld x5 r1_5) (View.ld x3 r1_3)) (k1_pay10 (k1_pay3 (View.ld x0 r1_0) (View.ld x4 r1_4) (View.ld x5 r1_5) (View.ld x1 r1_1)) (k1_pay4 (View.ld x2 r1_2)) (k1_pay6 (View.ld x0 r1_0) (View.ld x4 r1_4) (View.ld x5 r1_5) (View.ld x1 r1_1) (View.ld x2 r1_2)) (k1_pay7 (View.ld x0 r1_0) (View.ld x4 r1_4) (View.ld x5 r1_5) (View.ld x1 r1_1) (View.ld x2 r1_2)) (k1_pay8 (View.ld x0 r1_0) (View.ld x4 r1_4) (View.ld x5 r1_5) (View.ld x1 r1_1) (View.ld x2 r1_2)) k1_pay9)⟩]

/-- The one store covers the buffer. -/
theorem cover1_6 (p0 : Vec F S4000x128 .f32) (y : S4000x128.Idx) :
    ∃ pc ∈ ([⟨r1_6, p0⟩] : List (View.Piece (Elt F) S4000x128 .f32)), y ∈ pc.1.set :=
  View.cover_of_tiled [⟨r1_6, p0⟩] S4000x128.size (by rfl) y

/-- Output window 7's buffer after the body: its one whole-buffer store of the body's value over the loaded input blocks. -/
def out1_7 (x0 : Vec F S4000x32 .f32) (x1 : Vec F S4000x128 .f32) (x2 : Vec F S4000x128 .f32) (x3 : Vec F S4000x128 .f32) (x4 : Vec F S32x256 .f32) (x5 : Vec F S256 .f32) : Vec F S4000x1 .f32 :=
  View.canon [⟨r1_7, k1_pay10 (k1_pay3 (View.ld x0 r1_0) (View.ld x4 r1_4) (View.ld x5 r1_5) (View.ld x1 r1_1)) (k1_pay4 (View.ld x2 r1_2)) (k1_pay6 (View.ld x0 r1_0) (View.ld x4 r1_4) (View.ld x5 r1_5) (View.ld x1 r1_1) (View.ld x2 r1_2)) (k1_pay7 (View.ld x0 r1_0) (View.ld x4 r1_4) (View.ld x5 r1_5) (View.ld x1 r1_1) (View.ld x2 r1_2)) (k1_pay8 (View.ld x0 r1_0) (View.ld x4 r1_4) (View.ld x5 r1_5) (View.ld x1 r1_1) (View.ld x2 r1_2)) k1_pay9⟩]

/-- The one store covers the buffer. -/
theorem cover1_7 (p0 : Vec F S4000x1 .f32) (y : S4000x1.Idx) :
    ∃ pc ∈ ([⟨r1_7, p0⟩] : List (View.Piece (Elt F) S4000x1 .f32)), y ∈ pc.1.set :=
  View.cover_of_tiled [⟨r1_7, p0⟩] S4000x1.size (by rfl) y

/-! ## The body's triple -/

set_option maxHeartbeats 4000000 in
/-- The body on whole staging buffers, the inputs' at contents `x·` and the outputs' at anything, runs to a continuation that
    holds the inputs' as they were and each output's at its stored value. -/
theorem sound_kernel1 (c : Dev nD) (E : Set ℕ) (i : grid1.Coords) (arg1 : Memref sig .tc .vmem S4000x32 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S32x256 .f32) (harg5 : arg5.IsWhole) (arg6 : Memref sig .tc .vmem S256 .f32) (harg6 : arg6.IsWhole) (arg7 : Memref sig .tc .vmem S4000x128 .f32) (harg7 : arg7.IsWhole) (arg8 : Memref sig .tc .vmem S4000x1 .f32) (harg8 : arg8.IsWhole)
    (x0 : Vec F S4000x32 .f32) (x1 : Vec F S4000x128 .f32) (x2 : Vec F S4000x128 .f32) (x3 : Vec F S4000x128 .f32) (x4 : Vec F S32x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8) K := by
  simp only [cc1__edge_kernel_eq_skeleton]; unfold cc1__edge_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them; after the body at point `t` each input's
    buffer at its block and each output's at its stored value of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KBRegion2.lean ====
/-
  Region 2: the output stage. One grid point takes 5000 nodes: their aggregated rows and summed weights, the input rows, the output projection and the normalisation's scale and shift; it leaves the normalised rows.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.Kernel.Launch
import proofs.«119884_j21492016349943_1_alg».proof.Proof.Gen.Kernel.Skeleton
import proofs.«119884_j21492016349943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetches it or the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The whole-buffer rectangles the body loads and stores through -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S5000x128 := Rect.unit (s := S5000x128) ![0, 0] S5000x128.size inb_S5000x128_S5000x128_0_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S128 := Rect.unit (s := S128) ![0] S128.size inb_S128_S128_0
abbrev r2_6 : Rect S128 := Rect.unit (s := S128) ![0] S128.size inb_S128_S128_0
abbrev r2_7 : Rect S5000x128 := Rect.unit (s := S5000x128) ![0, 0] S5000x128.size inb_S5000x128_S5000x128_0_0

/-! ## What the body leaves in each output buffer -/

/-- Output window 7's buffer after the body: its one whole-buffer store of the body's value over the loaded input blocks. -/
def out2_7 (x0 : Vec F S5000x128 .f32) (x1 : Vec F S5000x1 .f32) (x2 : Vec F S5000x128 .f32) (x3 : Vec F S128x128 .f32) (x4 : Vec F S128 .f32) (x5 : Vec F S128 .f32) (x6 : Vec F S128 .f32) : Vec F S5000x128 .f32 :=
  View.canon [⟨r2_7, k2_pay1 (k2_pay2 (View.ld x0 r2_0) (View.ld x1 r2_1) (View.ld x3 r2_3) (View.ld x4 r2_4) (View.ld x2 r2_2) (View.ld x5 r2_5)) (View.ld x6 r2_6)⟩]

/-- The one store covers the buffer. -/
theorem cover2_7 (p0 : Vec F S5000x128 .f32) (y : S5000x128.Idx) :
    ∃ pc ∈ ([⟨r2_7, p0⟩] : List (View.Piece (Elt F) S5000x128 .f32)), y ∈ pc.1.set :=
  View.cover_of_tiled [⟨r2_7, p0⟩] S5000x128.size (by rfl) y

/-! ## The body's triple -/

set_option maxHeartbeats 4000000 in
/-- The body on whole staging buffers, the inputs' at contents `x·` and the outputs' at anything, runs to a continuation that
    holds the inputs' as they were and each output's at its stored value. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S5000x128 .f32) (harg8 : arg8.IsWhole)
    (x0 : Vec F S5000x128 .f32) (x1 : Vec F S5000x1 .f32) (x2 : Vec F S5000x128 .f32) (x3 : Vec F S128x128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__finalize_kernel i arg1 harg1 arg2 harg2 arg3 harg3 arg4 harg4 arg5 harg5 arg6 harg6 arg7 harg7 arg8 harg8) K := by
  simp only [cc2__finalize_kernel_eq_skeleton]; unfold cc2__finalize_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point `t` each input's
    buffer at its block and each output's at its stored value of the input blocks; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KBRun.lean ====
/-
  The run of the whole program: its three kernel regions among three stretches of host operations.
  The contents of every unscoped buffer at each boundary are a fold from the launch memory: a host stretch applies its
  operations; a region leaves its arrays at what its write-backs make of them (an input array as entered, an output array the
  fold of the points' written blocks) and every other buffer as entered. Every weakly fair execution terminates without a
  fault in a state whose unscoped buffers hold the last boundary's contents; no stretch and no region writes an argument
  array, so each argument ends as launched, and the result array ends at region 2's output.
-/
import proofs.«119884_j21492016349943_1_alg».proof.Proof.Gen.Kernel.Launch
import proofs.«119884_j21492016349943_1_alg».proof.Proof.Gen.Kernel.Skeleton
import proofs.«119884_j21492016349943_1_alg».proof.Proof.Gen.Kernel.Points
import proofs.«119884_j21492016349943_1_alg».proof.Proof.Gen.Kernel.Regions
import proofs.«119884_j21492016349943_1_alg».proof.Proof.KBRegion0
import proofs.«119884_j21492016349943_1_alg».proof.Proof.KBRegion1
import proofs.«119884_j21492016349943_1_alg».proof.Proof.KBRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After host stretch 0: region 0's entry. -/
abbrev B1 : Dev nD → Valuation τ sig (Elt F) := fun c => StableHlo.after hostOps0 (B0 m ρ c)
/-- The same read at the TensorCore's references. -/
abbrev T1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After host stretch 1: region 1's entry. -/
abbrev B3 : Dev nD → Valuation τ sig (Elt F) := fun c => StableHlo.after hostOps1 (B2 m ρ c)
/-- The same read at the TensorCore's references. -/
abbrev T3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem hF1 (c : Dev nD) (w : Fin cfg1.W) : (dat1 (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)

/-- After host stretch 2: region 2's entry. -/
abbrev B5 : Dev nD → Valuation τ sig (Elt F) := fun c => StableHlo.after hostOps2 (B4 m ρ c)
/-- The same read at the TensorCore's references. -/
abbrev T5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (T5 m ρ) c).arrAt w cfg2.N
theorem B6_arr (c : Dev nD) (w : Fin cfg2.W) :
    B6 m ρ c (Proc.devRef .tc (Pipeline.arrRef spec2 w)) = (dat2 (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev T6 : (c : Dev nD) → (b : Ref sig .tc) → Buf (Elt F) ((c : Thread nD τ).loc b) := fun c b => B6 m ρ c b
theorem hF2 (c : Dev nD) (w : Fin cfg2.W) : (dat2 (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)

/-! ## The arguments end as launched

No host operation and no region writes an argument array: a region reads it through an input window or does not touch it. -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := (B6_arr m ρ c 2).trans (((dat2 (T5 m ρ) c).arrAt_in 2 rfl _).trans (A_eq2 (T5 m ρ) c 2))
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := (B4_arr m ρ c 0).trans (((dat1 (T3 m ρ) c).arrAt_in 0 rfl _).trans (A_eq1 (T3 m ρ) c 0))
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B6_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := B6_of_ne m ρ c main_arg6 (by decide)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B6_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := B6_of_ne m ρ c main_arg7 (by decide)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B6_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := B6_of_ne m ρ c main_arg8 (by decide)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B6_main_arg9 (c : Dev nD) : B6 m ρ c (Proc.devRef .tc main_arg9) = m ((c : Thread nD τ).loc main_arg9) :=
  calc B6 m ρ c (Proc.devRef .tc main_arg9)
    _ = B5 m ρ c (Proc.devRef .tc main_arg9) := (B6_arr m ρ c 3).trans (((dat2 (T5 m ρ) c).arrAt_in 3 rfl _).trans (A_eq2 (T5 m ρ) c 3))
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B6_main_arg10 (c : Dev nD) : B6 m ρ c (Proc.devRef .tc main_arg10) = m ((c : Thread nD τ).loc main_arg10) :=
  calc B6 m ρ c (Proc.devRef .tc main_arg10)
    _ = B5 m ρ c (Proc.devRef .tc main_arg10) := (B6_arr m ρ c 4).trans (((dat2 (T5 m ρ) c).arrAt_in 4 rfl _).trans (A_eq2 (T5 m ρ) c 4))
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B6_main_arg11 (c : Dev nD) : B6 m ρ c (Proc.devRef .tc main_arg11) = m ((c : Thread nD τ).loc main_arg11) :=
  calc B6 m ρ c (Proc.devRef .tc main_arg11)
    _ = B5 m ρ c (Proc.devRef .tc main_arg11) := B6_of_ne m ρ c main_arg11 (by decide)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B6_main_arg12 (c : Dev nD) : B6 m ρ c (Proc.devRef .tc main_arg12) = m ((c : Thread nD τ).loc main_arg12) :=
  calc B6 m ρ c (Proc.devRef .tc main_arg12)
    _ = B5 m ρ c (Proc.devRef .tc main_arg12) := B6_of_ne m ρ c main_arg12 (by decide)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B6_main_arg13 (c : Dev nD) : B6 m ρ c (Proc.devRef .tc main_arg13) = m ((c : Thread nD τ).loc main_arg13) :=
  calc B6 m ρ c (Proc.devRef .tc main_arg13)
    _ = B5 m ρ c (Proc.devRef .tc main_arg13) := B6_of_ne m ρ c main_arg13 (by decide)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B6_main_arg14 (c : Dev nD) : B6 m ρ c (Proc.devRef .tc main_arg14) = m ((c : Thread nD τ).loc main_arg14) :=
  calc B6 m ρ c (Proc.devRef .tc main_arg14)
    _ = B5 m ρ c (Proc.devRef .tc main_arg14) := B6_of_ne m ρ c main_arg14 (by decide)
    _ = B4 m ρ c (Proc.devRef .tc main_arg14) := StableHlo.after_of_writes_sub hostOps2 _ hostOps2_writes (by decide : main_arg14 ∉ hostOps2_W)
    _ = B3 m ρ c (Proc.devRef .tc main_arg14) := B4_of_ne m ρ c main_arg14 (by decide)
    _ = B2 m ρ c (Proc.devRef .tc main_arg14) := StableHlo.after_of_writes_sub hostOps1 _ hostOps1_writes (by decide : main_arg14 ∉ hostOps1_W)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B6_main_arg15 (c : Dev nD) : B6 m ρ c (Proc.devRef .tc main_arg15) = m ((c : Thread nD τ).loc main_arg15) :=
  calc B6 m ρ c (Proc.devRef .tc main_arg15)
    _ = B5 m ρ c (Proc.devRef .tc main_arg15) := (B6_arr m ρ c 5).trans (((dat2 (T5 m ρ) c).arrAt_in 5 rfl _).trans (A_eq2 (T5 m ρ) c 5))
    _ = B4 m ρ c (Proc.devRef .tc main_arg15) := StableHlo.after_of_writes_sub hostOps2 _ hostOps2_writes (by decide : main_arg15 ∉ hostOps2_W)
    _ = B3 m ρ c (Proc.devRef .tc main_arg15) := B4_of_ne m ρ c main_arg15 (by decide)
    _ = B2 m ρ c (Proc.devRef .tc main_arg15) := StableHlo.after_of_writes_sub hostOps1 _ hostOps1_writes (by decide : main_arg15 ∉ hostOps1_W)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B6_main_arg16 (c : Dev nD) : B6 m ρ c (Proc.devRef .tc main_arg16) = m ((c : Thread nD τ).loc main_arg16) :=
  calc B6 m ρ c (Proc.devRef .tc main_arg16)
    _ = B5 m ρ c (Proc.devRef .tc main_arg16) := (B6_arr m ρ c 6).trans (((dat2 (T5 m ρ) c).arrAt_in 6 rfl _).trans (A_eq2 (T5 m ρ) c 6))
    _ = B4 m ρ c (Proc.devRef .tc main_arg16) := StableHlo.after_of_writes_sub hostOps2 _ hostOps2_writes (by decide : main_arg16 ∉ hostOps2_W)
    _ = B3 m ρ c (Proc.devRef .tc main_arg16) := B4_of_ne m ρ c main_arg16 (by decide)
    _ = B2 m ρ c (Proc.devRef .tc main_arg16) := StableHlo.after_of_writes_sub hostOps1 _ hostOps1_writes (by decide : main_arg16 ∉ hostOps1_W)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

/-! ## The proof data family and the thread state -/

/-- No pipeline has a prefetched table. -/
abbrev admK : (p : Fin 3) → (pcfgs (F := F) p).Adm := fun p => (cfgs p).toPCfg_adm
/-- Every pipeline's proof data, each at its region's entry contents. -/
def pdat : (p : Fin 3) → (c : Dev nD) → Dat τ (Elt F) Unit ℕ (UR sig nD τ) ℕ (Pipeline.pin (pcfgs (F := F)) admK p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
/-- No core owes another anything. -/
abbrev Lk : GSem nD τ sig → Finset Unit := fun _ => ∅
abbrev lvk : GSem nD τ sig → Unit → ℕ := fun _ _ => 0
/-- What rides beside the buffers through every segment: the generator register at some state and the core owing nothing. -/
abbrev Rk (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- Region 0 over the thread state: entered from every unscoped buffer at `B1`, left at `B2`. Its arrays are split out of
    the unscoped buffers and put back at the exit contents; the generator register goes into the kernel's invariant and comes
    back; nothing is owed; the kernel has no semaphore of its own. -/
def reg0 : Pipeline.RegionSeg (pcfgs (F := F)) admK (pdat m ρ) () defs₀ 𝒱₀ Lk lvk 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ Lk lvk 0 fun _ _ => rfl
  pre c := iprop(StableHlo.held (c : Thread nD τ) (Pipeline.ucRefs τ sig) (B1 m ρ c) ∗ Rk c)
  post c := iprop(StableHlo.held (c : Thread nD τ) (Pipeline.ucRefs τ sig) (B2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admK (pdat m ρ) launch0.win launch0.arr_whole c
      ((pdat m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdat m ρ) ((pdat m ρ 0 c).share_full fun _ => rfl)
      (T1 m ρ c) (T2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split out of
    the unscoped buffers and put back at the exit contents; the generator register goes into the kernel's invariant and comes
    back; nothing is owed; the kernel has no semaphore of its own. -/
def reg1 : Pipeline.RegionSeg (pcfgs (F := F)) admK (pdat m ρ) () defs₀ 𝒱₀ Lk lvk 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ Lk lvk 1 fun _ _ => rfl
  pre c := iprop(StableHlo.held (c : Thread nD τ) (Pipeline.ucRefs τ sig) (B3 m ρ c) ∗ Rk c)
  post c := iprop(StableHlo.held (c : Thread nD τ) (Pipeline.ucRefs τ sig) (B4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admK (pdat m ρ) launch1.win launch1.arr_whole c
      ((pdat m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdat m ρ) ((pdat m ρ 1 c).share_full fun _ => rfl)
      (T3 m ρ c) (T4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split out of
    the unscoped buffers and put back at the exit contents; the generator register goes into the kernel's invariant and comes
    back; nothing is owed; the kernel has no semaphore of its own. -/
def reg2 : Pipeline.RegionSeg (pcfgs (F := F)) admK (pdat m ρ) () defs₀ 𝒱₀ Lk lvk 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ Lk lvk 2 fun _ _ => rfl
  pre c := iprop(StableHlo.held (c : Thread nD τ) (Pipeline.ucRefs τ sig) (B5 m ρ c) ∗ Rk c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) admK (pdat m ρ) launch2.win launch2.arr_whole c
      ((pdat m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdat m ρ) ((pdat m ρ 2 c).share_full fun _ => rfl)
      (T5 m ρ c) (T6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segList : List (Pipeline.Seg (pcfgs (F := F)) admK (pdat m ρ) () defs₀ 𝒱₀ Lk lvk) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ) ]

theorem main_run (c : Dev nD) : main (F := F) c = Pipeline.Seg.run (segList m ρ) := (main_chain c).trans (by chain_rfl)

/-- What the result array holds at the end, per core: region 2's output array as its write-backs leave it. -/
def result (c : Dev nD) : Buf (Elt F) ((c.tc : Thread nD τ).loc main_v40) := B6 m ρ c (Proc.devRef .tc main_v40)

set_option backward.isDefEq.respectTransparency.types false in
/-- THE RUN: from any memory with zero counters every weakly fair execution of the program terminates, nothing faulting, in a
    state whose result array is `result` and whose argument arrays are as launched. -/
theorem run_value : θ_run defs (onTc (τ := τ) (main (F := F))) ⟨m, fun _ => 0, ρ⟩ (fun r => ∀ c : Dev nD,
      r.2.mem ((c.tc : Thread nD τ).loc main_v40) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) admK (pdat m ρ) () cellOf_inj emb₁ defs₀ 𝒱₀ Lk lvk m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rk c)) (Tₙ := Tend m ρ)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c =>
      ⟨h c _ (mem_uc main_v40 (by decide)),
       (h c _ (mem_uc main_arg0 (by decide))).trans (B6_main_arg0 m ρ c),
       (h c _ (mem_uc main_arg1 (by decide))).trans (B6_main_arg1 m ρ c),
       (h c _ (mem_uc main_arg2 (by decide))).trans (B6_main_arg2 m ρ c),
       (h c _ (mem_uc main_arg3 (by decide))).trans (B6_main_arg3 m ρ c),
       (h c _ (mem_uc main_arg4 (by decide))).trans (B6_main_arg4 m ρ c),
       (h c _ (mem_uc main_arg5 (by decide))).trans (B6_main_arg5 m ρ c),
       (h c _ (mem_uc main_arg6 (by decide))).trans (B6_main_arg6 m ρ c),
       (h c _ (mem_uc main_arg7 (by decide))).trans (B6_main_arg7 m ρ c),
       (h c _ (mem_uc main_arg8 (by decide))).trans (B6_main_arg8 m ρ c),
       (h c _ (mem_uc main_arg9 (by decide))).trans (B6_main_arg9 m ρ c),
       (h c _ (mem_uc main_arg10 (by decide))).trans (B6_main_arg10 m ρ c),
       (h c _ (mem_uc main_arg11 (by decide))).trans (B6_main_arg11 m ρ c),
       (h c _ (mem_uc main_arg12 (by decide))).trans (B6_main_arg12 m ρ c),
       (h c _ (mem_uc main_arg13 (by decide))).trans (B6_main_arg13 m ρ c),
       (h c _ (mem_uc main_arg14 (by decide))).trans (B6_main_arg14 m ρ c),
       (h c _ (mem_uc main_arg15 (by decide))).trans (B6_main_arg15 m ρ c),
       (h c _ (mem_uc main_arg16 (by decide))).trans (B6_main_arg16 m ρ c)⟩)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_value m ρ)

end Cert.Kernel.Fr

end
-- ==== Proof.KIRegion0.lean ====
/-
  Region 0: the fused projection. One grid point takes a block of 5000 input rows, the whole concatenated weight matrix and bias, and leaves the 5000 × 384 block of projected rows in its output buffer.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.KernelIdeal.Launch
import proofs.«119884_j21492016349943_1_alg».proof.Proof.Gen.KernelIdeal.Skeleton
import proofs.«119884_j21492016349943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block at every point, whether the point fetches it or the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S384 := Rect.unit (s := S384) ![0] S384.size inb_S384_S384_0
abbrev r0_3 : Rect S5000x384 := Rect.unit (s := S5000x384) ![0, 0] S5000x384.size inb_S5000x384_S5000x384_0_0

/-! ## What the body leaves in each output buffer -/

/-- Output window 3's buffer after the body: its one whole-buffer store of the body's value over the loaded input blocks. -/
def out0_3 (x0 : Vec F S5000x128 .f32) (x1 : Vec F S128x384 .f32) (x2 : Vec F S384 .f32) : Vec F S5000x384 .f32 :=
  View.canon [⟨r0_3, k0_pay1 (View.ld x0 r0_0) (View.ld x1 r0_1) (View.ld x2 r0_2)⟩]

/-- The one store covers the buffer. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 4000000 in
/-- The body on whole staging buffers, the inputs' at contents `x·` and the outputs' at anything, runs to a continuation that
    holds the inputs' as they were and each output's at its stored value. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each input's
    buffer at its block and each output's at its stored value of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the body's triple applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1.lean ====
/-
  Region 1: the edge kernel. One grid point takes 4000 edges: their attributes, the gathered query, key and value rows, and the concatenated edge projection; it leaves the weighted value rows and the edges' attention weights.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.KernelIdeal.Launch
import proofs.«119884_j21492016349943_1_alg».proof.Proof.Gen.KernelIdeal.Skeleton
import proofs.«119884_j21492016349943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block at every point, whether the point fetches it or the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev r1_0 : Rect S4000x32 := Rect.unit (s := S4000x32) ![0, 0] S4000x32.size inb_S4000x32_S4000x32_0_0
abbrev r1_1 : Rect S4000x128 := Rect.unit (s := S4000x128) ![0, 0] S4000x128.size inb_S4000x128_S4000x128_0_0
abbrev r1_2 : Rect S4000x128 := Rect.unit (s := S4000x128) ![0, 0] S4000x128.size inb_S4000x128_S4000x128_0_0
abbrev r1_3 : Rect S4000x128 := Rect.unit (s := S4000x128) ![0, 0] S4000x128.size inb_S4000x128_S4000x128_0_0
abbrev r1_4 : Rect S32x256 := Rect.unit (s := S32x256) ![0, 0] S32x256.size inb_S32x256_S32x256_0_0
abbrev r1_5 : Rect S256 := Rect.unit (s := S256) ![0] S256.size inb_S256_S256_0
abbrev r1_6 : Rect S4000x128 := Rect.unit (s := S4000x128) ![0, 0] S4000x128.size inb_S4000x128_S4000x128_0_0
abbrev r1_7 : Rect S4000x1 := Rect.unit (s := S4000x1) ![0, 0] S4000x1.size inb_S4000x1_S4000x1_0_0

/-! ## What the body leaves in each output buffer -/

/-- Output window 6's buffer after the body: its one whole-buffer store of the body's value over the loaded input blocks. -/
def out1_6 (x0 : Vec F S4000x32 .f32) (x1 : Vec F S4000x128 .f32) (x2 : Vec F S4000x128 .f32) (x3 : Vec F S4000x128 .f32) (x4 : Vec F S32x256 .f32) (x5 : Vec F S256 .f32) : Vec F S4000x128 .f32 :=
  View.canon [⟨r1_6, k1_pay1 (k1_pay5 (View.ld x0 r1_0) (View.ld x4 r1_4) (View.ld x5 r1_5) (View.ld x3 r1_3)) (k1_pay10 (k1_pay3 (View.ld x0 r1_0) (View.ld x4 r1_4) (View.ld x5 r1_5) (View.ld x1 r1_1)) (k1_pay4 (View.ld x2 r1_2)) (k1_pay6 (View.ld x0 r1_0) (View.ld x4 r1_4) (View.ld x5 r1_5) (View.ld x1 r1_1) (View.ld x2 r1_2)) (k1_pay7 (View.ld x0 r1_0) (View.ld x4 r1_4) (View.ld x5 r1_5) (View.ld x1 r1_1) (View.ld x2 r1_2)) (k1_pay8 (View.ld x0 r1_0) (View.ld x4 r1_4) (View.ld x5 r1_5) (View.ld x1 r1_1) (View.ld x2 r1_2)) k1_pay9)⟩]

/-- The one store covers the buffer. -/
theorem cover1_6 (p0 : Vec F S4000x128 .f32) (y : S4000x128.Idx) :
    ∃ pc ∈ ([⟨r1_6, p0⟩] : List (View.Piece (Elt F) S4000x128 .f32)), y ∈ pc.1.set :=
  View.cover_of_tiled [⟨r1_6, p0⟩] S4000x128.size (by rfl) y

/-- Output window 7's buffer after the body: its one whole-buffer store of the body's value over the loaded input blocks. -/
def out1_7 (x0 : Vec F S4000x32 .f32) (x1 : Vec F S4000x128 .f32) (x2 : Vec F S4000x128 .f32) (x3 : Vec F S4000x128 .f32) (x4 : Vec F S32x256 .f32) (x5 : Vec F S256 .f32) : Vec F S4000x1 .f32 :=
  View.canon [⟨r1_7, k1_pay10 (k1_pay3 (View.ld x0 r1_0) (View.ld x4 r1_4) (View.ld x5 r1_5) (View.ld x1 r1_1)) (k1_pay4 (View.ld x2 r1_2)) (k1_pay6 (View.ld x0 r1_0) (View.ld x4 r1_4) (View.ld x5 r1_5) (View.ld x1 r1_1) (View.ld x2 r1_2)) (k1_pay7 (View.ld x0 r1_0) (View.ld x4 r1_4) (View.ld x5 r1_5) (View.ld x1 r1_1) (View.ld x2 r1_2)) (k1_pay8 (View.ld x0 r1_0) (View.ld x4 r1_4) (View.ld x5 r1_5) (View.ld x1 r1_1) (View.ld x2 r1_2)) k1_pay9⟩]

/-- The one store covers the buffer. -/
theorem cover1_7 (p0 : Vec F S4000x1 .f32) (y : S4000x1.Idx) :
    ∃ pc ∈ ([⟨r1_7, p0⟩] : List (View.Piece (Elt F) S4000x1 .f32)), y ∈ pc.1.set :=
  View.cover_of_tiled [⟨r1_7, p0⟩] S4000x1.size (by rfl) y

/-! ## The body's triple -/

set_option maxHeartbeats 4000000 in
/-- The body on whole staging buffers, the inputs' at contents `x·` and the outputs' at anything, runs to a continuation that
    holds the inputs' as they were and each output's at its stored value. -/
theorem sound_kernel1 (c : Dev nD) (E : Set ℕ) (i : grid1.Coords) (arg1 : Memref sig .tc .vmem S4000x32 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S32x256 .f32) (harg5 : arg5.IsWhole) (arg6 : Memref sig .tc .vmem S256 .f32) (harg6 : arg6.IsWhole) (arg7 : Memref sig .tc .vmem S4000x128 .f32) (harg7 : arg7.IsWhole) (arg8 : Memref sig .tc .vmem S4000x1 .f32) (harg8 : arg8.IsWhole)
    (x0 : Vec F S4000x32 .f32) (x1 : Vec F S4000x128 .f32) (x2 : Vec F S4000x128 .f32) (x3 : Vec F S4000x128 .f32) (x4 : Vec F S32x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8) K := by
  simp only [cc1__edge_kernel_eq_skeleton]; unfold cc1__edge_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them; after the body at point `t` each input's
    buffer at its block and each output's at its stored value of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegion2.lean ====
/-
  Region 2: the output stage. One grid point takes 5000 nodes: their aggregated rows and summed weights, the input rows, the output projection and the normalisation's scale and shift; it leaves the normalised rows.
  What each output buffer holds after the body is stated as the one store's value over the loaded input blocks; the body's
  triple says the body, run on whole staging buffers holding the input blocks, ends with the inputs unchanged and each output
  at that value; the proof data say so at every grid point, each input buffer holding its window's block of the array as
  the region finds it. The arrays' contents at region entry are a parameter `V`.
-/
import proofs.«119884_j21492016349943_1_alg».proof.Proof.Gen.KernelIdeal.Launch
import proofs.«119884_j21492016349943_1_alg».proof.Proof.Gen.KernelIdeal.Skeleton
import proofs.«119884_j21492016349943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetches it or the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block at every point, whether the point fetches it or the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The whole-buffer rectangles the body loads and stores through -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S5000x128 := Rect.unit (s := S5000x128) ![0, 0] S5000x128.size inb_S5000x128_S5000x128_0_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S128 := Rect.unit (s := S128) ![0] S128.size inb_S128_S128_0
abbrev r2_6 : Rect S128 := Rect.unit (s := S128) ![0] S128.size inb_S128_S128_0
abbrev r2_7 : Rect S5000x128 := Rect.unit (s := S5000x128) ![0, 0] S5000x128.size inb_S5000x128_S5000x128_0_0

/-! ## What the body leaves in each output buffer -/

/-- Output window 7's buffer after the body: its one whole-buffer store of the body's value over the loaded input blocks. -/
def out2_7 (x0 : Vec F S5000x128 .f32) (x1 : Vec F S5000x1 .f32) (x2 : Vec F S5000x128 .f32) (x3 : Vec F S128x128 .f32) (x4 : Vec F S128 .f32) (x5 : Vec F S128 .f32) (x6 : Vec F S128 .f32) : Vec F S5000x128 .f32 :=
  View.canon [⟨r2_7, k2_pay1 (k2_pay2 (View.ld x0 r2_0) (View.ld x1 r2_1) (View.ld x3 r2_3) (View.ld x4 r2_4) (View.ld x2 r2_2) (View.ld x5 r2_5)) (View.ld x6 r2_6)⟩]

/-- The one store covers the buffer. -/
theorem cover2_7 (p0 : Vec F S5000x128 .f32) (y : S5000x128.Idx) :
    ∃ pc ∈ ([⟨r2_7, p0⟩] : List (View.Piece (Elt F) S5000x128 .f32)), y ∈ pc.1.set :=
  View.cover_of_tiled [⟨r2_7, p0⟩] S5000x128.size (by rfl) y

/-! ## The body's triple -/

set_option maxHeartbeats 4000000 in
/-- The body on whole staging buffers, the inputs' at contents `x·` and the outputs' at anything, runs to a continuation that
    holds the inputs' as they were and each output's at its stored value. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S5000x128 .f32) (harg8 : arg8.IsWhole)
    (x0 : Vec F S5000x128 .f32) (x1 : Vec F S5000x1 .f32) (x2 : Vec F S5000x128 .f32) (x3 : Vec F S128x128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__finalize_kernel i arg1 harg1 arg2 harg2 arg3 harg3 arg4 harg4 arg5 harg5 arg6 harg6 arg7 harg7 arg8 harg8) K := by
  simp only [cc2__finalize_kernel_eq_skeleton]; unfold cc2__finalize_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point `t` each input's
    buffer at its block and each output's at its stored value of the input blocks; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRun.lean ====
/-
  The run of the whole program: its three kernel regions among three stretches of host operations.
  The contents of every unscoped buffer at each boundary are a fold from the launch memory: a host stretch applies its
  operations; a region leaves its arrays at what its write-backs make of them (an input array as entered, an output array the
  fold of the points' written blocks) and every other buffer as entered. Every weakly fair execution terminates without a
  fault in a state whose unscoped buffers hold the last boundary's contents; no stretch and no region writes an argument
  array, so each argument ends as launched, and the result array ends at region 2's output.
-/
import proofs.«119884_j21492016349943_1_alg».proof.Proof.Gen.KernelIdeal.Launch
import proofs.«119884_j21492016349943_1_alg».proof.Proof.Gen.KernelIdeal.Skeleton
import proofs.«119884_j21492016349943_1_alg».proof.Proof.Gen.KernelIdeal.Points
import proofs.«119884_j21492016349943_1_alg».proof.Proof.Gen.KernelIdeal.Regions
import proofs.«119884_j21492016349943_1_alg».proof.Proof.KIRegion0
import proofs.«119884_j21492016349943_1_alg».proof.Proof.KIRegion1
import proofs.«119884_j21492016349943_1_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After host stretch 0: region 0's entry. -/
abbrev B1 : Dev nD → Valuation τ sig (Elt F) := fun c => StableHlo.after hostOps0 (B0 m ρ c)
/-- The same read at the TensorCore's references. -/
abbrev T1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After host stretch 1: region 1's entry. -/
abbrev B3 : Dev nD → Valuation τ sig (Elt F) := fun c => StableHlo.after hostOps1 (B2 m ρ c)
/-- The same read at the TensorCore's references. -/
abbrev T3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem hF1 (c : Dev nD) (w : Fin cfg1.W) : (dat1 (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)

/-- After host stretch 2: region 2's entry. -/
abbrev B5 : Dev nD → Valuation τ sig (Elt F) := fun c => StableHlo.after hostOps2 (B4 m ρ c)
/-- The same read at the TensorCore's references. -/
abbrev T5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (T5 m ρ) c).arrAt w cfg2.N
theorem B6_arr (c : Dev nD) (w : Fin cfg2.W) :
    B6 m ρ c (Proc.devRef .tc (Pipeline.arrRef spec2 w)) = (dat2 (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev T6 : (c : Dev nD) → (b : Ref sig .tc) → Buf (Elt F) ((c : Thread nD τ).loc b) := fun c b => B6 m ρ c b
theorem hF2 (c : Dev nD) (w : Fin cfg2.W) : (dat2 (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)

/-! ## The arguments end as launched

No host operation and no region writes an argument array: a region reads it through an input window or does not touch it. -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := (B6_arr m ρ c 2).trans (((dat2 (T5 m ρ) c).arrAt_in 2 rfl _).trans (A_eq2 (T5 m ρ) c 2))
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := (B4_arr m ρ c 0).trans (((dat1 (T3 m ρ) c).arrAt_in 0 rfl _).trans (A_eq1 (T3 m ρ) c 0))
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B6_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := B6_of_ne m ρ c main_arg6 (by decide)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B6_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := B6_of_ne m ρ c main_arg7 (by decide)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B6_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := B6_of_ne m ρ c main_arg8 (by decide)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B6_main_arg9 (c : Dev nD) : B6 m ρ c (Proc.devRef .tc main_arg9) = m ((c : Thread nD τ).loc main_arg9) :=
  calc B6 m ρ c (Proc.devRef .tc main_arg9)
    _ = B5 m ρ c (Proc.devRef .tc main_arg9) := (B6_arr m ρ c 3).trans (((dat2 (T5 m ρ) c).arrAt_in 3 rfl _).trans (A_eq2 (T5 m ρ) c 3))
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B6_main_arg10 (c : Dev nD) : B6 m ρ c (Proc.devRef .tc main_arg10) = m ((c : Thread nD τ).loc main_arg10) :=
  calc B6 m ρ c (Proc.devRef .tc main_arg10)
    _ = B5 m ρ c (Proc.devRef .tc main_arg10) := (B6_arr m ρ c 4).trans (((dat2 (T5 m ρ) c).arrAt_in 4 rfl _).trans (A_eq2 (T5 m ρ) c 4))
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B6_main_arg11 (c : Dev nD) : B6 m ρ c (Proc.devRef .tc main_arg11) = m ((c : Thread nD τ).loc main_arg11) :=
  calc B6 m ρ c (Proc.devRef .tc main_arg11)
    _ = B5 m ρ c (Proc.devRef .tc main_arg11) := B6_of_ne m ρ c main_arg11 (by decide)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B6_main_arg12 (c : Dev nD) : B6 m ρ c (Proc.devRef .tc main_arg12) = m ((c : Thread nD τ).loc main_arg12) :=
  calc B6 m ρ c (Proc.devRef .tc main_arg12)
    _ = B5 m ρ c (Proc.devRef .tc main_arg12) := B6_of_ne m ρ c main_arg12 (by decide)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B6_main_arg13 (c : Dev nD) : B6 m ρ c (Proc.devRef .tc main_arg13) = m ((c : Thread nD τ).loc main_arg13) :=
  calc B6 m ρ c (Proc.devRef .tc main_arg13)
    _ = B5 m ρ c (Proc.devRef .tc main_arg13) := B6_of_ne m ρ c main_arg13 (by decide)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B6_main_arg14 (c : Dev nD) : B6 m ρ c (Proc.devRef .tc main_arg14) = m ((c : Thread nD τ).loc main_arg14) :=
  calc B6 m ρ c (Proc.devRef .tc main_arg14)
    _ = B5 m ρ c (Proc.devRef .tc main_arg14) := B6_of_ne m ρ c main_arg14 (by decide)
    _ = B4 m ρ c (Proc.devRef .tc main_arg14) := StableHlo.after_of_writes_sub hostOps2 _ hostOps2_writes (by decide : main_arg14 ∉ hostOps2_W)
    _ = B3 m ρ c (Proc.devRef .tc main_arg14) := B4_of_ne m ρ c main_arg14 (by decide)
    _ = B2 m ρ c (Proc.devRef .tc main_arg14) := StableHlo.after_of_writes_sub hostOps1 _ hostOps1_writes (by decide : main_arg14 ∉ hostOps1_W)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B6_main_arg15 (c : Dev nD) : B6 m ρ c (Proc.devRef .tc main_arg15) = m ((c : Thread nD τ).loc main_arg15) :=
  calc B6 m ρ c (Proc.devRef .tc main_arg15)
    _ = B5 m ρ c (Proc.devRef .tc main_arg15) := (B6_arr m ρ c 5).trans (((dat2 (T5 m ρ) c).arrAt_in 5 rfl _).trans (A_eq2 (T5 m ρ) c 5))
    _ = B4 m ρ c (Proc.devRef .tc main_arg15) := StableHlo.after_of_writes_sub hostOps2 _ hostOps2_writes (by decide : main_arg15 ∉ hostOps2_W)
    _ = B3 m ρ c (Proc.devRef .tc main_arg15) := B4_of_ne m ρ c main_arg15 (by decide)
    _ = B2 m ρ c (Proc.devRef .tc main_arg15) := StableHlo.after_of_writes_sub hostOps1 _ hostOps1_writes (by decide : main_arg15 ∉ hostOps1_W)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B6_main_arg16 (c : Dev nD) : B6 m ρ c (Proc.devRef .tc main_arg16) = m ((c : Thread nD τ).loc main_arg16) :=
  calc B6 m ρ c (Proc.devRef .tc main_arg16)
    _ = B5 m ρ c (Proc.devRef .tc main_arg16) := (B6_arr m ρ c 6).trans (((dat2 (T5 m ρ) c).arrAt_in 6 rfl _).trans (A_eq2 (T5 m ρ) c 6))
    _ = B4 m ρ c (Proc.devRef .tc main_arg16) := StableHlo.after_of_writes_sub hostOps2 _ hostOps2_writes (by decide : main_arg16 ∉ hostOps2_W)
    _ = B3 m ρ c (Proc.devRef .tc main_arg16) := B4_of_ne m ρ c main_arg16 (by decide)
    _ = B2 m ρ c (Proc.devRef .tc main_arg16) := StableHlo.after_of_writes_sub hostOps1 _ hostOps1_writes (by decide : main_arg16 ∉ hostOps1_W)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

/-! ## The proof data family and the thread state -/

/-- No pipeline has a prefetched table. -/
abbrev admK : (p : Fin 3) → (pcfgs (F := F) p).Adm := fun p => (cfgs p).toPCfg_adm
/-- Every pipeline's proof data, each at its region's entry contents. -/
def pdat : (p : Fin 3) → (c : Dev nD) → Dat τ (Elt F) Unit ℕ (UR sig nD τ) ℕ (Pipeline.pin (pcfgs (F := F)) admK p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
/-- No core owes another anything. -/
abbrev Lk : GSem nD τ sig → Finset Unit := fun _ => ∅
abbrev lvk : GSem nD τ sig → Unit → ℕ := fun _ _ => 0
/-- What rides beside the buffers through every segment: the generator register at some state and the core owing nothing. -/
abbrev Rk (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- Region 0 over the thread state: entered from every unscoped buffer at `B1`, left at `B2`. Its arrays are split out of
    the unscoped buffers and put back at the exit contents; the generator register goes into the kernel's invariant and comes
    back; nothing is owed; the kernel has no semaphore of its own. -/
def reg0 : Pipeline.RegionSeg (pcfgs (F := F)) admK (pdat m ρ) () defs₀ 𝒱₀ Lk lvk 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ Lk lvk 0 fun _ _ => rfl
  pre c := iprop(StableHlo.held (c : Thread nD τ) (Pipeline.ucRefs τ sig) (B1 m ρ c) ∗ Rk c)
  post c := iprop(StableHlo.held (c : Thread nD τ) (Pipeline.ucRefs τ sig) (B2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admK (pdat m ρ) launch0.win launch0.arr_whole c
      ((pdat m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdat m ρ) ((pdat m ρ 0 c).share_full fun _ => rfl)
      (T1 m ρ c) (T2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split out of
    the unscoped buffers and put back at the exit contents; the generator register goes into the kernel's invariant and comes
    back; nothing is owed; the kernel has no semaphore of its own. -/
def reg1 : Pipeline.RegionSeg (pcfgs (F := F)) admK (pdat m ρ) () defs₀ 𝒱₀ Lk lvk 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ Lk lvk 1 fun _ _ => rfl
  pre c := iprop(StableHlo.held (c : Thread nD τ) (Pipeline.ucRefs τ sig) (B3 m ρ c) ∗ Rk c)
  post c := iprop(StableHlo.held (c : Thread nD τ) (Pipeline.ucRefs τ sig) (B4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admK (pdat m ρ) launch1.win launch1.arr_whole c
      ((pdat m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdat m ρ) ((pdat m ρ 1 c).share_full fun _ => rfl)
      (T3 m ρ c) (T4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split out of
    the unscoped buffers and put back at the exit contents; the generator register goes into the kernel's invariant and comes
    back; nothing is owed; the kernel has no semaphore of its own. -/
def reg2 : Pipeline.RegionSeg (pcfgs (F := F)) admK (pdat m ρ) () defs₀ 𝒱₀ Lk lvk 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ Lk lvk 2 fun _ _ => rfl
  pre c := iprop(StableHlo.held (c : Thread nD τ) (Pipeline.ucRefs τ sig) (B5 m ρ c) ∗ Rk c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) admK (pdat m ρ) launch2.win launch2.arr_whole c
      ((pdat m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdat m ρ) ((pdat m ρ 2 c).share_full fun _ => rfl)
      (T5 m ρ c) (T6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segList : List (Pipeline.Seg (pcfgs (F := F)) admK (pdat m ρ) () defs₀ 𝒱₀ Lk lvk) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ) ]

theorem main_run (c : Dev nD) : main (F := F) c = Pipeline.Seg.run (segList m ρ) := (main_chain c).trans (by chain_rfl)

/-- What the result array holds at the end, per core: region 2's output array as its write-backs leave it. -/
def result (c : Dev nD) : Buf (Elt F) ((c.tc : Thread nD τ).loc main_v40) := B6 m ρ c (Proc.devRef .tc main_v40)

set_option backward.isDefEq.respectTransparency.types false in
/-- THE RUN: from any memory with zero counters every weakly fair execution of the program terminates, nothing faulting, in a
    state whose result array is `result` and whose argument arrays are as launched. -/
theorem run_value : θ_run defs (onTc (τ := τ) (main (F := F))) ⟨m, fun _ => 0, ρ⟩ (fun r => ∀ c : Dev nD,
      r.2.mem ((c.tc : Thread nD τ).loc main_v40) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) admK (pdat m ρ) () cellOf_inj emb₁ defs₀ 𝒱₀ Lk lvk m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rk c)) (Tₙ := Tend m ρ)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c =>
      ⟨h c _ (mem_uc main_v40 (by decide)),
       (h c _ (mem_uc main_arg0 (by decide))).trans (B6_main_arg0 m ρ c),
       (h c _ (mem_uc main_arg1 (by decide))).trans (B6_main_arg1 m ρ c),
       (h c _ (mem_uc main_arg2 (by decide))).trans (B6_main_arg2 m ρ c),
       (h c _ (mem_uc main_arg3 (by decide))).trans (B6_main_arg3 m ρ c),
       (h c _ (mem_uc main_arg4 (by decide))).trans (B6_main_arg4 m ρ c),
       (h c _ (mem_uc main_arg5 (by decide))).trans (B6_main_arg5 m ρ c),
       (h c _ (mem_uc main_arg6 (by decide))).trans (B6_main_arg6 m ρ c),
       (h c _ (mem_uc main_arg7 (by decide))).trans (B6_main_arg7 m ρ c),
       (h c _ (mem_uc main_arg8 (by decide))).trans (B6_main_arg8 m ρ c),
       (h c _ (mem_uc main_arg9 (by decide))).trans (B6_main_arg9 m ρ c),
       (h c _ (mem_uc main_arg10 (by decide))).trans (B6_main_arg10 m ρ c),
       (h c _ (mem_uc main_arg11 (by decide))).trans (B6_main_arg11 m ρ c),
       (h c _ (mem_uc main_arg12 (by decide))).trans (B6_main_arg12 m ρ c),
       (h c _ (mem_uc main_arg13 (by decide))).trans (B6_main_arg13 m ρ c),
       (h c _ (mem_uc main_arg14 (by decide))).trans (B6_main_arg14 m ρ c),
       (h c _ (mem_uc main_arg15 (by decide))).trans (B6_main_arg15 m ρ c),
       (h c _ (mem_uc main_arg16 (by decide))).trans (B6_main_arg16 m ρ c)⟩)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_value m ρ)

end Cert.KernelIdeal.Fr

end
-- ==== Proof.KIArgs.lean ====
/-
  Each argument array's contents at every boundary between the program's segments are its launch contents: no host
  operation writes an argument and no region changes one (a region reads it through an input window or does not touch it).
-/
import proofs.«119884_j21492016349943_1_alg».proof.Proof.Gen.KernelIdeal.Launch
import proofs.«119884_j21492016349943_1_alg».proof.Proof.Gen.KernelIdeal.Skeleton
import proofs.«119884_j21492016349943_1_alg».proof.Proof.Gen.KernelIdeal.Points
import proofs.«119884_j21492016349943_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem B1_main_arg0 (c : Dev nD) : B1 m ρ c (Proc.devRef .tc main_arg0) = m ((c : Thread nD τ).loc main_arg0) :=
  calc B1 m ρ c (Proc.devRef .tc main_arg0)
    _ = B0 m ρ c (Proc.devRef .tc main_arg0) := StableHlo.after_of_writes_sub hostOps0 _ hostOps0_writes (by decide : main_arg0 ∉ hostOps0_W)
    _ = m ((c : Thread nD τ).loc main_arg0) := rfl

theorem B2_main_arg0 (c : Dev nD) : B2 m ρ c (Proc.devRef .tc main_arg0) = m ((c : Thread nD τ).loc main_arg0) :=
  calc B2 m ρ c (Proc.devRef .tc main_arg0)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (T1 m ρ) c).arrAt_in 0 rfl _).trans (A_eq0 (T1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl

theorem B1_main_arg1 (c : Dev nD) : B1 m ρ c (Proc.devRef .tc main_arg1) = m ((c : Thread nD τ).loc main_arg1) :=
  calc B1 m ρ c (Proc.devRef .tc main_arg1)
    _ = B0 m ρ c (Proc.devRef .tc main_arg1) := StableHlo.after_of_writes_sub hostOps0 _ hostOps0_writes (by decide : main_arg1 ∉ hostOps0_W)
    _ = m ((c : Thread nD τ).loc main_arg1) := rfl

theorem B2_main_arg1 (c : Dev nD) : B2 m ρ c (Proc.devRef .tc main_arg1) = m ((c : Thread nD τ).loc main_arg1) :=
  calc B2 m ρ c (Proc.devRef .tc main_arg1)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

theorem B1_main_arg2 (c : Dev nD) : B1 m ρ c (Proc.devRef .tc main_arg2) = m ((c : Thread nD τ).loc main_arg2) :=
  calc B1 m ρ c (Proc.devRef .tc main_arg2)
    _ = B0 m ρ c (Proc.devRef .tc main_arg2) := StableHlo.after_of_writes_sub hostOps0 _ hostOps0_writes (by decide : main_arg2 ∉ hostOps0_W)
    _ = m ((c : Thread nD τ).loc main_arg2) := rfl

theorem B2_main_arg2 (c : Dev nD) : B2 m ρ c (Proc.devRef .tc main_arg2) = m ((c : Thread nD τ).loc main_arg2) :=
  calc B2 m ρ c (Proc.devRef .tc main_arg2)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := (B4_arr m ρ c 0).trans (((dat1 (T3 m ρ) c).arrAt_in 0 rfl _).trans (A_eq1 (T3 m ρ) c 0))
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (by decide : main_arg2 ∉ hostOps2_W)
    _ = B3 m ρ c (Proc.devRef .tc main_arg2) := (B4_arr m ρ c 0).trans (((dat1 (T3 m ρ) c).arrAt_in 0 rfl _).trans (A_eq1 (T3 m ρ) c 0))
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

theorem B1_main_arg3 (c : Dev nD) : B1 m ρ c (Proc.devRef .tc main_arg3) = m ((c : Thread nD τ).loc main_arg3) :=
  calc B1 m ρ c (Proc.devRef .tc main_arg3)
    _ = B0 m ρ c (Proc.devRef .tc main_arg3) := StableHlo.after_of_writes_sub hostOps0 _ hostOps0_writes (by decide : main_arg3 ∉ hostOps0_W)
    _ = m ((c : Thread nD τ).loc main_arg3) := rfl

theorem B2_main_arg3 (c : Dev nD) : B2 m ρ c (Proc.devRef .tc main_arg3) = m ((c : Thread nD τ).loc main_arg3) :=
  calc B2 m ρ c (Proc.devRef .tc main_arg3)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

theorem B1_main_arg4 (c : Dev nD) : B1 m ρ c (Proc.devRef .tc main_arg4) = m ((c : Thread nD τ).loc main_arg4) :=
  calc B1 m ρ c (Proc.devRef .tc main_arg4)
    _ = B0 m ρ c (Proc.devRef .tc main_arg4) := StableHlo.after_of_writes_sub hostOps0 _ hostOps0_writes (by decide : main_arg4 ∉ hostOps0_W)
    _ = m ((c : Thread nD τ).loc main_arg4) := rfl

theorem B2_main_arg4 (c : Dev nD) : B2 m ρ c (Proc.devRef .tc main_arg4) = m ((c : Thread nD τ).loc main_arg4) :=
  calc B2 m ρ c (Proc.devRef .tc main_arg4)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

theorem B1_main_arg5 (c : Dev nD) : B1 m ρ c (Proc.devRef .tc main_arg5) = m ((c : Thread nD τ).loc main_arg5) :=
  calc B1 m ρ c (Proc.devRef .tc main_arg5)
    _ = B0 m ρ c (Proc.devRef .tc main_arg5) := StableHlo.after_of_writes_sub hostOps0 _ hostOps0_writes (by decide : main_arg5 ∉ hostOps0_W)
    _ = m ((c : Thread nD τ).loc main_arg5) := rfl

theorem B2_main_arg5 (c : Dev nD) : B2 m ρ c (Proc.devRef .tc main_arg5) = m ((c : Thread nD τ).loc main_arg5) :=
  calc B2 m ρ c (Proc.devRef .tc main_arg5)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

theorem B1_main_arg6 (c : Dev nD) : B1 m ρ c (Proc.devRef .tc main_arg6) = m ((c : Thread nD τ).loc main_arg6) :=
  calc B1 m ρ c (Proc.devRef .tc main_arg6)
    _ = B0 m ρ c (Proc.devRef .tc main_arg6) := StableHlo.after_of_writes_sub hostOps0 _ hostOps0_writes (by decide : main_arg6 ∉ hostOps0_W)
    _ = m ((c : Thread nD τ).loc main_arg6) := rfl

theorem B2_main_arg6 (c : Dev nD) : B2 m ρ c (Proc.devRef .tc main_arg6) = m ((c : Thread nD τ).loc main_arg6) :=
  calc B2 m ρ c (Proc.devRef .tc main_arg6)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B3_main_arg6 (c : Dev nD) : B3 m ρ c (Proc.devRef .tc main_arg6) = m ((c : Thread nD τ).loc main_arg6) :=
  calc B3 m ρ c (Proc.devRef .tc main_arg6)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

theorem B1_main_arg7 (c : Dev nD) : B1 m ρ c (Proc.devRef .tc main_arg7) = m ((c : Thread nD τ).loc main_arg7) :=
  calc B1 m ρ c (Proc.devRef .tc main_arg7)
    _ = B0 m ρ c (Proc.devRef .tc main_arg7) := StableHlo.after_of_writes_sub hostOps0 _ hostOps0_writes (by decide : main_arg7 ∉ hostOps0_W)
    _ = m ((c : Thread nD τ).loc main_arg7) := rfl

theorem B2_main_arg7 (c : Dev nD) : B2 m ρ c (Proc.devRef .tc main_arg7) = m ((c : Thread nD τ).loc main_arg7) :=
  calc B2 m ρ c (Proc.devRef .tc main_arg7)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B3_main_arg7 (c : Dev nD) : B3 m ρ c (Proc.devRef .tc main_arg7) = m ((c : Thread nD τ).loc main_arg7) :=
  calc B3 m ρ c (Proc.devRef .tc main_arg7)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

theorem B1_main_arg8 (c : Dev nD) : B1 m ρ c (Proc.devRef .tc main_arg8) = m ((c : Thread nD τ).loc main_arg8) :=
  calc B1 m ρ c (Proc.devRef .tc main_arg8)
    _ = B0 m ρ c (Proc.devRef .tc main_arg8) := StableHlo.after_of_writes_sub hostOps0 _ hostOps0_writes (by decide : main_arg8 ∉ hostOps0_W)
    _ = m ((c : Thread nD τ).loc main_arg8) := rfl

theorem B2_main_arg8 (c : Dev nD) : B2 m ρ c (Proc.devRef .tc main_arg8) = m ((c : Thread nD τ).loc main_arg8) :=
  calc B2 m ρ c (Proc.devRef .tc main_arg8)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B3_main_arg8 (c : Dev nD) : B3 m ρ c (Proc.devRef .tc main_arg8) = m ((c : Thread nD τ).loc main_arg8) :=
  calc B3 m ρ c (Proc.devRef .tc main_arg8)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := StableHlo.after_of_writes_sub hostOps2 _ hostOps2_writes (by decide : main_arg8 ∉ hostOps2_W)
    _ = B3 m ρ c (Proc.devRef .tc main_arg8) := B4_of_ne m ρ c main_arg8 (by decide)
    _ = B2 m ρ c (Proc.devRef .tc main_arg8) := StableHlo.after_of_writes_sub hostOps1 _ hostOps1_writes (by decide : main_arg8 ∉ hostOps1_W)
    _ = B1 m ρ c (Proc.devRef .tc main_arg8) := B2_of_ne m ρ c main_arg8 (by decide)
    _ = B0 m ρ c (Proc.devRef .tc main_arg8) := StableHlo.after_of_writes_sub hostOps0 _ hostOps0_writes (by decide : main_arg8 ∉ hostOps0_W)
    _ = m ((c : Thread nD τ).loc main_arg8) := rfl

theorem B1_main_arg9 (c : Dev nD) : B1 m ρ c (Proc.devRef .tc main_arg9) = m ((c : Thread nD τ).loc main_arg9) :=
  calc B1 m ρ c (Proc.devRef .tc main_arg9)
    _ = B0 m ρ c (Proc.devRef .tc main_arg9) := StableHlo.after_of_writes_sub hostOps0 _ hostOps0_writes (by decide : main_arg9 ∉ hostOps0_W)
    _ = m ((c : Thread nD τ).loc main_arg9) := rfl

theorem B2_main_arg9 (c : Dev nD) : B2 m ρ c (Proc.devRef .tc main_arg9) = m ((c : Thread nD τ).loc main_arg9) :=
  calc B2 m ρ c (Proc.devRef .tc main_arg9)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B3_main_arg9 (c : Dev nD) : B3 m ρ c (Proc.devRef .tc main_arg9) = m ((c : Thread nD τ).loc main_arg9) :=
  calc B3 m ρ c (Proc.devRef .tc main_arg9)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := StableHlo.after_of_writes_sub hostOps2 _ hostOps2_writes (by decide : main_arg9 ∉ hostOps2_W)
    _ = B3 m ρ c (Proc.devRef .tc main_arg9) := B4_of_ne m ρ c main_arg9 (by decide)
    _ = B2 m ρ c (Proc.devRef .tc main_arg9) := StableHlo.after_of_writes_sub hostOps1 _ hostOps1_writes (by decide : main_arg9 ∉ hostOps1_W)
    _ = B1 m ρ c (Proc.devRef .tc main_arg9) := B2_of_ne m ρ c main_arg9 (by decide)
    _ = B0 m ρ c (Proc.devRef .tc main_arg9) := StableHlo.after_of_writes_sub hostOps0 _ hostOps0_writes (by decide : main_arg9 ∉ hostOps0_W)
    _ = m ((c : Thread nD τ).loc main_arg9) := rfl

theorem B1_main_arg10 (c : Dev nD) : B1 m ρ c (Proc.devRef .tc main_arg10) = m ((c : Thread nD τ).loc main_arg10) :=
  calc B1 m ρ c (Proc.devRef .tc main_arg10)
    _ = B0 m ρ c (Proc.devRef .tc main_arg10) := StableHlo.after_of_writes_sub hostOps0 _ hostOps0_writes (by decide : main_arg10 ∉ hostOps0_W)
    _ = m ((c : Thread nD τ).loc main_arg10) := rfl

theorem B2_main_arg10 (c : Dev nD) : B2 m ρ c (Proc.devRef .tc main_arg10) = m ((c : Thread nD τ).loc main_arg10) :=
  calc B2 m ρ c (Proc.devRef .tc main_arg10)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B3_main_arg10 (c : Dev nD) : B3 m ρ c (Proc.devRef .tc main_arg10) = m ((c : Thread nD τ).loc main_arg10) :=
  calc B3 m ρ c (Proc.devRef .tc main_arg10)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B4_main_arg10 (c : Dev nD) : B4 m ρ c (Proc.devRef .tc main_arg10) = m ((c : Thread nD τ).loc main_arg10) :=
  calc B4 m ρ c (Proc.devRef .tc main_arg10)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B5_main_arg10 (c : Dev nD) : B5 m ρ c (Proc.devRef .tc main_arg10) = m ((c : Thread nD τ).loc main_arg10) :=
  calc B5 m ρ c (Proc.devRef .tc main_arg10)
    _ = B4 m ρ c (Proc.devRef .tc main_arg10) := StableHlo.after_of_writes_sub hostOps2 _ hostOps2_writes (by decide : main_arg10 ∉ hostOps2_W)
    _ = B3 m ρ c (Proc.devRef .tc main_arg10) := B4_of_ne m ρ c main_arg10 (by decide)
    _ = B2 m ρ c (Proc.devRef .tc main_arg10) := StableHlo.after_of_writes_sub hostOps1 _ hostOps1_writes (by decide : main_arg10 ∉ hostOps1_W)
    _ = B1 m ρ c (Proc.devRef .tc main_arg10) := B2_of_ne m ρ c main_arg10 (by decide)
    _ = B0 m ρ c (Proc.devRef .tc main_arg10) := StableHlo.after_of_writes_sub hostOps0 _ hostOps0_writes (by decide : main_arg10 ∉ hostOps0_W)
    _ = m ((c : Thread nD τ).loc main_arg10) := rfl

theorem B1_main_arg11 (c : Dev nD) : B1 m ρ c (Proc.devRef .tc main_arg11) = m ((c : Thread nD τ).loc main_arg11) :=
  calc B1 m ρ c (Proc.devRef .tc main_arg11)
    _ = B0 m ρ c (Proc.devRef .tc main_arg11) := StableHlo.after_of_writes_sub hostOps0 _ hostOps0_writes (by decide : main_arg11 ∉ hostOps0_W)
    _ = m ((c : Thread nD τ).loc main_arg11) := rfl

theorem B2_main_arg11 (c : Dev nD) : B2 m ρ c (Proc.devRef .tc main_arg11) = m ((c : Thread nD τ).loc main_arg11) :=
  calc B2 m ρ c (Proc.devRef .tc main_arg11)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B3_main_arg11 (c : Dev nD) : B3 m ρ c (Proc.devRef .tc main_arg11) = m ((c : Thread nD τ).loc main_arg11) :=
  calc B3 m ρ c (Proc.devRef .tc main_arg11)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B4_main_arg11 (c : Dev nD) : B4 m ρ c (Proc.devRef .tc main_arg11) = m ((c : Thread nD τ).loc main_arg11) :=
  calc B4 m ρ c (Proc.devRef .tc main_arg11)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B5_main_arg11 (c : Dev nD) : B5 m ρ c (Proc.devRef .tc main_arg11) = m ((c : Thread nD τ).loc main_arg11) :=
  calc B5 m ρ c (Proc.devRef .tc main_arg11)
    _ = B4 m ρ c (Proc.devRef .tc main_arg11) := StableHlo.after_of_writes_sub hostOps2 _ hostOps2_writes (by decide : main_arg11 ∉ hostOps2_W)
    _ = B3 m ρ c (Proc.devRef .tc main_arg11) := B4_of_ne m ρ c main_arg11 (by decide)
    _ = B2 m ρ c (Proc.devRef .tc main_arg11) := StableHlo.after_of_writes_sub hostOps1 _ hostOps1_writes (by decide : main_arg11 ∉ hostOps1_W)
    _ = B1 m ρ c (Proc.devRef .tc main_arg11) := B2_of_ne m ρ c main_arg11 (by decide)
    _ = B0 m ρ c (Proc.devRef .tc main_arg11) := StableHlo.after_of_writes_sub hostOps0 _ hostOps0_writes (by decide : main_arg11 ∉ hostOps0_W)
    _ = m ((c : Thread nD τ).loc main_arg11) := rfl

theorem B1_main_arg12 (c : Dev nD) : B1 m ρ c (Proc.devRef .tc main_arg12) = m ((c : Thread nD τ).loc main_arg12) :=
  calc B1 m ρ c (Proc.devRef .tc main_arg12)
    _ = B0 m ρ c (Proc.devRef .tc main_arg12) := StableHlo.after_of_writes_sub hostOps0 _ hostOps0_writes (by decide : main_arg12 ∉ hostOps0_W)
    _ = m ((c : Thread nD τ).loc main_arg12) := rfl

theorem B2_main_arg12 (c : Dev nD) : B2 m ρ c (Proc.devRef .tc main_arg12) = m ((c : Thread nD τ).loc main_arg12) :=
  calc B2 m ρ c (Proc.devRef .tc main_arg12)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B3_main_arg12 (c : Dev nD) : B3 m ρ c (Proc.devRef .tc main_arg12) = m ((c : Thread nD τ).loc main_arg12) :=
  calc B3 m ρ c (Proc.devRef .tc main_arg12)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B4_main_arg12 (c : Dev nD) : B4 m ρ c (Proc.devRef .tc main_arg12) = m ((c : Thread nD τ).loc main_arg12) :=
  calc B4 m ρ c (Proc.devRef .tc main_arg12)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B5_main_arg12 (c : Dev nD) : B5 m ρ c (Proc.devRef .tc main_arg12) = m ((c : Thread nD τ).loc main_arg12) :=
  calc B5 m ρ c (Proc.devRef .tc main_arg12)
    _ = B4 m ρ c (Proc.devRef .tc main_arg12) := StableHlo.after_of_writes_sub hostOps2 _ hostOps2_writes (by decide : main_arg12 ∉ hostOps2_W)
    _ = B3 m ρ c (Proc.devRef .tc main_arg12) := B4_of_ne m ρ c main_arg12 (by decide)
    _ = B2 m ρ c (Proc.devRef .tc main_arg12) := StableHlo.after_of_writes_sub hostOps1 _ hostOps1_writes (by decide : main_arg12 ∉ hostOps1_W)
    _ = B1 m ρ c (Proc.devRef .tc main_arg12) := B2_of_ne m ρ c main_arg12 (by decide)
    _ = B0 m ρ c (Proc.devRef .tc main_arg12) := StableHlo.after_of_writes_sub hostOps0 _ hostOps0_writes (by decide : main_arg12 ∉ hostOps0_W)
    _ = m ((c : Thread nD τ).loc main_arg12) := rfl

theorem B1_main_arg13 (c : Dev nD) : B1 m ρ c (Proc.devRef .tc main_arg13) = m ((c : Thread nD τ).loc main_arg13) :=
  calc B1 m ρ c (Proc.devRef .tc main_arg13)
    _ = B0 m ρ c (Proc.devRef .tc main_arg13) := StableHlo.after_of_writes_sub hostOps0 _ hostOps0_writes (by decide : main_arg13 ∉ hostOps0_W)
    _ = m ((c : Thread nD τ).loc main_arg13) := rfl

theorem B2_main_arg13 (c : Dev nD) : B2 m ρ c (Proc.devRef .tc main_arg13) = m ((c : Thread nD τ).loc main_arg13) :=
  calc B2 m ρ c (Proc.devRef .tc main_arg13)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B3_main_arg13 (c : Dev nD) : B3 m ρ c (Proc.devRef .tc main_arg13) = m ((c : Thread nD τ).loc main_arg13) :=
  calc B3 m ρ c (Proc.devRef .tc main_arg13)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B4_main_arg13 (c : Dev nD) : B4 m ρ c (Proc.devRef .tc main_arg13) = m ((c : Thread nD τ).loc main_arg13) :=
  calc B4 m ρ c (Proc.devRef .tc main_arg13)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B5_main_arg13 (c : Dev nD) : B5 m ρ c (Proc.devRef .tc main_arg13) = m ((c : Thread nD τ).loc main_arg13) :=
  calc B5 m ρ c (Proc.devRef .tc main_arg13)
    _ = B4 m ρ c (Proc.devRef .tc main_arg13) := StableHlo.after_of_writes_sub hostOps2 _ hostOps2_writes (by decide : main_arg13 ∉ hostOps2_W)
    _ = B3 m ρ c (Proc.devRef .tc main_arg13) := B4_of_ne m ρ c main_arg13 (by decide)
    _ = B2 m ρ c (Proc.devRef .tc main_arg13) := StableHlo.after_of_writes_sub hostOps1 _ hostOps1_writes (by decide : main_arg13 ∉ hostOps1_W)
    _ = B1 m ρ c (Proc.devRef .tc main_arg13) := B2_of_ne m ρ c main_arg13 (by decide)
    _ = B0 m ρ c (Proc.devRef .tc main_arg13) := StableHlo.after_of_writes_sub hostOps0 _ hostOps0_writes (by decide : main_arg13 ∉ hostOps0_W)
    _ = m ((c : Thread nD τ).loc main_arg13) := rfl

theorem B1_main_arg14 (c : Dev nD) : B1 m ρ c (Proc.devRef .tc main_arg14) = m ((c : Thread nD τ).loc main_arg14) :=
  calc B1 m ρ c (Proc.devRef .tc main_arg14)
    _ = B0 m ρ c (Proc.devRef .tc main_arg14) := StableHlo.after_of_writes_sub hostOps0 _ hostOps0_writes (by decide : main_arg14 ∉ hostOps0_W)
    _ = m ((c : Thread nD τ).loc main_arg14) := rfl

theorem B2_main_arg14 (c : Dev nD) : B2 m ρ c (Proc.devRef .tc main_arg14) = m ((c : Thread nD τ).loc main_arg14) :=
  calc B2 m ρ c (Proc.devRef .tc main_arg14)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B3_main_arg14 (c : Dev nD) : B3 m ρ c (Proc.devRef .tc main_arg14) = m ((c : Thread nD τ).loc main_arg14) :=
  calc B3 m ρ c (Proc.devRef .tc main_arg14)
    _ = B2 m ρ c (Proc.devRef .tc main_arg14) := StableHlo.after_of_writes_sub hostOps1 _ hostOps1_writes (by decide : main_arg14 ∉ hostOps1_W)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B4_main_arg14 (c : Dev nD) : B4 m ρ c (Proc.devRef .tc main_arg14) = m ((c : Thread nD τ).loc main_arg14) :=
  calc B4 m ρ c (Proc.devRef .tc main_arg14)
    _ = B3 m ρ c (Proc.devRef .tc main_arg14) := B4_of_ne m ρ c main_arg14 (by decide)
    _ = B2 m ρ c (Proc.devRef .tc main_arg14) := StableHlo.after_of_writes_sub hostOps1 _ hostOps1_writes (by decide : main_arg14 ∉ hostOps1_W)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B5_main_arg14 (c : Dev nD) : B5 m ρ c (Proc.devRef .tc main_arg14) = m ((c : Thread nD τ).loc main_arg14) :=
  calc B5 m ρ c (Proc.devRef .tc main_arg14)
    _ = B4 m ρ c (Proc.devRef .tc main_arg14) := StableHlo.after_of_writes_sub hostOps2 _ hostOps2_writes (by decide : main_arg14 ∉ hostOps2_W)
    _ = B3 m ρ c (Proc.devRef .tc main_arg14) := B4_of_ne m ρ c main_arg14 (by decide)
    _ = B2 m ρ c (Proc.devRef .tc main_arg14) := StableHlo.after_of_writes_sub hostOps1 _ hostOps1_writes (by decide : main_arg14 ∉ hostOps1_W)
    _ = B1 m ρ c (Proc.devRef .tc main_arg14) := B2_of_ne m ρ c main_arg14 (by decide)
    _ = B0 m ρ c (Proc.devRef .tc main_arg14) := StableHlo.after_of_writes_sub hostOps0 _ hostOps0_writes (by decide : main_arg14 ∉ hostOps0_W)
    _ = m ((c : Thread nD τ).loc main_arg14) := rfl

theorem B1_main_arg15 (c : Dev nD) : B1 m ρ c (Proc.devRef .tc main_arg15) = m ((c : Thread nD τ).loc main_arg15) :=
  calc B1 m ρ c (Proc.devRef .tc main_arg15)
    _ = B0 m ρ c (Proc.devRef .tc main_arg15) := StableHlo.after_of_writes_sub hostOps0 _ hostOps0_writes (by decide : main_arg15 ∉ hostOps0_W)
    _ = m ((c : Thread nD τ).loc main_arg15) := rfl

theorem B2_main_arg15 (c : Dev nD) : B2 m ρ c (Proc.devRef .tc main_arg15) = m ((c : Thread nD τ).loc main_arg15) :=
  calc B2 m ρ c (Proc.devRef .tc main_arg15)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B3_main_arg15 (c : Dev nD) : B3 m ρ c (Proc.devRef .tc main_arg15) = m ((c : Thread nD τ).loc main_arg15) :=
  calc B3 m ρ c (Proc.devRef .tc main_arg15)
    _ = B2 m ρ c (Proc.devRef .tc main_arg15) := StableHlo.after_of_writes_sub hostOps1 _ hostOps1_writes (by decide : main_arg15 ∉ hostOps1_W)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B4_main_arg15 (c : Dev nD) : B4 m ρ c (Proc.devRef .tc main_arg15) = m ((c : Thread nD τ).loc main_arg15) :=
  calc B4 m ρ c (Proc.devRef .tc main_arg15)
    _ = B3 m ρ c (Proc.devRef .tc main_arg15) := B4_of_ne m ρ c main_arg15 (by decide)
    _ = B2 m ρ c (Proc.devRef .tc main_arg15) := StableHlo.after_of_writes_sub hostOps1 _ hostOps1_writes (by decide : main_arg15 ∉ hostOps1_W)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B5_main_arg15 (c : Dev nD) : B5 m ρ c (Proc.devRef .tc main_arg15) = m ((c : Thread nD τ).loc main_arg15) :=
  calc B5 m ρ c (Proc.devRef .tc main_arg15)
    _ = B4 m ρ c (Proc.devRef .tc main_arg15) := StableHlo.after_of_writes_sub hostOps2 _ hostOps2_writes (by decide : main_arg15 ∉ hostOps2_W)
    _ = B3 m ρ c (Proc.devRef .tc main_arg15) := B4_of_ne m ρ c main_arg15 (by decide)
    _ = B2 m ρ c (Proc.devRef .tc main_arg15) := StableHlo.after_of_writes_sub hostOps1 _ hostOps1_writes (by decide : main_arg15 ∉ hostOps1_W)
    _ = B1 m ρ c (Proc.devRef .tc main_arg15) := B2_of_ne m ρ c main_arg15 (by decide)
    _ = B0 m ρ c (Proc.devRef .tc main_arg15) := StableHlo.after_of_writes_sub hostOps0 _ hostOps0_writes (by decide : main_arg15 ∉ hostOps0_W)
    _ = m ((c : Thread nD τ).loc main_arg15) := rfl

theorem B1_main_arg16 (c : Dev nD) : B1 m ρ c (Proc.devRef .tc main_arg16) = m ((c : Thread nD τ).loc main_arg16) :=
  calc B1 m ρ c (Proc.devRef .tc main_arg16)
    _ = B0 m ρ c (Proc.devRef .tc main_arg16) := StableHlo.after_of_writes_sub hostOps0 _ hostOps0_writes (by decide : main_arg16 ∉ hostOps0_W)
    _ = m ((c : Thread nD τ).loc main_arg16) := rfl

theorem B2_main_arg16 (c : Dev nD) : B2 m ρ c (Proc.devRef .tc main_arg16) = m ((c : Thread nD τ).loc main_arg16) :=
  calc B2 m ρ c (Proc.devRef .tc main_arg16)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

theorem B3_main_arg16 (c : Dev nD) : B3 m ρ c (Proc.devRef .tc main_arg16) = m ((c : Thread nD τ).loc main_arg16) :=
  calc B3 m ρ c (Proc.devRef .tc main_arg16)
    _ = B2 m ρ c (Proc.devRef .tc main_arg16) := StableHlo.after_of_writes_sub hostOps1 _ hostOps1_writes (by decide : main_arg16 ∉ hostOps1_W)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

theorem B4_main_arg16 (c : Dev nD) : B4 m ρ c (Proc.devRef .tc main_arg16) = m ((c : Thread nD τ).loc main_arg16) :=
  calc B4 m ρ c (Proc.devRef .tc main_arg16)
    _ = B3 m ρ c (Proc.devRef .tc main_arg16) := B4_of_ne m ρ c main_arg16 (by decide)
    _ = B2 m ρ c (Proc.devRef .tc main_arg16) := StableHlo.after_of_writes_sub hostOps1 _ hostOps1_writes (by decide : main_arg16 ∉ hostOps1_W)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

theorem B5_main_arg16 (c : Dev nD) : B5 m ρ c (Proc.devRef .tc main_arg16) = m ((c : Thread nD τ).loc main_arg16) :=
  calc B5 m ρ c (Proc.devRef .tc main_arg16)
    _ = B4 m ρ c (Proc.devRef .tc main_arg16) := StableHlo.after_of_writes_sub hostOps2 _ hostOps2_writes (by decide : main_arg16 ∉ hostOps2_W)
    _ = B3 m ρ c (Proc.devRef .tc main_arg16) := B4_of_ne m ρ c main_arg16 (by decide)
    _ = B2 m ρ c (Proc.devRef .tc main_arg16) := StableHlo.after_of_writes_sub hostOps1 _ hostOps1_writes (by decide : main_arg16 ∉ hostOps1_W)
    _ = B1 m ρ c (Proc.devRef .tc main_arg16) := B2_of_ne m ρ c main_arg16 (by decide)
    _ = B0 m ρ c (Proc.devRef .tc main_arg16) := StableHlo.after_of_writes_sub hostOps0 _ hostOps0_writes (by decide : main_arg16 ∉ hostOps0_W)
    _ = m ((c : Thread nD τ).loc main_arg16) := rfl

/-- An index vector cut out by the first stretch is not written again. -/
theorem B2_main_v1 (c : Dev nD) : B2 m ρ c (Proc.devRef .tc main_v1) = B1 m ρ c (Proc.devRef .tc main_v1) :=
  calc B2 m ρ c (Proc.devRef .tc main_v1)
    _ = B1 m ρ c (Proc.devRef .tc main_v1) := B2_of_ne m ρ c main_v1 (by decide)

/-- An index vector cut out by the first stretch is not written again. -/
theorem B3_main_v1 (c : Dev nD) : B3 m ρ c (Proc.devRef .tc main_v1) = B1 m ρ c (Proc.devRef .tc main_v1) :=
  calc B3 m ρ c (Proc.devRef .tc main_v1)
    _ = B2 m ρ c (Proc.devRef .tc main_v1) := StableHlo.after_of_writes_sub hostOps1 _ hostOps1_writes (by decide : main_v1 ∉ hostOps1_W)
    _ = B1 m ρ c (Proc.devRef .tc main_v1) := B2_of_ne m ρ c main_v1 (by decide)

/-- An index vector cut out by the first stretch is not written again. -/
theorem B4_main_v1 (c : Dev nD) : B4 m ρ c (Proc.devRef .tc main_v1) = B1 m ρ c (Proc.devRef .tc main_v1) :=
  calc B4 m ρ c (Proc.devRef .tc main_v1)
    _ = B3 m ρ c (Proc.devRef .tc main_v1) := B4_of_ne m ρ c main_v1 (by decide)
    _ = B2 m ρ c (Proc.devRef .tc main_v1) := StableHlo.after_of_writes_sub hostOps1 _ hostOps1_writes (by decide : main_v1 ∉ hostOps1_W)
    _ = B1 m ρ c (Proc.devRef .tc main_v1) := B2_of_ne m ρ c main_v1 (by decide)

/-- An index vector cut out by the first stretch is not written again. -/
theorem B2_main_v3 (c : Dev nD) : B2 m ρ c (Proc.devRef .tc main_v3) = B1 m ρ c (Proc.devRef .tc main_v3) :=
  calc B2 m ρ c (Proc.devRef .tc main_v3)
    _ = B1 m ρ c (Proc.devRef .tc main_v3) := B2_of_ne m ρ c main_v3 (by decide)

/-- An index vector cut out by the first stretch is not written again. -/
theorem B3_main_v3 (c : Dev nD) : B3 m ρ c (Proc.devRef .tc main_v3) = B1 m ρ c (Proc.devRef .tc main_v3) :=
  calc B3 m ρ c (Proc.devRef .tc main_v3)
    _ = B2 m ρ c (Proc.devRef .tc main_v3) := StableHlo.after_of_writes_sub hostOps1 _ hostOps1_writes (by decide : main_v3 ∉ hostOps1_W)
    _ = B1 m ρ c (Proc.devRef .tc main_v3) := B2_of_ne m ρ c main_v3 (by decide)

/-- An index vector cut out by the first stretch is not written again. -/
theorem B4_main_v3 (c : Dev nD) : B4 m ρ c (Proc.devRef .tc main_v3) = B1 m ρ c (Proc.devRef .tc main_v3) :=
  calc B4 m ρ c (Proc.devRef .tc main_v3)
    _ = B3 m ρ c (Proc.devRef .tc main_v3) := B4_of_ne m ρ c main_v3 (by decide)
    _ = B2 m ρ c (Proc.devRef .tc main_v3) := StableHlo.after_of_writes_sub hostOps1 _ hostOps1_writes (by decide : main_v3 ∉ hostOps1_W)
    _ = B1 m ρ c (Proc.devRef .tc main_v3) := B2_of_ne m ρ c main_v3 (by decide)

end Cert.KernelIdeal.Fr

end
-- ==== Proof.Spec.lean ====
/-
  The mathematics both programs compute, row by row, on the extended reals.

  Every stage of the layer is ROW-LOCAL: a result row depends on the same row of the row-tiled operands and on the
  whole of the small weight operands. So the stages are written here for ONE row, as functions of that row's entries:

  * a dense layer's entry: the inner product of an input row with a weight column, plus the bias entry (`lin`);
  * an edge's attention weight (`attn`): per head h the inner product of the 16 query and key entries of the head,
    times a quarter (`score`); clipped into [-5, 5]; exponentiated; averaged over the 8 heads;
  * the normalised aggregate `o / (n + ε)` (`normAgg`);
  * the layer normalisation of a 128-wide row with scale γ and shift β (`layerNorm`): with μ = Σ y / 128 and
    v = Σ (y - μ)² / 128, the entry ((y j - μ) · (v + ε')^(-1/2)) · γ j + β j.

  The float literals are kept as their f32 words: the same word stands on both sides and is never evaluated, except the
  quarter, which meets the reference's division by four (`div_four`).
-/
import Idealize.ShloMosaic.PureOps.Ideal
import Idealize.ShloMosaic.PureOps.Ideal.Laws
import Idealize.ShloMosaic.Lib.ValueIdx

noncomputable section

namespace Cert.Spec

open Idealize.ShloMosaic

/-- One entry of a dense layer: `Σ k, x k · w k + b`. -/
def lin {K : ℕ} (x w : Fin K → EReal) (b : EReal) : EReal := (∑ k : Fin K, x k * w k) + b

/-- Column `j` of the left half of a 256-wide concatenation of two 128-wide blocks. -/
def loCol (j : Fin 128) : Fin 256 := ⟨j.val, by omega⟩

/-- Column `128 + j`: column `j` of the right half. -/
def hiCol (j : Fin 128) : Fin 256 := ⟨128 + j.val, by omega⟩

/-- Entry `16 · h + d` of a 128-wide row: entry `d` of head `h`. -/
def col (h : Fin 8) (d : Fin 16) : Fin 128 := ⟨16 * h.val + d.val, by omega⟩

/-- Head `h`'s scaled score: the inner product of the head's query and key entries, times the f32 word of 0.25. -/
def score (q k : Fin 128 → EReal) (h : Fin 8) : EReal :=
  (∑ d : Fin 16, q (col h d) * k (col h d)) * Ideal.ofBits .f32 0x3E800000#32

/-- A score clipped into [-5, 5]: first from below, then from above. -/
def clip (s : EReal) : EReal := min (Ideal.ofBits .f32 0x40A00000#32) (max (Ideal.ofBits .f32 0xC0A00000#32) s)

/-- An edge's attention weight: the mean over the 8 heads of `exp (clip score)`. -/
def attn (q k : Fin 128 → EReal) : EReal :=
  Ideal.div (∑ h : Fin 8, Ideal.exp (clip (score q k h))) (Ideal.ofBits .f32 0x41000000#32)

/-- The aggregate normalised by the summed weights: `o / (n + ε)`, ε the f32 word nearest 1e-8. -/
def normAgg (o n : EReal) : EReal := Ideal.div o (n + Ideal.ofBits .f32 0x322BCC77#32)

/-- The mean of a 128-wide row. -/
def mean128 (y : Fin 128 → EReal) : EReal := Ideal.div (∑ j : Fin 128, y j) (Ideal.ofBits .f32 0x43000000#32)

/-- Layer normalisation of a 128-wide row, entry `j`. -/
def layerNorm (y γ β : Fin 128 → EReal) (j : Fin 128) : EReal :=
  ((y j - mean128 y) * Ideal.rsqrt (mean128 (fun i => (y i - mean128 y) * (y i - mean128 y)) + Ideal.ofBits .f32 0x3727C5AC#32))
    * γ j + β j

end Cert.Spec

end
-- ==== Proof.PayLibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.PayQkv.lean ====
/-
  The projection kernel's stored block, read at an entry.

  The kernel multiplies a 5000×128 block of rows by the 128×384 weight matrix (both passed through a change of float
  format, which is the identity on the extended reals), starting from the zero accumulator, and adds the bias row
  spread over the 5000 rows. So entry (p, q) of what it stores is the dense layer's entry: the inner product of row p
  of the block with column q of the weights, plus bias entry q.
-/
import proofs.«119884_j21492016349943_1_alg».proof.Proof.Gen.KernelIdeal.Skeleton
import proofs.«119884_j21492016349943_1_alg».proof.Proof.Spec
import proofs.«119884_j21492016349943_1_alg».proof.Proof.PayLibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

/-- Entry `(p, q)` of the projection kernel's stored block is `Σ k, x (p, k) · w (k, q) + b q`. -/
theorem pay0 (x : Vec Ideal S5000x128 .f32) (w : Vec Ideal S128x384 .f32) (b : Vec Ideal S384 .f32) (p : Fin 5000) (q : Fin 384) :
    k0_pay1 (F := Ideal) x w b (ix2 p q)
      = lin (fun k : Fin 128 => x (ix2 p k)) (fun k : Fin 128 => w (ix2 k q)) (b (ix1 q)) := by
  unfold k0_pay1 lin
  dsimp only
  rw [addf_apply]
  congr 1
  · -- the product: the contraction index runs over the 128 columns of the block and rows of the weights
    refine (Ideal.matmul_constant_zero_apply _ none _ _ _).trans ?_
    refine (Cert.PlainDot.contraction_eq (M := 5000) (K := 128) (N := 384) _ _ p q).trans ?_
    refine Finset.sum_congr rfl fun k _ => ?_
    rw [truncf_apply, truncf_apply, shapeCast_self]
  · -- the bias: a vector made a one-row matrix and spread over the rows reads its entry q
    rw [broadcastTo_1b_ab_apply, shapeCast_a_1a_apply, shapeCast_self]

end Cert.KernelIdeal.Pay

end
-- ==== Proof.KIVal0.lean ====
/-
  Region 0's output array after the run, as one function of the arrays the region is entered with.

  The kernel is row-local: grid point t takes rows 5000·t … 5000·t + 4999 of the input and writes the same rows of the
  output; the weight matrix and the bias are whole at every point. So the block a point writes back is that point's block
  of ONE whole-array function, the projection `proj`: entry (r, q) is the inner product of input row r with weight column
  q, plus bias entry q. The ten row blocks tile the output array, hence the array ends at `proj` everywhere.
-/
import proofs.«119884_j21492016349943_1_alg».proof.Proof.KIRegion0
import proofs.«119884_j21492016349943_1_alg».proof.Proof.PayQkv
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The projection of whole arrays: entry (r, q) is `Σ k, x (r, k) · w (k, q) + b q`. -/
def proj (x : S50000x128.Idx → EReal) (w : S128x384.Idx → EReal) (b : S384.Idx → EReal) : S50000x384.Idx → EReal :=
  fun i => lin (fun k : Fin 128 => x (ix2 (⟨(i 0).val, (i 0).isLt⟩ : Fin 50000) k))
    (fun k : Fin 128 => w (ix2 k (⟨(i 1).val, (i 1).isLt⟩ : Fin 384))) (b (ix1 (⟨(i 1).val, (i 1).isLt⟩ : Fin 384)))

/-- The printed index maps over the ten grid points: the input's and the output's row block is the point's number, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- A block of the row-tiled input read at (p, k) is the array at row 5000·t + p. -/
theorem in0_read (c : Dev nD) (t : Fin cfg0.N) (p : Fin 5000) (k : Fin 128) (h : t.val * 5000 + p.val < 50000) :
    iblk0 V c 0 t (ix2 p k) = V c main_arg0 (ix2 (⟨t.val * 5000 + p.val, h⟩ : Fin 50000) k) := by
  obtain ⟨e0, e1, -⟩ := idx_facts0 t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight window's one block is the whole matrix. -/
theorem w0_read (c : Dev nD) (t : Fin cfg0.N) (k : Fin 128) (q : Fin 384) :
    iblk0 V c 1 t (ix2 k q) = V c main_v4 (ix2 k q) := by
  obtain ⟨-, -, e2, e3, -⟩ := idx_facts0 t
  show V c main_v4 (((cfg0.win 1).blk t).view.emb (ix2 k q)) = V c main_v4 _
  refine congrArg (V c main_v4) (funext fun a => Fin.ext ?_)
  match a with
  | ⟨0, _⟩ => show win0_1.index t (0 : Fin 2) * 128 + 1 * k.val = k.val; omega
  | ⟨1, _⟩ => show win0_1.index t (1 : Fin 2) * 384 + 1 * q.val = q.val; omega

/-- The bias window's one block is the whole vector. -/
theorem b0_read (c : Dev nD) (t : Fin cfg0.N) (q : Fin 384) :
    iblk0 V c 2 t (ix1 q) = V c main_v5 (ix1 q) := by
  obtain ⟨-, -, -, -, e4, -⟩ := idx_facts0 t
  show V c main_v5 (((cfg0.win 2).blk t).view.emb (ix1 q)) = V c main_v5 _
  refine congrArg (V c main_v5) (funext fun a => Fin.ext ?_)
  match a with
  | ⟨0, _⟩ => show win0_2.index t (0 : Fin 1) * 384 + 1 * q.val = q.val; omega

/-- WHAT POINT `t` WRITES BACK is block `t` of the projection of the arrays as the region finds them. -/
theorem flushed0_eq (c : Dev nD) (t : Fin cfg0.N) :
    (dat0 V c).flushed 3 t = ((cfg0.win 3).blk t).view.read (Elt Ideal) (proj (V c main_arg0) (V c main_v4) (V c main_v5)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x384) hz2, View.ld_unit_zero (S := S384) hz1]
  obtain ⟨-, -, -, -, -, e5, e6⟩ := idx_facts0 t
  have ht : t.val < 10 := by have h := t.isLt; have hN : cfg0.N = 10 := N_0; omega
  funext j
  obtain ⟨p, q, rfl⟩ : ∃ (p : Fin 5000) (q : Fin 384), j = ix2 p q := ⟨j 0, j 1, eq_ix2 j⟩
  have hp : t.val * 5000 + p.val < 50000 := by have := p.isLt; omega
  show k0_pay1 (F := Ideal) (iblk0 V c 0 t) (iblk0 V c 1 t) (iblk0 V c 2 t) (ix2 p q)
    = proj (V c main_arg0) (V c main_v4) (V c main_v5) (((cfg0.win 3).blk t).view.emb (ix2 p q))
  refine (Pay.pay0 _ _ _ p q).trans ?_
  have hi0 : ((((cfg0.win 3).blk t).view.emb (ix2 p q)) 0).val = t.val * 5000 + p.val := by
    show win0_3.index t (0 : Fin 2) * 5000 + 1 * p.val = _; omega
  have hi1 : ((((cfg0.win 3).blk t).view.emb (ix2 p q)) 1).val = q.val := by
    show win0_3.index t (1 : Fin 2) * 384 + 1 * q.val = _; omega
  unfold proj
  have r0 : (⟨((((cfg0.win 3).blk t).view.emb (ix2 p q)) 0).val, ((((cfg0.win 3).blk t).view.emb (ix2 p q)) 0).isLt⟩ : Fin 50000) = ⟨t.val * 5000 + p.val, hp⟩ := Fin.ext hi0
  have r1 : (⟨((((cfg0.win 3).blk t).view.emb (ix2 p q)) 1).val, ((((cfg0.win 3).blk t).view.emb (ix2 p q)) 1).isLt⟩ : Fin 384) = q := Fin.ext hi1
  rw [r0, r1]
  simp only [in0_read V c t p _ hp, w0_read, b0_read]

/-- An index of the output array is in point `t`'s block iff its row lies in the block's 5000 rows. -/
theorem mem_blk0 (t : Fin cfg0.N) (i : S50000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v6).slice (win0_3.rect t)).set ↔ _
  rw [View.set_slice_whole, Rect.mem_set_unit]
  exact Iff.rfl

/-- Every index of the output array lies in the block of the point numbered by its row block. -/
theorem cover0 (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  refine ⟨⟨(i 0).val / 5000, by have hN : cfg0.N = 10 := N_0; omega⟩, flush0_3 _, ?_⟩
  rw [mem_blk0]
  obtain ⟨-, -, -, -, -, e5, e6⟩ := idx_facts0 ⟨(i 0).val / 5000, by have hN : cfg0.N = 10 := N_0; omega⟩
  intro a
  match a with
  | ⟨0, _⟩ => show win0_3.index _ (0 : Fin 2) * 5000 ≤ (i 0).val ∧ (i 0).val < win0_3.index _ (0 : Fin 2) * 5000 + 5000; simp only [e5]; omega
  | ⟨1, _⟩ => show win0_3.index _ (1 : Fin 2) * 384 ≤ (i 1).val ∧ (i 1).val < win0_3.index _ (1 : Fin 2) * 384 + 384; simp only [e6]; omega

/-- THE ARRAY after the region: the projection of the arrays as the region finds them. -/
theorem final0 (c : Dev nD) : (dat0 V c).arrAt 3 cfg0.N = proj (V c main_arg0) (V c main_v4) (V c main_v5) :=
  (dat0 V c).arrAt_eq_of_cover 3 _ (fun t _ => flushed0_eq V c t) (cover0)

end Cert.KernelIdeal.Val

end
-- ==== Proof.PayLibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.PayEdge.lean ====
/-
  The edge kernel's two stored blocks, read at an entry.

  For a block of 4000 edges the kernel
    • projects the 32 edge features by the 32×256 weights (from the zero accumulator, the changes of float format being
      the identity on the extended reals) and adds the bias row: columns 0…127 of the result are added to the gathered
      query rows, columns 128…255 to the gathered value rows;
    • for each of the 8 heads takes the 16 columns 16·h … 16·h+15 of the query and key rows, multiplies them entry by
      entry, sums along the row, keeps the sum as a column and multiplies by a quarter: the head's score;
    • puts the 8 score columns side by side, clips every score into [-5, 5], exponentiates, sums along the row and
      divides by 8: the edge's attention weight, stored as the second result;
    • multiplies every entry of the value row by the edge's weight, stored as the first result.
  The pieces are named here as functions of arbitrary query and key blocks (`headCol`, `scoreCol`, `scoresBlk`, `attnOf`);
  the kernel's stored weight column is their composition by unfolding.
-/
import proofs.«119884_j21492016349943_1_alg».proof.Proof.Gen.KernelIdeal.Skeleton
import proofs.«119884_j21492016349943_1_alg».proof.Proof.Spec
import proofs.«119884_j21492016349943_1_alg».proof.Proof.PayLibPlainDot
import proofs.«119884_j21492016349943_1_alg».proof.Proof.PayLibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

/-- An entrywise exponential read at an index. -/
theorem exp_apply {s : Shape} {φ : FTy} (a : FVec Ideal s φ) (i : s.Idx) : exp a i = Ideal.exp (a i) := rfl

/-! ## The projected edge features -/

/-- Entry `(p, c)` of the projected edge features: `Σ k, ea (p, k) · wqv (k, c) + bqv c`. -/
theorem proj_apply (ea : Vec Ideal S4000x32 .f32) (wqv : Vec Ideal S32x256 .f32) (bqv : Vec Ideal S256 .f32) (p : Fin 4000) (c : Fin 256) :
    k1_pay2 (F := Ideal) ea wqv bqv (ix2 p c)
      = lin (fun k : Fin 32 => ea (ix2 p k)) (fun k : Fin 32 => wqv (ix2 k c)) (bqv (ix1 c)) := by
  unfold k1_pay2 lin
  dsimp only
  rw [addf_apply]
  refine congrArg₂ (· + ·) ?_ ?_
  · refine (Ideal.matmul_constant_zero_apply _ none _ _ _).trans ?_
    refine (Cert.PlainDot.contraction_eq (M := 4000) (K := 32) (N := 256) _ _ p c).trans ?_
    refine Finset.sum_congr rfl fun k _ => ?_
    rw [truncf_apply, truncf_apply, shapeCast_self]
  · rw [broadcastTo_1b_ab_apply, shapeCast_a_1a_apply, shapeCast_self]

/-- Entry `(p, i)` of the query block: the gathered query entry plus column `i` of the projected edge features. -/
theorem query_apply (ea : Vec Ideal S4000x32 .f32) (wqv : Vec Ideal S32x256 .f32) (bqv : Vec Ideal S256 .f32) (qs : Vec Ideal S4000x128 .f32)
    (p : Fin 4000) (i : Fin 128) :
    k1_pay3 (F := Ideal) ea wqv bqv qs (ix2 p i)
      = qs (ix2 p i) + lin (fun k : Fin 32 => ea (ix2 p k)) (fun k : Fin 32 => wqv (ix2 k (loCol i))) (bqv (ix1 (loCol i))) := by
  unfold k1_pay3
  rw [addf_apply, shapeCast_self, slice2_axis1_apply 0 _ _ p i (loCol i) (Nat.zero_add _).symm, proj_apply]

/-- Entry `(p, j)` of the value block: the gathered value entry plus column `128 + j` of the projected edge features. -/
theorem value_apply (ea : Vec Ideal S4000x32 .f32) (wqv : Vec Ideal S32x256 .f32) (bqv : Vec Ideal S256 .f32) (vs : Vec Ideal S4000x128 .f32)
    (p : Fin 4000) (j : Fin 128) :
    k1_pay5 (F := Ideal) ea wqv bqv vs (ix2 p j)
      = vs (ix2 p j) + lin (fun k : Fin 32 => ea (ix2 p k)) (fun k : Fin 32 => wqv (ix2 k (hiCol j))) (bqv (ix1 (hiCol j))) := by
  unfold k1_pay5
  rw [addf_apply, shapeCast_self, slice2_axis1_apply 128 _ _ p j (hiCol j) rfl, proj_apply]

/-- The key block is the gathered key block. -/
theorem key_eq (kd : Vec Ideal S4000x128 .f32) : k1_pay4 (F := Ideal) kd = kd := by
  unfold k1_pay4
  exact shapeCast_self _ _

/-! ## One head's score column -/

/-- The 16 columns from `o` of two blocks multiplied entry by entry and summed along the row, kept as a column. -/
def headCol (o : Nat) (hs : S4000x128.Slices ![0, o] S4000x16) (a b : FVec Ideal S4000x128 .f32) : FVec Ideal S4000x1 .f32 :=
  shapeCast S4000x1
    (multiReduction (F := Ideal) .add [1] S4000 (mulf (extractStridedSlice S4000x16 ![0, o] a hs) (extractStridedSlice S4000x16 ![0, o] b hs))
      0x00000000#32 reduces_S4000x16_S4000 (.inl rfl) rfl)
    shapeCasts_S4000_S4000x1

/-- The head's score column: that sum times a quarter. -/
def scoreCol (o : Nat) (hs : S4000x128.Slices ![0, o] S4000x16) (a b : FVec Ideal S4000x128 .f32) : FVec Ideal S4000x1 .f32 :=
  mulf (headCol o hs a b) (broadcast S4000x1 (Scalar.ofBits .f32 0x3E800000#32))

/-- At row `p` the column of sums is the inner product of the 16 entries from column `o` on. -/
theorem headCol_apply (o : Nat) (hs : S4000x128.Slices ![0, o] S4000x16) (a b : FVec Ideal S4000x128 .f32)
    (c : Fin 16 → Fin 128) (hc : ∀ d, (c d).val = o + d.val) (p : Fin 4000) :
    headCol o hs a b (ix2 p (0 : Fin 1)) = ∑ d : Fin 16, a (ix2 p (c d)) * b (ix2 p (c d)) := by
  unfold headCol
  refine (Keepdims.shapeCast_a_a1_apply _ _ p 0).trans ?_
  refine (Keepdims.laneSum_apply _ _ _ _ p).trans ?_
  refine Finset.sum_congr rfl fun d _ => ?_
  rw [mulf_apply, slice2_axis1_apply o a hs p d (c d) (hc d), slice2_axis1_apply o b hs p d (c d) (hc d)]

/-- At row `p` the score column is that inner product times the quarter. -/
theorem scoreCol_apply (o : Nat) (hs : S4000x128.Slices ![0, o] S4000x16) (a b : FVec Ideal S4000x128 .f32)
    (c : Fin 16 → Fin 128) (hc : ∀ d, (c d).val = o + d.val) (p : Fin 4000) :
    scoreCol o hs a b (ix2 p (0 : Fin 1))
      = (∑ d : Fin 16, a (ix2 p (c d)) * b (ix2 p (c d))) * Ideal.ofBits .f32 0x3E800000#32 := by
  unfold scoreCol
  rw [mulf_apply, broadcast_apply, headCol_apply o hs a b c hc p]
  rfl

/-! ## The eight score columns side by side -/

/-- Eight columns put side by side read, at `(p, h)`, the `h`-th column at row `p`: each piece is one column wide, so
    the pieces before the `h`-th take up `h` columns. -/
theorem concat8_apply (c : Fin 8 → FVec Ideal S4000x1 .f32) (p : Fin 4000) (h : Fin 8) :
    concatenate S4000x8 1 [⟨S4000x1, c 0⟩, ⟨S4000x1, c 1⟩, ⟨S4000x1, c 2⟩, ⟨S4000x1, c 3⟩, ⟨S4000x1, c 4⟩, ⟨S4000x1, c 5⟩,
        ⟨S4000x1, c 6⟩, ⟨S4000x1, c 7⟩] concatenates_S4000x1_S4000x1_S4000x1_S4000x1_S4000x1_S4000x1_S4000x1_S4000x1_S4000x8_d1 (ix2 p h)
      = c h (ix2 p (0 : Fin 1)) := by
  refine concatenate_apply_piece (t := S4000x8) 1 _ _ (ix2 p h) h.val (by exact h.isLt) S4000x1 (c h) ?_ rfl h.val ?_ (ix2 p (0 : Fin 1))
    (fun b hb => ?_) ?_
  · fin_cases h <;> rfl
  · fin_cases h <;> rfl
  · match b with
    | ⟨0, _⟩ => rfl
    | ⟨1, _⟩ => exact absurd rfl hb
  · exact Nat.add_zero _

/-- The block of the eight heads' scores of a query block `a` and a key block `b`. -/
def scoresBlk (a b : FVec Ideal S4000x128 .f32) : FVec Ideal S4000x8 .f32 :=
  concatenate S4000x8 1 [⟨S4000x1, scoreCol 0 slices_S4000x128_o0_0_S4000x16 a b⟩,
      ⟨S4000x1, scoreCol 16 slices_S4000x128_o0_16_S4000x16 a b⟩,
      ⟨S4000x1, scoreCol 32 slices_S4000x128_o0_32_S4000x16 a b⟩,
      ⟨S4000x1, scoreCol 48 slices_S4000x128_o0_48_S4000x16 a b⟩,
      ⟨S4000x1, scoreCol 64 slices_S4000x128_o0_64_S4000x16 a b⟩,
      ⟨S4000x1, scoreCol 80 slices_S4000x128_o0_80_S4000x16 a b⟩,
      ⟨S4000x1, scoreCol 96 slices_S4000x128_o0_96_S4000x16 a b⟩,
      ⟨S4000x1, scoreCol 112 slices_S4000x128_o0_112_S4000x16 a b⟩]
    concatenates_S4000x1_S4000x1_S4000x1_S4000x1_S4000x1_S4000x1_S4000x1_S4000x1_S4000x8_d1

/-- Entry `(p, h)` of the score block is head `h`'s score of row `p` of the two blocks: head `h` owns the columns
    `16·h … 16·h+15`. -/
theorem scoresBlk_apply (a b : FVec Ideal S4000x128 .f32) (p : Fin 4000) (h : Fin 8) :
    scoresBlk a b (ix2 p h) = score (fun i : Fin 128 => a (ix2 p i)) (fun i : Fin 128 => b (ix2 p i)) h := by
  unfold scoresBlk
  refine (concat8_apply ![scoreCol 0 slices_S4000x128_o0_0_S4000x16 a b,
      scoreCol 16 slices_S4000x128_o0_16_S4000x16 a b,
      scoreCol 32 slices_S4000x128_o0_32_S4000x16 a b,
      scoreCol 48 slices_S4000x128_o0_48_S4000x16 a b,
      scoreCol 64 slices_S4000x128_o0_64_S4000x16 a b,
      scoreCol 80 slices_S4000x128_o0_80_S4000x16 a b,
      scoreCol 96 slices_S4000x128_o0_96_S4000x16 a b,
      scoreCol 112 slices_S4000x128_o0_112_S4000x16 a b] p h).trans ?_
  match h with
  | ⟨0, _⟩ => exact scoreCol_apply 0 slices_S4000x128_o0_0_S4000x16 a b (col ⟨0, by omega⟩) (fun _ => rfl) p
  | ⟨1, _⟩ => exact scoreCol_apply 16 slices_S4000x128_o0_16_S4000x16 a b (col ⟨1, by omega⟩) (fun _ => rfl) p
  | ⟨2, _⟩ => exact scoreCol_apply 32 slices_S4000x128_o0_32_S4000x16 a b (col ⟨2, by omega⟩) (fun _ => rfl) p
  | ⟨3, _⟩ => exact scoreCol_apply 48 slices_S4000x128_o0_48_S4000x16 a b (col ⟨3, by omega⟩) (fun _ => rfl) p
  | ⟨4, _⟩ => exact scoreCol_apply 64 slices_S4000x128_o0_64_S4000x16 a b (col ⟨4, by omega⟩) (fun _ => rfl) p
  | ⟨5, _⟩ => exact scoreCol_apply 80 slices_S4000x128_o0_80_S4000x16 a b (col ⟨5, by omega⟩) (fun _ => rfl) p
  | ⟨6, _⟩ => exact scoreCol_apply 96 slices_S4000x128_o0_96_S4000x16 a b (col ⟨6, by omega⟩) (fun _ => rfl) p
  | ⟨7, _⟩ => exact scoreCol_apply 112 slices_S4000x128_o0_112_S4000x16 a b (col ⟨7, by omega⟩) (fun _ => rfl) p

/-! ## From the scores to the weight -/

/-- Every score clipped into [-5, 5] and exponentiated, the eight summed along the row, kept as a column, divided by 8. -/
def attnOf (s : FVec Ideal S4000x8 .f32) : FVec Ideal S4000x1 .f32 :=
  divf
    (shapeCast S4000x1
      (multiReduction (F := Ideal) .add [1] S4000
        (exp (minimumf (broadcast S4000x8 (Scalar.ofBits .f32 0x40A00000#32))
          (maximumf (broadcast S4000x8 (Scalar.ofBits .f32 0xC0A00000#32)) s)))
        0x00000000#32 reduces_S4000x8_S4000 (.inl rfl) rfl)
      shapeCasts_S4000_S4000x1)
    (broadcast S4000x1 (Scalar.ofBits .f32 0x41000000#32))

/-- At row `p`: the mean over the 8 heads of the exponential of the clipped score. -/
theorem attnOf_apply (s : FVec Ideal S4000x8 .f32) (p : Fin 4000) :
    attnOf s (ix2 p (0 : Fin 1))
      = Ideal.div (∑ h : Fin 8, Ideal.exp (clip (s (ix2 p h)))) (Ideal.ofBits .f32 0x41000000#32) := by
  unfold attnOf
  rw [divf_apply, broadcast_apply]
  refine congrArg (fun t => Ideal.div t (Ideal.ofBits .f32 0x41000000#32)) ?_
  refine (Keepdims.shapeCast_a_a1_apply _ _ p 0).trans ?_
  refine (Keepdims.laneSum_apply _ _ _ _ p).trans ?_
  refine Finset.sum_congr rfl fun h _ => ?_
  rw [exp_apply, minimumf_apply, maximumf_apply, broadcast_apply, broadcast_apply]
  rfl

/-! ## The kernel's two stored blocks -/

/-- The column of attention weights the kernel stores as its second result. -/
def attnBlk (ea : Vec Ideal S4000x32 .f32) (wqv : Vec Ideal S32x256 .f32) (bqv : Vec Ideal S256 .f32) (qs kd : Vec Ideal S4000x128 .f32) :
    FVec Ideal S4000x1 .f32 :=
  k1_pay10 (F := Ideal) (k1_pay3 ea wqv bqv qs) (k1_pay4 kd) (k1_pay6 ea wqv bqv qs kd) (k1_pay7 ea wqv bqv qs kd) (k1_pay8 ea wqv bqv qs kd)
    k1_pay9

/-- The stored weight column is the weight of the score block of the query and key blocks. -/
theorem attnBlk_eq (ea : Vec Ideal S4000x32 .f32) (wqv : Vec Ideal S32x256 .f32) (bqv : Vec Ideal S256 .f32) (qs kd : Vec Ideal S4000x128 .f32) :
    attnBlk ea wqv bqv qs kd = attnOf (scoresBlk (k1_pay3 (F := Ideal) ea wqv bqv qs) (k1_pay4 (F := Ideal) kd)) := rfl

/-- Row `p` of the stored weight column is the attention weight of edge `p`'s query and key rows. -/
theorem pay1_attn (ea : Vec Ideal S4000x32 .f32) (wqv : Vec Ideal S32x256 .f32) (bqv : Vec Ideal S256 .f32) (qs kd : Vec Ideal S4000x128 .f32)
    (p : Fin 4000) :
    attnBlk ea wqv bqv qs kd (ix2 p (0 : Fin 1))
      = attn (fun i : Fin 128 => qs (ix2 p i) + lin (fun k : Fin 32 => ea (ix2 p k)) (fun k : Fin 32 => wqv (ix2 k (loCol i))) (bqv (ix1 (loCol i))))
          (fun i : Fin 128 => kd (ix2 p i)) := by
  rw [attnBlk_eq, attnOf_apply]
  unfold attn
  refine congrArg (fun t => Ideal.div t (Ideal.ofBits .f32 0x41000000#32)) ?_
  refine Finset.sum_congr rfl fun h _ => ?_
  rw [scoresBlk_apply, key_eq]
  exact congrArg (fun q => Ideal.exp (clip (score q (fun i : Fin 128 => kd (ix2 p i)) h))) (funext fun i => query_apply ea wqv bqv qs p i)

/-- Entry `(p, j)` of the stored weighted value block: the value entry times the edge's attention weight. -/
theorem pay1_weighted (ea : Vec Ideal S4000x32 .f32) (wqv : Vec Ideal S32x256 .f32) (bqv : Vec Ideal S256 .f32) (qs kd vs : Vec Ideal S4000x128 .f32)
    (p : Fin 4000) (j : Fin 128) :
    k1_pay1 (F := Ideal) (k1_pay5 ea wqv bqv vs) (attnBlk ea wqv bqv qs kd) (ix2 p j)
      = (vs (ix2 p j) + lin (fun k : Fin 32 => ea (ix2 p k)) (fun k : Fin 32 => wqv (ix2 k (hiCol j))) (bqv (ix1 (hiCol j))))
        * attn (fun i : Fin 128 => qs (ix2 p i) + lin (fun k : Fin 32 => ea (ix2 p k)) (fun k : Fin 32 => wqv (ix2 k (loCol i))) (bqv (ix1 (loCol i))))
            (fun i : Fin 128 => kd (ix2 p i)) := by
  unfold k1_pay1
  rw [mulf_apply, Keepdims.broadcastTo_a1_ab_apply, value_apply, pay1_attn]

end Cert.KernelIdeal.Pay

end
-- ==== Proof.KIVal1.lean ====
/-
  Region 1's two output arrays after the run, as functions of the arrays the region is entered with.

  The kernel is row-local over edges: grid point t takes edges 4000·t … 4000·t + 3999 — their attributes and their gathered
  query, key and value rows — and writes the same edges' weighted value rows and attention weights; the concatenated edge
  projection and its bias are whole at every point. So the blocks a point writes back are that point's blocks of two
  whole-array functions: `edgeA`, the attention weight of edge e, and `edgeW`, the value row of edge e (its gathered value
  row plus the right half of the edge projection) times that weight. The 200 row blocks tile each output array.
-/
import proofs.«119884_j21492016349943_1_alg».proof.Proof.KIRegion1
import proofs.«119884_j21492016349943_1_alg».proof.Proof.PayEdge
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1₁ : (![0] : Fin 1 → Nat) = fun _ => 0 := funext fun a => by fin_cases a; rfl
theorem hz2₁ : (![0, 0] : Fin 2 → Nat) = fun _ => 0 := funext fun a => by fin_cases a <;> rfl

/-- Edge `e`'s query row: its gathered query row plus the left half of the edge projection of its attributes. -/
def qrowA (ea : S800000x32.Idx → EReal) (qs : S800000x128.Idx → EReal) (wqv : S32x256.Idx → EReal) (bqv : S256.Idx → EReal)
    (e : Fin 800000) : Fin 128 → EReal :=
  fun i => qs (ix2 e i) + lin (fun k : Fin 32 => ea (ix2 e k)) (fun k : Fin 32 => wqv (ix2 k (loCol i))) (bqv (ix1 (loCol i)))

/-- The attention weights of all edges. -/
def edgeA (ea : S800000x32.Idx → EReal) (qs kd : S800000x128.Idx → EReal) (wqv : S32x256.Idx → EReal) (bqv : S256.Idx → EReal) :
    S800000x1.Idx → EReal :=
  fun i => attn (qrowA ea qs wqv bqv (⟨(i 0).val, (i 0).isLt⟩ : Fin 800000)) (fun i' : Fin 128 => kd (ix2 (⟨(i 0).val, (i 0).isLt⟩ : Fin 800000) i'))

/-- The weighted value rows of all edges. -/
def edgeW (ea : S800000x32.Idx → EReal) (qs kd vs : S800000x128.Idx → EReal) (wqv : S32x256.Idx → EReal) (bqv : S256.Idx → EReal) :
    S800000x128.Idx → EReal :=
  fun i => (vs (ix2 (⟨(i 0).val, (i 0).isLt⟩ : Fin 800000) (⟨(i 1).val, (i 1).isLt⟩ : Fin 128))
      + lin (fun k : Fin 32 => ea (ix2 (⟨(i 0).val, (i 0).isLt⟩ : Fin 800000) k)) (fun k : Fin 32 => wqv (ix2 k (hiCol (⟨(i 1).val, (i 1).isLt⟩ : Fin 128))))
          (bqv (ix1 (hiCol (⟨(i 1).val, (i 1).isLt⟩ : Fin 128)))))
    * attn (qrowA ea qs wqv bqv (⟨(i 0).val, (i 0).isLt⟩ : Fin 800000)) (fun i' : Fin 128 => kd (ix2 (⟨(i 0).val, (i 0).isLt⟩ : Fin 800000) i'))

/-- The printed index maps over the grid: a row-tiled window's row block is the point's number, every other block index is zero. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- Window 0's block read at (p, k) is the array at row 4000·t + p. -/
theorem rd1_0 (c : Dev nD) (t : Fin cfg1.N) (p : Fin 4000) (k : Fin 32) (h : t.val * 4000 + p.val < 800000) :
    iblk1 V c 0 t (ix2 p k) = V c main_arg2 (ix2 (⟨t.val * 4000 + p.val, h⟩ : Fin 800000) k) := by
  have e := idx_facts1 t
  show V c main_arg2 (((cfg1.win 0).blk t).view.emb (ix2 p k)) = V c main_arg2 _
  refine congrArg (V c main_arg2) (funext fun a => Fin.ext ?_)
  match a with
  | ⟨0, _⟩ => show win1_0.index t (0 : Fin 2) * 4000 + 1 * p.val = t.val * 4000 + p.val; omega
  | ⟨1, _⟩ => show win1_0.index t (1 : Fin 2) * 32 + 1 * k.val = k.val; omega

/-- Window 1's block read at (p, k) is the array at row 4000·t + p. -/
theorem rd1_1 (c : Dev nD) (t : Fin cfg1.N) (p : Fin 4000) (k : Fin 128) (h : t.val * 4000 + p.val < 800000) :
    iblk1 V c 1 t (ix2 p k) = V c main_v16 (ix2 (⟨t.val * 4000 + p.val, h⟩ : Fin 800000) k) := by
  have e := idx_facts1 t
  show V c main_v16 (((cfg1.win 1).blk t).view.emb (ix2 p k)) = V c main_v16 _
  refine congrArg (V c main_v16) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

/-- Window 2's block read at (p, k) is the array at row 4000·t + p. -/
theorem rd1_2 (c : Dev nD) (t : Fin cfg1.N) (p : Fin 4000) (k : Fin 128) (h : t.val * 4000 + p.val < 800000) :
    iblk1 V c 2 t (ix2 p k) = V c main_v23 (ix2 (⟨t.val * 4000 + p.val, h⟩ : Fin 800000) k) := by
  have e := idx_facts1 t
  show V c main_v23 (((cfg1.win 2).blk t).view.emb (ix2 p k)) = V c main_v23 _
  refine congrArg (V c main_v23) (funext fun a => Fin.ext ?_)
  match a with
  | ⟨0, _⟩ => show win1_2.index t (0 : Fin 2) * 4000 + 1 * p.val = t.val * 4000 + p.val; omega
  | ⟨1, _⟩ => show win1_2.index t (1 : Fin 2) * 128 + 1 * k.val = k.val; omega

/-- Window 3's block read at (p, k) is the array at row 4000·t + p. -/
theorem rd1_3 (c : Dev nD) (t : Fin cfg1.N) (p : Fin 4000) (k : Fin 128) (h : t.val * 4000 + p.val < 800000) :
    iblk1 V c 3 t (ix2 p k) = V c main_v30 (ix2 (⟨t.val * 4000 + p.val, h⟩ : Fin 800000) k) := by
  have e := idx_facts1 t
  show V c main_v30 (((cfg1.win 3).blk t).view.emb (ix2 p k)) = V c main_v30 _
  refine congrArg (V c main_v30) (funext fun a => Fin.ext ?_)
  match a with
  | ⟨0, _⟩ => show win1_3.index t (0 : Fin 2) * 4000 + 1 * p.val = t.val * 4000 + p.val; omega
  | ⟨1, _⟩ => show win1_3.index t (1 : Fin 2) * 128 + 1 * k.val = k.val; omega

/-- Window 4's one block is the whole array. -/
theorem rd1_4 (c : Dev nD) (t : Fin cfg1.N) (a' : Fin 32) (b' : Fin 256) :
    iblk1 V c 4 t (ix2 a' b') = V c main_v31 (ix2 a' b') := by
  have e := idx_facts1 t
  show V c main_v31 (((cfg1.win 4).blk t).view.emb (ix2 a' b')) = V c main_v31 _
  refine congrArg (V c main_v31) (funext fun a => Fin.ext ?_)
  match a with
  | ⟨0, _⟩ => show win1_4.index t (0 : Fin 2) * 32 + 1 * a'.val = a'.val; omega
  | ⟨1, _⟩ => show win1_4.index t (1 : Fin 2) * 256 + 1 * b'.val = b'.val; omega

/-- Window 5's one block is the whole vector. -/
theorem rd1_5 (c : Dev nD) (t : Fin cfg1.N) (a' : Fin 256) :
    iblk1 V c 5 t (ix1 a') = V c main_v32 (ix1 a') := by
  have e := idx_facts1 t
  show V c main_v32 (((cfg1.win 5).blk t).view.emb (ix1 a')) = V c main_v32 _
  refine congrArg (V c main_v32) (funext fun a => Fin.ext ?_)
  match a with
  | ⟨0, _⟩ => show win1_5.index t (0 : Fin 1) * 256 + 1 * a'.val = a'.val; omega

/-- WHAT POINT `t` WRITES BACK into the attention weights is block `t` of `edgeA` of the arrays as the region finds them. -/
theorem flushed1a_eq (c : Dev nD) (t : Fin cfg1.N) :
    (dat1 V c).flushed 7 t = ((cfg1.win 7).blk t).view.read (Elt Ideal)
      (edgeA (V c main_arg2) (V c main_v16) (V c main_v23) (V c main_v31) (V c main_v32)) := by
  show (cfg1.win 7).cut (grid1.coords t) ((dat1 V c).after 7 t) = _
  rw [after1_7]
  unfold out1_7
  rw [View.canon_unit_zero hz2₁]
  simp only [View.ld_unit_zero (S := S4000x32) hz2₁, View.ld_unit_zero (S := S4000x128) hz2₁, View.ld_unit_zero (S := S32x256) hz2₁, View.ld_unit_zero (S := S256) hz1₁]
  have e := idx_facts1 t
  have ht : t.val < 200 := by have h := t.isLt; have hN : cfg1.N = 200 := N_1; omega
  funext j
  obtain ⟨p, z, rfl⟩ : ∃ (p : Fin 4000) (z : Fin 1), j = ix2 p z := ⟨j 0, j 1, eq_ix2 j⟩
  obtain rfl : z = 0 := Subsingleton.elim _ _
  have hp : t.val * 4000 + p.val < 800000 := by have := p.isLt; omega
  show Pay.attnBlk (iblk1 V c 0 t) (iblk1 V c 4 t) (iblk1 V c 5 t) (iblk1 V c 1 t) (iblk1 V c 2 t) (ix2 p (0 : Fin 1))
    = edgeA (V c main_arg2) (V c main_v16) (V c main_v23) (V c main_v31) (V c main_v32) (((cfg1.win 7).blk t).view.emb (ix2 p (0 : Fin 1)))
  refine (Pay.pay1_attn _ _ _ _ _ p).trans ?_
  have hi0 : ((((cfg1.win 7).blk t).view.emb (ix2 p (0 : Fin 1))) 0).val = t.val * 4000 + p.val := by
    show win1_7.index t (0 : Fin 2) * 4000 + 1 * p.val = _; omega
  unfold edgeA qrowA
  have r0 : (⟨((((cfg1.win 7).blk t).view.emb (ix2 p (0 : Fin 1))) 0).val, ((((cfg1.win 7).blk t).view.emb (ix2 p (0 : Fin 1))) 0).isLt⟩ : Fin 800000) = ⟨t.val * 4000 + p.val, hp⟩ := Fin.ext hi0
  rw [r0]
  simp only [rd1_0 V c t p _ hp, rd1_1 V c t p _ hp, rd1_2 V c t p _ hp, rd1_4, rd1_5]

/-- WHAT POINT `t` WRITES BACK into the weighted value rows is block `t` of `edgeW` of the arrays as the region finds them. -/
theorem flushed1w_eq (c : Dev nD) (t : Fin cfg1.N) :
    (dat1 V c).flushed 6 t = ((cfg1.win 6).blk t).view.read (Elt Ideal)
      (edgeW (V c main_arg2) (V c main_v16) (V c main_v23) (V c main_v30) (V c main_v31) (V c main_v32)) := by
  show (cfg1.win 6).cut (grid1.coords t) ((dat1 V c).after 6 t) = _
  rw [after1_6]
  unfold out1_6
  rw [View.canon_unit_zero hz2₁]
  simp only [View.ld_unit_zero (S := S4000x32) hz2₁, View.ld_unit_zero (S := S4000x128) hz2₁, View.ld_unit_zero (S := S32x256) hz2₁, View.ld_unit_zero (S := S256) hz1₁]
  have e := idx_facts1 t
  have ht : t.val < 200 := by have h := t.isLt; have hN : cfg1.N = 200 := N_1; omega
  funext j
  obtain ⟨p, q, rfl⟩ : ∃ (p : Fin 4000) (q : Fin 128), j = ix2 p q := ⟨j 0, j 1, eq_ix2 j⟩
  have hp : t.val * 4000 + p.val < 800000 := by have := p.isLt; omega
  show k1_pay1 (F := Ideal) (k1_pay5 (iblk1 V c 0 t) (iblk1 V c 4 t) (iblk1 V c 5 t) (iblk1 V c 3 t))
      (Pay.attnBlk (iblk1 V c 0 t) (iblk1 V c 4 t) (iblk1 V c 5 t) (iblk1 V c 1 t) (iblk1 V c 2 t)) (ix2 p q)
    = edgeW (V c main_arg2) (V c main_v16) (V c main_v23) (V c main_v30) (V c main_v31) (V c main_v32) (((cfg1.win 6).blk t).view.emb (ix2 p q))
  refine (Pay.pay1_weighted _ _ _ _ _ _ p q).trans ?_
  have hi0 : ((((cfg1.win 6).blk t).view.emb (ix2 p q)) 0).val = t.val * 4000 + p.val := by
    show win1_6.index t (0 : Fin 2) * 4000 + 1 * p.val = _; omega
  have hi1 : ((((cfg1.win 6).blk t).view.emb (ix2 p q)) 1).val = q.val := by
    show win1_6.index t (1 : Fin 2) * 128 + 1 * q.val = _; omega
  unfold edgeW qrowA
  have r0 : (⟨((((cfg1.win 6).blk t).view.emb (ix2 p q)) 0).val, ((((cfg1.win 6).blk t).view.emb (ix2 p q)) 0).isLt⟩ : Fin 800000) = ⟨t.val * 4000 + p.val, hp⟩ := Fin.ext hi0
  have r1 : (⟨((((cfg1.win 6).blk t).view.emb (ix2 p q)) 1).val, ((((cfg1.win 6).blk t).view.emb (ix2 p q)) 1).isLt⟩ : Fin 128) = q := Fin.ext hi1
  rw [r0, r1]
  simp only [rd1_0 V c t p _ hp, rd1_1 V c t p _ hp, rd1_2 V c t p _ hp, rd1_3 V c t p _ hp, rd1_4, rd1_5]

/-- An index of the array is in point `t`'s block iff each coordinate lies in the block's range on its axis. -/
theorem mem_blk1_6 (t : Fin cfg1.N) (i : S800000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v33_0).slice (win1_6.rect t)).set ↔ _
  rw [View.set_slice_whole, Rect.mem_set_unit]
  exact Iff.rfl

/-- Every index of the array lies in the block of the point numbered by its row block. -/
theorem cover1_6' (i : S800000x128.Idx) : ∃ t : Fin cfg1.N, (cfg1.win 6).flush t = true ∧ i ∈ ((cfg1.win 6).blk t).view.set := by
  have hi0 : (i 0).val < 800000 := (i 0).isLt
  have hi1 : (i 1).val < 128 := (i 1).isLt
  have hN : cfg1.N = 200 := N_1
  refine ⟨⟨(i 0).val / 4000, by omega⟩, flush1_6 _, ?_⟩
  rw [mem_blk1_6]
  have e := idx_facts1 ⟨(i 0).val / 4000, by omega⟩
  intro a
  match a with
  | ⟨0, _⟩ => show win1_6.index _ (0 : Fin 2) * 4000 ≤ (i 0).val ∧ (i 0).val < win1_6.index _ (0 : Fin 2) * 4000 + 4000; simp only [e]; omega
  | ⟨1, _⟩ => show win1_6.index _ (1 : Fin 2) * 128 ≤ (i 1).val ∧ (i 1).val < win1_6.index _ (1 : Fin 2) * 128 + 128; simp only [e]; omega

/-- An index of the array is in point `t`'s block iff each coordinate lies in the block's range on its axis. -/
theorem mem_blk1_7 (t : Fin cfg1.N) (i : S800000x1.Idx) :
    i ∈ ((cfg1.win 7).blk t).view.set ↔ ∀ a : Fin 2, win1_7.index t a * S4000x1.size a ≤ (i a).val ∧ (i a).val < win1_7.index t a * S4000x1.size a + S4000x1.size a := by
  show i ∈ ((View.whole main_v33_1).slice (win1_7.rect t)).set ↔ _
  rw [View.set_slice_whole, Rect.mem_set_unit]
  exact Iff.rfl

/-- Every index of the array lies in the block of the point numbered by its row block. -/
theorem cover1_7' (i : S800000x1.Idx) : ∃ t : Fin cfg1.N, (cfg1.win 7).flush t = true ∧ i ∈ ((cfg1.win 7).blk t).view.set := by
  have hi0 : (i 0).val < 800000 := (i 0).isLt
  have hi1 : (i 1).val < 1 := (i 1).isLt
  have hN : cfg1.N = 200 := N_1
  refine ⟨⟨(i 0).val / 4000, by omega⟩, flush1_7 _, ?_⟩
  rw [mem_blk1_7]
  have e := idx_facts1 ⟨(i 0).val / 4000, by omega⟩
  intro a
  match a with
  | ⟨0, _⟩ => show win1_7.index _ (0 : Fin 2) * 4000 ≤ (i 0).val ∧ (i 0).val < win1_7.index _ (0 : Fin 2) * 4000 + 4000; simp only [e]; omega
  | ⟨1, _⟩ => show win1_7.index _ (1 : Fin 2) * 1 ≤ (i 1).val ∧ (i 1).val < win1_7.index _ (1 : Fin 2) * 1 + 1; simp only [e]; omega

/-- THE ARRAYS after the region. -/
theorem final1w (c : Dev nD) : (dat1 V c).arrAt 6 cfg1.N
    = edgeW (V c main_arg2) (V c main_v16) (V c main_v23) (V c main_v30) (V c main_v31) (V c main_v32) :=
  (dat1 V c).arrAt_eq_of_cover 6 _ (fun t _ => flushed1w_eq V c t) (cover1_6')

theorem final1a (c : Dev nD) : (dat1 V c).arrAt 7 cfg1.N
    = edgeA (V c main_arg2) (V c main_v16) (V c main_v23) (V c main_v31) (V c main_v32) :=
  (dat1 V c).arrAt_eq_of_cover 7 _ (fun t _ => flushed1a_eq V c t) (cover1_7')

end Cert.KernelIdeal.Val

end
-- ==== Proof.PayFinal.lean ====
/-
  The finalising kernel's stored block, read at an entry.

  For a block of 5000 rows the kernel
    • divides each aggregated row by its summed weight plus a small constant (the column of weights is spread over the
      128 entries of the row),
    • multiplies by the 128×128 output weights from the zero accumulator, adds the bias row and the residual row: this is
      the row `y` that is normalised,
    • takes the mean of `y` over its 128 entries (a sum along the row, kept as a column, divided by 128), centres the row,
      takes the mean of the squared centred entries, adds a small constant, takes the inverse square root,
    • scales the centred row by it and by the scale row, and adds the shift row.
  The changes of float format before the product are the identity on the extended reals. So entry (p, j) is the layer
  normalisation of row p of `y` at j. The kernel's value is cut in two here: the row `y` as a function of the loaded
  blocks (`rowBlk`), and the normalisation as a function of any block of rows (`normBlk`); the stored value is their
  composition by unfolding.
-/
import proofs.«119884_j21492016349943_1_alg».proof.Proof.Gen.KernelIdeal.Skeleton
import proofs.«119884_j21492016349943_1_alg».proof.Proof.Spec
import proofs.«119884_j21492016349943_1_alg».proof.Proof.PayLibPlainDot
import proofs.«119884_j21492016349943_1_alg».proof.Proof.PayLibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

/-- An entrywise inverse square root read at an index. -/
theorem rsqrt_apply {s : Shape} {φ : FTy} (a : FVec Ideal s φ) (i : s.Idx) : rsqrt a i = Ideal.rsqrt (a i) := rfl

/-- The row that is normalised: the aggregate divided by the summed weight plus a constant, times the output weights,
    plus the bias, plus the residual. -/
def rowBlk (oa : FVec Ideal S5000x128 .f32) (na : FVec Ideal S5000x1 .f32) (wo : FVec Ideal S128x128 .f32) (bo : FVec Ideal S128 .f32)
    (x : FVec Ideal S5000x128 .f32) : FVec Ideal S5000x128 .f32 :=
  addf (addf
    (matmul dot_S5000x128_S128x128_S5000x128_1_0_0_1_n_n none
      (truncf .bf16 (divf (shapeCast S5000x128 oa shapeCasts_S5000x128_S5000x128)
        (broadcastTo S5000x128 (addf (shapeCast S5000x1 na shapeCasts_S5000x1_S5000x1) (broadcast S5000x1 (Scalar.ofBits .f32 0x322BCC77#32)))
          broadcasts_S5000x1_S5000x128)) bitsLt_bf16_f32)
      (truncf .bf16 wo bitsLt_bf16_f32) (constant S5000x128 .f32 0x00000000#32))
    (broadcastTo S5000x128 (shapeCast S1x128 bo shapeCasts_S128_S1x128) broadcasts_S1x128_S5000x128)) x

/-- The mean of each row of a block, kept as a column: the sum along the row divided by 128. -/
def meanCol (u : FVec Ideal S5000x128 .f32) : FVec Ideal S5000x1 .f32 :=
  divf (shapeCast S5000x1 (multiReduction (F := Ideal) .add [1] S5000 u 0x00000000#32 reduces_S5000x128_S5000 (.inl rfl) rfl)
      shapeCasts_S5000_S5000x1)
    (broadcast S5000x1 (Scalar.ofBits .f32 0x43000000#32))

/-- A block with each row's mean subtracted from the row's entries. -/
def centred (u : FVec Ideal S5000x128 .f32) : FVec Ideal S5000x128 .f32 :=
  subf u (broadcastTo S5000x128 (meanCol u) broadcasts_S5000x1_S5000x128)

/-- The centred block scaled, row by row, by the inverse square root of the mean squared centred entry plus a constant,
    and, column by column, by the scale row. -/
def normBlk (u : FVec Ideal S5000x128 .f32) (g : FVec Ideal S128 .f32) : FVec Ideal S5000x128 .f32 :=
  mulf (mulf (centred u)
      (broadcastTo S5000x128
        (rsqrt (addf (meanCol (mulf (centred u) (centred u))) (broadcast S5000x1 (Scalar.ofBits .f32 0x3727C5AC#32))))
        broadcasts_S5000x1_S5000x128))
    (broadcastTo S5000x128 (shapeCast S1x128 g shapeCasts_S128_S1x128) broadcasts_S1x128_S5000x128)

/-- The kernel's value before the shift row is added: the normalisation of the row block. -/
theorem k2_pay2_eq (oa : Vec Ideal S5000x128 .f32) (na : Vec Ideal S5000x1 .f32) (wo : Vec Ideal S128x128 .f32) (bo : Vec Ideal S128 .f32)
    (x : Vec Ideal S5000x128 .f32) (g : Vec Ideal S128 .f32) :
    k2_pay2 (F := Ideal) oa na wo bo x g = normBlk (rowBlk oa na wo bo x) g := rfl

/-- Entry `(p, i)` of the row block: the dense layer's entry of the normalised aggregate row, plus the residual. -/
theorem rowBlk_apply (oa : FVec Ideal S5000x128 .f32) (na : FVec Ideal S5000x1 .f32) (wo : FVec Ideal S128x128 .f32) (bo : FVec Ideal S128 .f32)
    (x : FVec Ideal S5000x128 .f32) (p : Fin 5000) (i : Fin 128) :
    rowBlk oa na wo bo x (ix2 p i)
      = lin (fun k : Fin 128 => normAgg (oa (ix2 p k)) (na (ix2 p (0 : Fin 1)))) (fun k : Fin 128 => wo (ix2 k i)) (bo (ix1 i))
        + x (ix2 p i) := by
  unfold rowBlk lin
  rw [addf_apply, addf_apply]
  refine congrArg₂ (· + ·) (congrArg₂ (· + ·) ?_ ?_) rfl
  · -- the product: the contraction index runs over the 128 entries of the row and the rows of the weights
    refine (Ideal.matmul_constant_zero_apply _ none _ _ _).trans ?_
    refine (Cert.PlainDot.contraction_eq (M := 5000) (K := 128) (N := 128) _ _ p i).trans ?_
    refine Finset.sum_congr rfl fun k _ => ?_
    rw [truncf_apply, truncf_apply, divf_apply, shapeCast_self, Keepdims.broadcastTo_a1_ab_apply, addf_apply, shapeCast_self,
      broadcast_apply]
    rfl
  · -- the bias: a vector made a one-row matrix and spread over the rows reads its entry i
    rw [broadcastTo_1b_ab_apply, shapeCast_a_1a_apply]

/-- The mean column at row `p` is the mean of the row's 128 entries. -/
theorem meanCol_apply (u : FVec Ideal S5000x128 .f32) (p : Fin 5000) :
    meanCol u (ix2 p (0 : Fin 1)) = mean128 (fun i : Fin 128 => u (ix2 p i)) := by
  unfold meanCol mean128
  rw [divf_apply, broadcast_apply]
  refine congrArg (fun t => Ideal.div t (Ideal.ofBits .f32 0x43000000#32)) ?_
  refine (Keepdims.shapeCast_a_a1_apply _ _ p 0).trans ?_
  exact Keepdims.laneSum_apply u _ _ _ p

/-- The centred block at `(p, i)`: the entry less its row's mean. -/
theorem centred_apply (u : FVec Ideal S5000x128 .f32) (p : Fin 5000) (i : Fin 128) :
    centred u (ix2 p i) = u (ix2 p i) - mean128 (fun i : Fin 128 => u (ix2 p i)) := by
  unfold centred
  rw [subf_apply, Keepdims.broadcastTo_a1_ab_apply, meanCol_apply]

/-- The normalised block with the shift row added, at `(p, j)`: the layer normalisation of row `p` at `j`. -/
theorem normBlk_apply (u : FVec Ideal S5000x128 .f32) (g be : FVec Ideal S128 .f32) (p : Fin 5000) (j : Fin 128) :
    k2_pay1 (F := Ideal) (normBlk u g) be (ix2 p j)
      = layerNorm (fun i : Fin 128 => u (ix2 p i)) (fun i => g (ix1 i)) (fun i => be (ix1 i)) j := by
  unfold k2_pay1 normBlk layerNorm
  dsimp only
  rw [addf_apply, mulf_apply, mulf_apply, broadcastTo_1b_ab_apply, shapeCast_a_1a_apply, broadcastTo_1b_ab_apply, shapeCast_a_1a_apply,
    Keepdims.broadcastTo_a1_ab_apply, centred_apply, rsqrt_apply, addf_apply, broadcast_apply, meanCol_apply]
  simp only [mulf_apply, centred_apply]
  rfl

/-- Entry `(p, j)` of the finalising kernel's stored block. -/
theorem pay2 (oa : Vec Ideal S5000x128 .f32) (na : Vec Ideal S5000x1 .f32) (wo : Vec Ideal S128x128 .f32) (bo : Vec Ideal S128 .f32)
    (x : Vec Ideal S5000x128 .f32) (g be : Vec Ideal S128 .f32) (p : Fin 5000) (j : Fin 128) :
    k2_pay1 (F := Ideal) (k2_pay2 oa na wo bo x g) be (ix2 p j)
      = layerNorm (fun i : Fin 128 => lin (fun k : Fin 128 => normAgg (oa (ix2 p k)) (na (ix2 p (0 : Fin 1))))
          (fun k : Fin 128 => wo (ix2 k i)) (bo (ix1 i)) + x (ix2 p i)) (fun i => g (ix1 i)) (fun i => be (ix1 i)) j := by
  rw [k2_pay2_eq, normBlk_apply]
  exact congrArg (fun y => layerNorm y (fun i => g (ix1 i)) (fun i => be (ix1 i)) j) (funext fun i => rowBlk_apply oa na wo bo x p i)

end Cert.KernelIdeal.Pay

end
-- ==== Proof.KIVal2.lean ====
/-
  Region 2's output array after the run, as one function of the arrays the region is entered with.

  The kernel is row-local: grid point t takes rows 5000·t … 5000·t + 4999 of the aggregate, of the summed weights and of the
  input, and writes the same rows of the result; the output projection, its bias and the normalisation's scale and shift are
  whole at every point. So the block a point writes back is that point's block of ONE whole-array function `fin`: row r is the
  layer normalisation of (aggregate row r divided by its summed weight plus ε) times the projection, plus bias, plus input row
  r. The ten row blocks tile the result array.
-/
import proofs.«119884_j21492016349943_1_alg».proof.Proof.KIRegion2
import proofs.«119884_j21492016349943_1_alg».proof.Proof.PayFinal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1₂ : (![0] : Fin 1 → Nat) = fun _ => 0 := funext fun a => by fin_cases a; rfl
theorem hz2₂ : (![0, 0] : Fin 2 → Nat) = fun _ => 0 := funext fun a => by fin_cases a <;> rfl

/-- The output stage on whole arrays, entry (r, j). -/
def fin (oa : S50000x128.Idx → EReal) (na : S50000x1.Idx → EReal) (x : S50000x128.Idx → EReal) (wo : S128x128.Idx → EReal)
    (bo g be : S128.Idx → EReal) : S50000x128.Idx → EReal :=
  fun i => layerNorm (fun i' : Fin 128 => lin (fun k : Fin 128 => normAgg (oa (ix2 (⟨(i 0).val, (i 0).isLt⟩ : Fin 50000) k)) (na (ix2 (⟨(i 0).val, (i 0).isLt⟩ : Fin 50000) (0 : Fin 1))))
      (fun k : Fin 128 => wo (ix2 k i')) (bo (ix1 i')) + x (ix2 (⟨(i 0).val, (i 0).isLt⟩ : Fin 50000) i'))
    (fun i' => g (ix1 i')) (fun i' => be (ix1 i')) (⟨(i 1).val, (i 1).isLt⟩ : Fin 128)

/-- The printed index maps over the grid: a row-tiled window's row block is the point's number, every other block index is zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 1) = 0
    ∧ win2_6.index t (0 : Fin 1) = 0
    ∧ win2_7.index t (0 : Fin 2) = t.val
    ∧ win2_7.index t (1 : Fin 2) = 0 :=
  (by decide +kernel : ∀ t : Fin grid2.N, _)

/-- Window 0's block read at (p, k) is the array at row 5000·t + p. -/
theorem rd2_0 (c : Dev nD) (t : Fin cfg2.N) (p : Fin 5000) (k : Fin 128) (h : t.val * 5000 + p.val < 50000) :
    iblk2 V c 0 t (ix2 p k) = V c main_v36 (ix2 (⟨t.val * 5000 + p.val, h⟩ : Fin 50000) k) := by
  have e := idx_facts2 t
  show V c main_v36 (((cfg2.win 0).blk t).view.emb (ix2 p k)) = V c main_v36 _
  refine congrArg (V c main_v36) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Window 1's block read at (p, k) is the array at row 5000·t + p. -/
theorem rd2_1 (c : Dev nD) (t : Fin cfg2.N) (p : Fin 5000) (k : Fin 1) (h : t.val * 5000 + p.val < 50000) :
    iblk2 V c 1 t (ix2 p k) = V c main_v39 (ix2 (⟨t.val * 5000 + p.val, h⟩ : Fin 50000) k) := by
  have e := idx_facts2 t
  show V c main_v39 (((cfg2.win 1).blk t).view.emb (ix2 p k)) = V c main_v39 _
  refine congrArg (V c main_v39) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * k.val = k.val; omega

/-- Window 2's block read at (p, k) is the array at row 5000·t + p. -/
theorem rd2_2 (c : Dev nD) (t : Fin cfg2.N) (p : Fin 5000) (k : Fin 128) (h : t.val * 5000 + p.val < 50000) :
    iblk2 V c 2 t (ix2 p k) = V c main_arg0 (ix2 (⟨t.val * 5000 + p.val, h⟩ : Fin 50000) k) := by
  have e := idx_facts2 t
  show V c main_arg0 (((cfg2.win 2).blk t).view.emb (ix2 p k)) = V c main_arg0 _
  refine congrArg (V c main_arg0) (funext fun a => Fin.ext ?_)
  match a with
  | ⟨0, _⟩ => show win2_2.index t (0 : Fin 2) * 5000 + 1 * p.val = t.val * 5000 + p.val; omega
  | ⟨1, _⟩ => show win2_2.index t (1 : Fin 2) * 128 + 1 * k.val = k.val; omega

/-- Window 3's one block is the whole array. -/
theorem rd2_3 (c : Dev nD) (t : Fin cfg2.N) (a' : Fin 128) (b' : Fin 128) :
    iblk2 V c 3 t (ix2 a' b') = V c main_arg9 (ix2 a' b') := by
  have e := idx_facts2 t
  show V c main_arg9 (((cfg2.win 3).blk t).view.emb (ix2 a' b')) = V c main_arg9 _
  refine congrArg (V c main_arg9) (funext fun a => Fin.ext ?_)
  match a with
  | ⟨0, _⟩ => show win2_3.index t (0 : Fin 2) * 128 + 1 * a'.val = a'.val; omega
  | ⟨1, _⟩ => show win2_3.index t (1 : Fin 2) * 128 + 1 * b'.val = b'.val; omega

/-- Window 4's one block is the whole vector. -/
theorem rd2_4 (c : Dev nD) (t : Fin cfg2.N) (a' : Fin 128) :
    iblk2 V c 4 t (ix1 a') = V c main_arg10 (ix1 a') := by
  have e := idx_facts2 t
  show V c main_arg10 (((cfg2.win 4).blk t).view.emb (ix1 a')) = V c main_arg10 _
  refine congrArg (V c main_arg10) (funext fun a => Fin.ext ?_)
  match a with
  | ⟨0, _⟩ => show win2_4.index t (0 : Fin 1) * 128 + 1 * a'.val = a'.val; omega

/-- Window 5's one block is the whole vector. -/
theorem rd2_5 (c : Dev nD) (t : Fin cfg2.N) (a' : Fin 128) :
    iblk2 V c 5 t (ix1 a') = V c main_arg15 (ix1 a') := by
  have e := idx_facts2 t
  show V c main_arg15 (((cfg2.win 5).blk t).view.emb (ix1 a')) = V c main_arg15 _
  refine congrArg (V c main_arg15) (funext fun a => Fin.ext ?_)
  match a with
  | ⟨0, _⟩ => show win2_5.index t (0 : Fin 1) * 128 + 1 * a'.val = a'.val; omega

/-- Window 6's one block is the whole vector. -/
theorem rd2_6 (c : Dev nD) (t : Fin cfg2.N) (a' : Fin 128) :
    iblk2 V c 6 t (ix1 a') = V c main_arg16 (ix1 a') := by
  have e := idx_facts2 t
  show V c main_arg16 (((cfg2.win 6).blk t).view.emb (ix1 a')) = V c main_arg16 _
  refine congrArg (V c main_arg16) (funext fun a => Fin.ext ?_)
  match a with
  | ⟨0, _⟩ => show win2_6.index t (0 : Fin 1) * 128 + 1 * a'.val = a'.val; omega

/-- WHAT POINT `t` WRITES BACK is block `t` of the output stage of the arrays as the region finds them. -/
theorem flushed2_eq (c : Dev nD) (t : Fin cfg2.N) :
    (dat2 V c).flushed 7 t = ((cfg2.win 7).blk t).view.read (Elt Ideal)
      (fin (V c main_v36) (V c main_v39) (V c main_arg0) (V c main_arg9) (V c main_arg10) (V c main_arg15) (V c main_arg16)) := by
  show (cfg2.win 7).cut (grid2.coords t) ((dat2 V c).after 7 t) = _
  rw [after2_7]
  unfold out2_7
  rw [View.canon_unit_zero hz2₂]
  simp only [View.ld_unit_zero (S := S5000x128) hz2₂, View.ld_unit_zero (S := S5000x1) hz2₂, View.ld_unit_zero (S := S128x128) hz2₂, View.ld_unit_zero (S := S128) hz1₂]
  have e := idx_facts2 t
  have ht : t.val < 10 := by have h := t.isLt; have hN : cfg2.N = 10 := N_2; omega
  funext j
  obtain ⟨p, q, rfl⟩ : ∃ (p : Fin 5000) (q : Fin 128), j = ix2 p q := ⟨j 0, j 1, eq_ix2 j⟩
  have hp : t.val * 5000 + p.val < 50000 := by have := p.isLt; omega
  show k2_pay1 (F := Ideal) (k2_pay2 (iblk2 V c 0 t) (iblk2 V c 1 t) (iblk2 V c 3 t) (iblk2 V c 4 t) (iblk2 V c 2 t) (iblk2 V c 5 t)) (iblk2 V c 6 t) (ix2 p q)
    = fin (V c main_v36) (V c main_v39) (V c main_arg0) (V c main_arg9) (V c main_arg10) (V c main_arg15) (V c main_arg16) (((cfg2.win 7).blk t).view.emb (ix2 p q))
  refine (Pay.pay2 _ _ _ _ _ _ _ p q).trans ?_
  have hi0 : ((((cfg2.win 7).blk t).view.emb (ix2 p q)) 0).val = t.val * 5000 + p.val := by
    show win2_7.index t (0 : Fin 2) * 5000 + 1 * p.val = _; omega
  have hi1 : ((((cfg2.win 7).blk t).view.emb (ix2 p q)) 1).val = q.val := by
    show win2_7.index t (1 : Fin 2) * 128 + 1 * q.val = _; omega
  unfold fin
  have r0 : (⟨((((cfg2.win 7).blk t).view.emb (ix2 p q)) 0).val, ((((cfg2.win 7).blk t).view.emb (ix2 p q)) 0).isLt⟩ : Fin 50000) = ⟨t.val * 5000 + p.val, hp⟩ := Fin.ext hi0
  have r1 : (⟨((((cfg2.win 7).blk t).view.emb (ix2 p q)) 1).val, ((((cfg2.win 7).blk t).view.emb (ix2 p q)) 1).isLt⟩ : Fin 128) = q := Fin.ext hi1
  rw [r0, r1]
  simp only [rd2_0 V c t p _ hp, rd2_1 V c t p _ hp, rd2_2 V c t p _ hp, rd2_3, rd2_4, rd2_5, rd2_6]

/-- An index of the array is in point `t`'s block iff each coordinate lies in the block's range on its axis. -/
theorem mem_blk2_7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v40).slice (win2_7.rect t)).set ↔ _
  rw [View.set_slice_whole, Rect.mem_set_unit]
  exact Iff.rfl

/-- Every index of the array lies in the block of the point numbered by its row block. -/
theorem cover2_7' (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  refine ⟨⟨(i 0).val / 5000, by omega⟩, flush2_7 _, ?_⟩
  rw [mem_blk2_7]
  have e := idx_facts2 ⟨(i 0).val / 5000, by omega⟩
  intro a
  match a with
  | ⟨0, _⟩ => show win2_7.index _ (0 : Fin 2) * 5000 ≤ (i 0).val ∧ (i 0).val < win2_7.index _ (0 : Fin 2) * 5000 + 5000; simp only [e]; omega
  | ⟨1, _⟩ => show win2_7.index _ (1 : Fin 2) * 128 ≤ (i 1).val ∧ (i 1).val < win2_7.index _ (1 : Fin 2) * 128 + 128; simp only [e]; omega

/-- THE ARRAY after the region: the output stage of the arrays as the region finds them. -/
theorem final2 (c : Dev nD) : (dat2 V c).arrAt 7 cfg2.N
    = fin (V c main_v36) (V c main_v39) (V c main_arg0) (V c main_arg9) (V c main_arg10) (V c main_arg15) (V c main_arg16) :=
  (dat2 V c).arrAt_eq_of_cover 7 _ (fun t _ => flushed2_eq V c t) (cover2_7')

end Cert.KernelIdeal.Val

end
-- ==== Proof.LibNary3.lean ====
/-
  A host operation with three operands, read at its result.

  The result of an operation over a literal family of three buffers is its function applied to the three buffers'
  contents, each named at its own buffer (rather than as a function of the position in the family), so that what
  each of the three held can be rewritten further, one operation at a time.
-/
import Idealize.ShloMosaic.Lib.StableHlo.Run

noncomputable section

namespace Idealize.ShloMosaic.StableHlo

variable {τ : Topo} {sig : RefSig} {Val : EltTy → Type}
variable {x a b y : Ref sig .tc}

/-- A three-operand operation's result, the operands' contents each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a straight line of host operations, three-operand operations included: each
    operation's result at its own buffer is its function's value, at any other buffer what was there. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KIHost.lean ====
/-
  What the three stretches of host operations leave in the buffers the kernel regions and the later stretches read, as
  terms of the contents before the stretch.

  Stretch 0 cuts the edge list into its source and destination rows and concatenates the three projection matrices and
  biases. Stretch 1 cuts the projected rows into query, key and value tables, turns each index vector into gather
  indices (a negative index counts from the end), gathers the rows, and concatenates the two edge projections. Stretch 2
  scatter-adds the weighted value rows and the attention weights into zero arrays at the destination indices. Gathers and
  scatter-adds stay as the host operations they are: both programs apply the same ones, so they are never read at an index.
-/
import proofs.«119884_j21492016349943_1_alg».proof.Proof.Gen.KernelIdeal.Launch
import proofs.«119884_j21492016349943_1_alg».proof.Proof.Gen.KernelIdeal.Regions
import proofs.«119884_j21492016349943_1_alg».proof.Proof.LibNary3
import proofs.«119884_j21492016349943_1_alg».proof.Proof.LibHostRead
import Idealize.ShloMosaic.PureOps.Ideal
import Idealize.ShloMosaic.Lib.StableHlo.Run

set_option maxRecDepth 16384

noncomputable section

namespace Cert.KernelIdeal.Host

open Cert.KernelIdeal Cert.KernelIdeal.Gen Cert.HostRead
open Idealize.ShloMosaic Idealize.ShloMosaic.TcCoe Idealize.ShloMosaic.StableHlo Idealize.SL.Sem

variable (W : Valuation τ sig (Elt Ideal))

/-- An index vector as gather indices: a negative index has the table's row count added, then the vector becomes a column. -/
def gatherIdx (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-! ## Stretch 0 -/

theorem h0_v1 : StableHlo.after (hostOps0 (F := Ideal)) W (Proc.devRef .tc main_v1)
    = shapeCast S800000 (extractStridedSlice S1x800000 ![0, 0] (W (Proc.devRef .tc main_arg1)) slices_S2x800000_S1x800000_0_0) shapeCasts_S1x800000_S800000 := by
  after_results3; rfl

theorem h0_v3 : StableHlo.after (hostOps0 (F := Ideal)) W (Proc.devRef .tc main_v3)
    = shapeCast S800000 (extractStridedSlice S1x800000 ![1, 0] (W (Proc.devRef .tc main_arg1)) slices_S2x800000_S1x800000_1_0) shapeCasts_S1x800000_S800000 := by
  after_results3; rfl

theorem h0_v4 : StableHlo.after (hostOps0 (F := Ideal)) W (Proc.devRef .tc main_v4)
    = concatenate S128x384 1 [⟨S128x128, W (Proc.devRef .tc main_arg3)⟩, ⟨S128x128, W (Proc.devRef .tc main_arg5)⟩, ⟨S128x128, W (Proc.devRef .tc main_arg7)⟩]
        concatenates_S128x128_S128x128_S128x128_S128x384_d1 := by
  after_results3; rfl

theorem h0_v5 : StableHlo.after (hostOps0 (F := Ideal)) W (Proc.devRef .tc main_v5)
    = concatenate S384 0 [⟨S128, W (Proc.devRef .tc main_arg4)⟩, ⟨S128, W (Proc.devRef .tc main_arg6)⟩, ⟨S128, W (Proc.devRef .tc main_arg8)⟩]
        concatenates_S128_S128_S128_S384_d0 := by
  after_results3; rfl

theorem h0_keep (r : Ref sig .tc) (h : r ∉ hostOps0_W) : StableHlo.after (hostOps0 (F := Ideal)) W (Proc.devRef .tc r) = W (Proc.devRef .tc r) :=
  StableHlo.after_of_writes_sub hostOps0 _ hostOps0_writes h

/-! ## Stretch 1 -/

theorem h1_v16 : StableHlo.after (hostOps1 (F := Ideal)) W (Proc.devRef .tc main_v16)
    = Host.gather gather_S50000x128_S800000x1_S800000x128_1_0_n_n_0_1_1128
        (extractStridedSlice S50000x128 ![0, 0] (W (Proc.devRef .tc main_v6)) slices_S50000x384_S50000x128_0_0)
        (gatherIdx (W (Proc.devRef .tc main_v1))) := by
  read_results; all_goals rfl

theorem h1_v23 : StableHlo.after (hostOps1 (F := Ideal)) W (Proc.devRef .tc main_v23)
    = Host.gather gather_S50000x128_S800000x1_S800000x128_1_0_n_n_0_1_1128
        (extractStridedSlice S50000x128 ![0, 128] (W (Proc.devRef .tc main_v6)) slices_S50000x384_S50000x128_0_128)
        (gatherIdx (W (Proc.devRef .tc main_v3))) := by
  read_results; all_goals rfl

theorem h1_v30 : StableHlo.after (hostOps1 (F := Ideal)) W (Proc.devRef .tc main_v30)
    = Host.gather gather_S50000x128_S800000x1_S800000x128_1_0_n_n_0_1_1128
        (extractStridedSlice S50000x128 ![0, 256] (W (Proc.devRef .tc main_v6)) slices_S50000x384_S50000x128_0_256)
        (gatherIdx (W (Proc.devRef .tc main_v1))) := by
  read_results; all_goals rfl

set_option maxHeartbeats 4000000 in
theorem h1_v31 : StableHlo.after (hostOps1 (F := Ideal)) W (Proc.devRef .tc main_v31)
    = concatenate S32x256 1 [⟨S32x128, W (Proc.devRef .tc main_arg11)⟩, ⟨S32x128, W (Proc.devRef .tc main_arg13)⟩] concatenates_S32x128_S32x128_S32x256_d1 := by
  read_results; all_goals rfl

set_option maxHeartbeats 4000000 in
theorem h1_v32 : StableHlo.after (hostOps1 (F := Ideal)) W (Proc.devRef .tc main_v32)
    = concatenate S256 0 [⟨S128, W (Proc.devRef .tc main_arg12)⟩, ⟨S128, W (Proc.devRef .tc main_arg14)⟩] concatenates_S128_S128_S256_d0 := by
  read_results; all_goals rfl

theorem h1_keep (r : Ref sig .tc) (h : r ∉ hostOps1_W) : StableHlo.after (hostOps1 (F := Ideal)) W (Proc.devRef .tc r) = W (Proc.devRef .tc r) :=
  StableHlo.after_of_writes_sub hostOps1 _ hostOps1_writes h

/-! ## Stretch 2 -/

theorem h2_v36 : StableHlo.after (hostOps2 (F := Ideal)) W (Proc.devRef .tc main_v36)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (W (Proc.devRef .tc main_v3)))
        (W (Proc.devRef .tc main_v33_0)) := by
  read_results; all_goals rfl

theorem h2_v39 : StableHlo.after (hostOps2 (F := Ideal)) W (Proc.devRef .tc main_v39)
    = Host.scatterAdd scatter_S50000x1_S800000x1_S800000x1_1_0_0_1
        (broadcastInDim S50000x1 ![] bcast_S_S50000x1 (constant (F := Ideal) S_ .f32 0x00000000#32))
        (broadcastInDim S800000x1 ![0] bcast_S800000_S800000x1_0 (W (Proc.devRef .tc main_v3)))
        (W (Proc.devRef .tc main_v33_1)) := by
  read_results; all_goals rfl

theorem h2_keep (r : Ref sig .tc) (h : r ∉ hostOps2_W) : StableHlo.after (hostOps2 (F := Ideal)) W (Proc.devRef .tc r) = W (Proc.devRef .tc r) :=
  StableHlo.after_of_writes_sub hostOps2 _ hostOps2_writes h

end Cert.KernelIdeal.Host

end
-- ==== Proof.BridgeCat.lean ====
/-
  The kernel's whole-array stages at the weights the host builds by concatenation.

  The host puts the three 128×128 projection matrices side by side into one 128×384 matrix and the three biases end to end
  into one 384-long vector, and likewise the two 32×128 edge matrices and their biases. A concatenation read at an entry is
  the piece whose span holds the entry's coordinate along the axis, read at the coordinate less the extents before it. So
      • columns 0…127, 128…255, 256…383 of the projection at the concatenated weights are the three dense layers, each of its
        own matrix and bias, and so are the three 128-column slices of the projection;
      • the left halves of the concatenated edge weights (columns `loCol i = i`) are the first edge matrix and bias, the
        right halves (columns `hiCol j = 128 + j`) the second: the edge stage's attention weight uses the first pair, its
        value row the second.
-/
import proofs.«119884_j21492016349943_1_alg».proof.Proof.KIVal0
import proofs.«119884_j21492016349943_1_alg».proof.Proof.KIVal1
import proofs.«119884_j21492016349943_1_alg».proof.Proof.Spec
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Cert.Spec Idealize.ShloMosaic Idealize.ShloMosaic.ValueIdx

/-! ## The concatenated weights read at an entry -/

/-- Three 128×128 matrices put side by side read, at `(k, n·128 + j)`, the `n`-th matrix at `(k, j)`: the pieces before
    the `n`-th take up `n·128` columns. -/
theorem W3_apply (a3 a5 a7 : S128x128.Idx → EReal) (n : Fin 3) (k j : Fin 128) (c : Fin 384) (hc : c.val = n.val * 128 + j.val) :
    (concatenate S128x384 1 [⟨S128x128, a3⟩, ⟨S128x128, a5⟩, ⟨S128x128, a7⟩] concatenates_S128x128_S128x128_S128x128_S128x384_d1) (ix2 k c)
      = (![a3, a5, a7] n) (ix2 k j) := by
  refine concatenate_apply_piece (t := S128x384) 1 _ _ (ix2 k c) n.val (by exact n.isLt) S128x128 (![a3, a5, a7] n) ?_ rfl (n.val * 128) ?_
    (ix2 k j) (fun b hb => ?_) hc.symm
  · fin_cases n <;> rfl
  · fin_cases n <;> rfl
  · match b with
    | ⟨0, _⟩ => rfl
    | ⟨1, _⟩ => exact absurd rfl hb

/-- Three 128-long vectors put end to end read, at `n·128 + j`, the `n`-th vector at `j`. -/
theorem B3_apply (a4 a6 a8 : S128.Idx → EReal) (n : Fin 3) (j : Fin 128) (c : Fin 384) (hc : c.val = n.val * 128 + j.val) :
    (concatenate S384 0 [⟨S128, a4⟩, ⟨S128, a6⟩, ⟨S128, a8⟩] concatenates_S128_S128_S128_S384_d0) (ix1 c)
      = (![a4, a6, a8] n) (ix1 j) := by
  refine concatenate_apply_piece (t := S384) 0 _ _ (ix1 c) n.val (by exact n.isLt) S128 (![a4, a6, a8] n) ?_ rfl (n.val * 128) ?_
    (ix1 j) (fun b hb => ?_) hc.symm
  · fin_cases n <;> rfl
  · fin_cases n <;> rfl
  · match b with
    | ⟨0, _⟩ => exact absurd rfl hb

/-- Two 32×128 matrices put side by side read, at `(k, n·128 + j)`, the `n`-th matrix at `(k, j)`. -/
theorem W2_apply (a11 a13 : S32x128.Idx → EReal) (n : Fin 2) (k : Fin 32) (j : Fin 128) (c : Fin 256) (hc : c.val = n.val * 128 + j.val) :
    (concatenate S32x256 1 [⟨S32x128, a11⟩, ⟨S32x128, a13⟩] concatenates_S32x128_S32x128_S32x256_d1) (ix2 k c)
      = (![a11, a13] n) (ix2 k j) := by
  refine concatenate_apply_piece (t := S32x256) 1 _ _ (ix2 k c) n.val (by exact n.isLt) S32x128 (![a11, a13] n) ?_ rfl (n.val * 128) ?_
    (ix2 k j) (fun b hb => ?_) hc.symm
  · fin_cases n <;> rfl
  · fin_cases n <;> rfl
  · match b with
    | ⟨0, _⟩ => rfl
    | ⟨1, _⟩ => exact absurd rfl hb

/-- Two 128-long vectors put end to end read, at `n·128 + j`, the `n`-th vector at `j`. -/
theorem B2_apply (a12 a14 : S128.Idx → EReal) (n : Fin 2) (j : Fin 128) (c : Fin 256) (hc : c.val = n.val * 128 + j.val) :
    (concatenate S256 0 [⟨S128, a12⟩, ⟨S128, a14⟩] concatenates_S128_S128_S256_d0) (ix1 c)
      = (![a12, a14] n) (ix1 j) := by
  refine concatenate_apply_piece (t := S256) 0 _ _ (ix1 c) n.val (by exact n.isLt) S128 (![a12, a14] n) ?_ rfl (n.val * 128) ?_
    (ix1 j) (fun b hb => ?_) hc.symm
  · fin_cases n <;> rfl
  · fin_cases n <;> rfl
  · match b with
    | ⟨0, _⟩ => exact absurd rfl hb

/-! ## The projection at the concatenated weights: one dense layer per 128 columns -/

/-- The projection read at row `r` and column `c`, with the coordinates written out. -/
theorem proj_ix2 (x : S50000x128.Idx → EReal) (w : S128x384.Idx → EReal) (b : S384.Idx → EReal) (r : Fin 50000) (c : Fin 384) :
    proj x w b (ix2 r c) = lin (fun k : Fin 128 => x (ix2 r k)) (fun k : Fin 128 => w (ix2 k c)) (b (ix1 c)) := rfl

/-- Columns 0 … 127 of the projection at the concatenated weights are the dense layer of the first weight matrix and bias. -/
theorem catQ (x : S50000x128.Idx → EReal) (a3 a5 a7 : S128x128.Idx → EReal) (a4 a6 a8 : S128.Idx → EReal) (r : Fin 50000) (j : Fin 128) :
    proj x (concatenate S128x384 1 [⟨S128x128, a3⟩, ⟨S128x128, a5⟩, ⟨S128x128, a7⟩] concatenates_S128x128_S128x128_S128x128_S128x384_d1)
        (concatenate S384 0 [⟨S128, a4⟩, ⟨S128, a6⟩, ⟨S128, a8⟩] concatenates_S128_S128_S128_S384_d0) (ix2 r (⟨j.val, by omega⟩ : Fin 384))
      = lin (fun k : Fin 128 => x (ix2 r k)) (fun k : Fin 128 => a3 (ix2 k j)) (a4 (ix1 j)) := by
  rw [proj_ix2]
  exact congrArg₂ (lin (fun k : Fin 128 => x (ix2 r k)))
    (funext fun k => W3_apply a3 a5 a7 0 k j _ (Nat.zero_add _).symm) (B3_apply a4 a6 a8 0 j _ (Nat.zero_add _).symm)

/-- Columns 128 … 255 of the projection at the concatenated weights are the dense layer of the second weight matrix and bias. -/
theorem catK (x : S50000x128.Idx → EReal) (a3 a5 a7 : S128x128.Idx → EReal) (a4 a6 a8 : S128.Idx → EReal) (r : Fin 50000) (j : Fin 128) :
    proj x (concatenate S128x384 1 [⟨S128x128, a3⟩, ⟨S128x128, a5⟩, ⟨S128x128, a7⟩] concatenates_S128x128_S128x128_S128x128_S128x384_d1)
        (concatenate S384 0 [⟨S128, a4⟩, ⟨S128, a6⟩, ⟨S128, a8⟩] concatenates_S128_S128_S128_S384_d0) (ix2 r (⟨128 + j.val, by omega⟩ : Fin 384))
      = lin (fun k : Fin 128 => x (ix2 r k)) (fun k : Fin 128 => a5 (ix2 k j)) (a6 (ix1 j)) := by
  rw [proj_ix2]
  exact congrArg₂ (lin (fun k : Fin 128 => x (ix2 r k)))
    (funext fun k => W3_apply a3 a5 a7 1 k j _ rfl) (B3_apply a4 a6 a8 1 j _ rfl)

/-- Columns 256 … 383 of the projection at the concatenated weights are the dense layer of the third weight matrix and bias. -/
theorem catV (x : S50000x128.Idx → EReal) (a3 a5 a7 : S128x128.Idx → EReal) (a4 a6 a8 : S128.Idx → EReal) (r : Fin 50000) (j : Fin 128) :
    proj x (concatenate S128x384 1 [⟨S128x128, a3⟩, ⟨S128x128, a5⟩, ⟨S128x128, a7⟩] concatenates_S128x128_S128x128_S128x128_S128x384_d1)
        (concatenate S384 0 [⟨S128, a4⟩, ⟨S128, a6⟩, ⟨S128, a8⟩] concatenates_S128_S128_S128_S384_d0) (ix2 r (⟨256 + j.val, by omega⟩ : Fin 384))
      = lin (fun k : Fin 128 => x (ix2 r k)) (fun k : Fin 128 => a7 (ix2 k j)) (a8 (ix1 j)) := by
  rw [proj_ix2]
  exact congrArg₂ (lin (fun k : Fin 128 => x (ix2 r k)))
    (funext fun k => W3_apply a3 a5 a7 2 k j _ rfl) (B3_apply a4 a6 a8 2 j _ rfl)

/-! ## The three column slices of the projection -/

/-- The slice of 128 columns from 0 of the projection at the concatenated weights. -/
theorem sliceQ (x : S50000x128.Idx → EReal) (a3 a5 a7 : S128x128.Idx → EReal) (a4 a6 a8 : S128.Idx → EReal) (r : Fin 50000) (j : Fin 128) :
    extractStridedSlice S50000x128 ![0, 0]
        (proj x (concatenate S128x384 1 [⟨S128x128, a3⟩, ⟨S128x128, a5⟩, ⟨S128x128, a7⟩] concatenates_S128x128_S128x128_S128x128_S128x384_d1)
          (concatenate S384 0 [⟨S128, a4⟩, ⟨S128, a6⟩, ⟨S128, a8⟩] concatenates_S128_S128_S128_S384_d0))
        slices_S50000x384_S50000x128_0_0 (ix2 r j)
      = lin (fun k : Fin 128 => x (ix2 r k)) (fun k : Fin 128 => a3 (ix2 k j)) (a4 (ix1 j)) :=
  (slice2_axis1_apply 0 _ _ r j (⟨j.val, by omega⟩ : Fin 384) (Nat.zero_add _).symm).trans (catQ x a3 a5 a7 a4 a6 a8 r j)

/-- The slice of 128 columns from 128 of the projection at the concatenated weights. -/
theorem sliceK (x : S50000x128.Idx → EReal) (a3 a5 a7 : S128x128.Idx → EReal) (a4 a6 a8 : S128.Idx → EReal) (r : Fin 50000) (j : Fin 128) :
    extractStridedSlice S50000x128 ![0, 128]
        (proj x (concatenate S128x384 1 [⟨S128x128, a3⟩, ⟨S128x128, a5⟩, ⟨S128x128, a7⟩] concatenates_S128x128_S128x128_S128x128_S128x384_d1)
          (concatenate S384 0 [⟨S128, a4⟩, ⟨S128, a6⟩, ⟨S128, a8⟩] concatenates_S128_S128_S128_S384_d0))
        slices_S50000x384_S50000x128_0_128 (ix2 r j)
      = lin (fun k : Fin 128 => x (ix2 r k)) (fun k : Fin 128 => a5 (ix2 k j)) (a6 (ix1 j)) :=
  (slice2_axis1_apply 128 _ _ r j (⟨128 + j.val, by omega⟩ : Fin 384) rfl).trans (catK x a3 a5 a7 a4 a6 a8 r j)

/-- The slice of 128 columns from 256 of the projection at the concatenated weights. -/
theorem sliceV (x : S50000x128.Idx → EReal) (a3 a5 a7 : S128x128.Idx → EReal) (a4 a6 a8 : S128.Idx → EReal) (r : Fin 50000) (j : Fin 128) :
    extractStridedSlice S50000x128 ![0, 256]
        (proj x (concatenate S128x384 1 [⟨S128x128, a3⟩, ⟨S128x128, a5⟩, ⟨S128x128, a7⟩] concatenates_S128x128_S128x128_S128x128_S128x384_d1)
          (concatenate S384 0 [⟨S128, a4⟩, ⟨S128, a6⟩, ⟨S128, a8⟩] concatenates_S128_S128_S128_S384_d0))
        slices_S50000x384_S50000x128_0_256 (ix2 r j)
      = lin (fun k : Fin 128 => x (ix2 r k)) (fun k : Fin 128 => a7 (ix2 k j)) (a8 (ix1 j)) :=
  (slice2_axis1_apply 256 _ _ r j (⟨256 + j.val, by omega⟩ : Fin 384) rfl).trans (catV x a3 a5 a7 a4 a6 a8 r j)

/-! ## The edge stage at the concatenated edge weights -/

/-- The query row of edge `e` at the concatenated edge weights: the left halves. -/
theorem qrowA_cat (ea : S800000x32.Idx → EReal) (qs : S800000x128.Idx → EReal) (a11 a13 : S32x128.Idx → EReal) (a12 a14 : S128.Idx → EReal)
    (e : Fin 800000) :
    qrowA ea qs (concatenate S32x256 1 [⟨S32x128, a11⟩, ⟨S32x128, a13⟩] concatenates_S32x128_S32x128_S32x256_d1)
        (concatenate S256 0 [⟨S128, a12⟩, ⟨S128, a14⟩] concatenates_S128_S128_S256_d0) e
      = fun i : Fin 128 => qs (ix2 e i) + lin (fun k : Fin 32 => ea (ix2 e k)) (fun k : Fin 32 => a11 (ix2 k i)) (a12 (ix1 i)) := by
  unfold qrowA
  funext i
  exact congrArg (qs (ix2 e i) + ·) (congrArg₂ (lin (fun k : Fin 32 => ea (ix2 e k)))
    (funext fun k => W2_apply a11 a13 0 k i _ (Nat.zero_add _).symm) (B2_apply a12 a14 0 i _ (Nat.zero_add _).symm))

/-- The attention weight of edge `e` at the concatenated edge weights. -/
theorem catA (ea : S800000x32.Idx → EReal) (qs kd : S800000x128.Idx → EReal) (a11 a13 : S32x128.Idx → EReal) (a12 a14 : S128.Idx → EReal)
    (e : Fin 800000) :
    edgeA ea qs kd (concatenate S32x256 1 [⟨S32x128, a11⟩, ⟨S32x128, a13⟩] concatenates_S32x128_S32x128_S32x256_d1)
        (concatenate S256 0 [⟨S128, a12⟩, ⟨S128, a14⟩] concatenates_S128_S128_S256_d0) (ix2 e (0 : Fin 1))
      = attn (fun i : Fin 128 => qs (ix2 e i) + lin (fun k : Fin 32 => ea (ix2 e k)) (fun k : Fin 32 => a11 (ix2 k i)) (a12 (ix1 i)))
          (fun i : Fin 128 => kd (ix2 e i)) := by
  show attn (qrowA ea qs _ _ e) (fun i : Fin 128 => kd (ix2 e i)) = _
  rw [qrowA_cat]

/-- The weighted value row of edge `e` at the concatenated edge weights: the right halves for the value, the left halves
    for the weight. -/
theorem catW (ea : S800000x32.Idx → EReal) (qs kd vs : S800000x128.Idx → EReal) (a11 a13 : S32x128.Idx → EReal) (a12 a14 : S128.Idx → EReal)
    (e : Fin 800000) (j : Fin 128) :
    edgeW ea qs kd vs (concatenate S32x256 1 [⟨S32x128, a11⟩, ⟨S32x128, a13⟩] concatenates_S32x128_S32x128_S32x256_d1)
        (concatenate S256 0 [⟨S128, a12⟩, ⟨S128, a14⟩] concatenates_S128_S128_S256_d0) (ix2 e j)
      = (vs (ix2 e j) + lin (fun k : Fin 32 => ea (ix2 e k)) (fun k : Fin 32 => a13 (ix2 k j)) (a14 (ix1 j)))
        * attn (fun i : Fin 128 => qs (ix2 e i) + lin (fun k : Fin 32 => ea (ix2 e k)) (fun k : Fin 32 => a11 (ix2 k i)) (a12 (ix1 i)))
          (fun i : Fin 128 => kd (ix2 e i)) := by
  show (vs (ix2 e j) + lin (fun k : Fin 32 => ea (ix2 e k))
          (fun k : Fin 32 => (concatenate S32x256 1 [⟨S32x128, a11⟩, ⟨S32x128, a13⟩] concatenates_S32x128_S32x128_S32x256_d1) (ix2 k (hiCol j)))
          ((concatenate S256 0 [⟨S128, a12⟩, ⟨S128, a14⟩] concatenates_S128_S128_S256_d0) (ix1 (hiCol j))))
      * attn (qrowA ea qs _ _ e) (fun i : Fin 128 => kd (ix2 e i)) = _
  rw [qrowA_cat]
  exact congrArg (fun t => (vs (ix2 e j) + t) * _) (congrArg₂ (lin (fun k : Fin 32 => ea (ix2 e k)))
    (funext fun k => W2_apply a11 a13 1 k j _ rfl) (B2_apply a12 a14 1 j _ rfl))

end Cert.KernelIdeal.Val

end
-- ==== Proof.RefStages0.lean ====
/-
  The reference's three node projections read at an index: each entry of `x · W + b` is the dense-layer entry of
  the specification, the inner product of a row of the input with a column of the weight, plus the bias entry.
-/
import proofs.«119884_j21492016349943_1_alg».proof.Proof.Gen.ReferenceIdeal.Read
import proofs.«119884_j21492016349943_1_alg».proof.Proof.Spec

noncomputable section

namespace Cert.RefStages

open Cert.ReferenceIdeal Cert.ReferenceIdeal.Read Cert.Spec Idealize.ShloMosaic Idealize.ShloMosaic.ValueIdx

/-- Entry (r, j) of the query projection. -/
theorem R0q (x0 : (⟨S50000x128, .f32⟩ : BufTy).Contents (Elt Ideal)) (x3 : (⟨S128x128, .f32⟩ : BufTy).Contents (Elt Ideal))
    (x4 : (⟨S128, .f32⟩ : BufTy).Contents (Elt Ideal)) (r : Fin 50000) (j : Fin 128) :
    val_main_v7 (F := Ideal) x0 x3 x4 (ix2 r j)
      = lin (fun k : Fin 128 => x0 (ix2 r k)) (fun k : Fin 128 => x3 (ix2 k j)) (x4 (ix1 j)) := by
  have el : ∀ k : Fin 128, lidx_main_v4 (ix2 r j) k = ix2 r k := fun k => funext fun a => Fin.ext (by
    match a with | ⟨0, _⟩ => rfl | ⟨1, _⟩ => rfl)
  have er : ∀ k : Fin 128, ridx_main_v4 (ix2 r j) k = ix2 k j := fun k => funext fun a => Fin.ext (by
    match a with | ⟨0, _⟩ => rfl | ⟨1, _⟩ => rfl)
  have eb : idx_main_v5 (idx_main_v6 (ix2 r j)) = ix1 j := funext fun a => Fin.ext (by
    match a with | ⟨0, _⟩ => rfl)
  rw [val_main_v7_apply, val_main_v4_apply, val_main_v6_apply, val_main_v5_apply]
  simp only [el, er, eb, Ideal.addf_def]
  rfl

/-- Entry (r, j) of the key projection. -/
theorem R0k (x0 : (⟨S50000x128, .f32⟩ : BufTy).Contents (Elt Ideal)) (x5 : (⟨S128x128, .f32⟩ : BufTy).Contents (Elt Ideal))
    (x6 : (⟨S128, .f32⟩ : BufTy).Contents (Elt Ideal)) (r : Fin 50000) (j : Fin 128) :
    val_main_v11 (F := Ideal) x0 x5 x6 (ix2 r j)
      = lin (fun k : Fin 128 => x0 (ix2 r k)) (fun k : Fin 128 => x5 (ix2 k j)) (x6 (ix1 j)) := by
  have el : ∀ k : Fin 128, lidx_main_v8 (ix2 r j) k = ix2 r k := fun k => funext fun a => Fin.ext (by
    match a with | ⟨0, _⟩ => rfl | ⟨1, _⟩ => rfl)
  have er : ∀ k : Fin 128, ridx_main_v8 (ix2 r j) k = ix2 k j := fun k => funext fun a => Fin.ext (by
    match a with | ⟨0, _⟩ => rfl | ⟨1, _⟩ => rfl)
  have eb : idx_main_v9 (idx_main_v10 (ix2 r j)) = ix1 j := funext fun a => Fin.ext (by
    match a with | ⟨0, _⟩ => rfl)
  rw [val_main_v11_apply, val_main_v8_apply, val_main_v10_apply, val_main_v9_apply]
  simp only [el, er, eb, Ideal.addf_def]
  rfl

/-- Entry (r, j) of the value projection. -/
theorem R0v (x0 : (⟨S50000x128, .f32⟩ : BufTy).Contents (Elt Ideal)) (x7 : (⟨S128x128, .f32⟩ : BufTy).Contents (Elt Ideal))
    (x8 : (⟨S128, .f32⟩ : BufTy).Contents (Elt Ideal)) (r : Fin 50000) (j : Fin 128) :
    val_main_v15 (F := Ideal) x0 x7 x8 (ix2 r j)
      = lin (fun k : Fin 128 => x0 (ix2 r k)) (fun k : Fin 128 => x7 (ix2 k j)) (x8 (ix1 j)) := by
  have el : ∀ k : Fin 128, lidx_main_v12 (ix2 r j) k = ix2 r k := fun k => funext fun a => Fin.ext (by
    match a with | ⟨0, _⟩ => rfl | ⟨1, _⟩ => rfl)
  have er : ∀ k : Fin 128, ridx_main_v12 (ix2 r j) k = ix2 k j := fun k => funext fun a => Fin.ext (by
    match a with | ⟨0, _⟩ => rfl | ⟨1, _⟩ => rfl)
  have eb : idx_main_v13 (idx_main_v14 (ix2 r j)) = ix1 j := funext fun a => Fin.ext (by
    match a with | ⟨0, _⟩ => rfl)
  rw [val_main_v15_apply, val_main_v12_apply, val_main_v14_apply, val_main_v13_apply]
  simp only [el, er, eb, Ideal.addf_def]
  rfl

end Cert.RefStages

end
-- ==== Proof.RefStages1.lean ====
/-
  The reference's edge stage read at an index: the edge-feature projections, the per-head scaled scores of the
  reshaped queries and keys, the attention weight (the mean over the heads of the exponential of the clipped score),
  and the weighted value row, in the row formulas of the specification.
-/
import proofs.«119884_j21492016349943_1_alg».proof.Proof.Gen.ReferenceIdeal.Read
import proofs.«119884_j21492016349943_1_alg».proof.Proof.Spec

noncomputable section

namespace Cert.RefStages

open Cert.ReferenceIdeal Cert.ReferenceIdeal.Read Cert.Spec Idealize.ShloMosaic Idealize.ShloMosaic.ValueIdx

/-- The f32 word of 4.0 denotes the real 4. -/
theorem ofBits_four : Ideal.ofBits .f32 0x40800000#32 = ((4 : ℝ) : EReal) := by
  simp [Ideal.ofBits, Ideal.ieee, -EReal.coe_mul]; norm_num

/-- The f32 word of 0.25 denotes the real 1/4. -/
theorem ofBits_quarter : Ideal.ofBits .f32 0x3E800000#32 = ((1 / 4 : ℝ) : EReal) := by
  simp [Ideal.ofBits, Ideal.ieee, -EReal.coe_mul]; norm_num

/-- Dividing by the word of 4.0 is multiplying by the word of 0.25. -/
theorem div_four (s : EReal) :
    Ideal.div s (Ideal.ofBits .f32 0x40800000#32) = s * Ideal.ofBits .f32 0x3E800000#32 := by
  rw [ofBits_four, ofBits_quarter]
  exact Ideal.div_coe (by norm_num) s

variable (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S32x128, .f32⟩ : BufTy).Contents (Elt Ideal))
  (x12 : (⟨S128, .f32⟩ : BufTy).Contents (Elt Ideal)) (x13 : (⟨S32x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal))

/-- Entry (e, c) of the edge-feature projection added to the gathered queries. -/
theorem R1_eq (e : Fin 800000) (c : Fin 128) :
    val_main_v19 (F := Ideal) x2 x11 x12 (ix2 e c)
      = lin (fun k : Fin 32 => x2 (ix2 e k)) (fun k : Fin 32 => x11 (ix2 k c)) (x12 (ix1 c)) := by
  have el : ∀ k : Fin 32, lidx_main_v16 (ix2 e c) k = ix2 e k := fun k => funext fun a => Fin.ext (by match a with | ⟨0, _⟩ => rfl | ⟨1, _⟩ => rfl)
  have er : ∀ k : Fin 32, ridx_main_v16 (ix2 e c) k = ix2 k c := fun k => funext fun a => Fin.ext (by match a with | ⟨0, _⟩ => rfl | ⟨1, _⟩ => rfl)
  have eb : idx_main_v17 (idx_main_v18 (ix2 e c)) = ix1 c := funext fun a => Fin.ext (by match a with | ⟨0, _⟩ => rfl)
  rw [val_main_v19_apply, val_main_v16_apply, val_main_v18_apply, val_main_v17_apply]
  simp only [el, er, eb, Ideal.addf_def]
  rfl

/-- Entry (e, c) of the edge-feature projection added to the gathered values. -/
theorem R1_ev (e : Fin 800000) (c : Fin 128) :
    val_main_v23 (F := Ideal) x2 x13 x14 (ix2 e c)
      = lin (fun k : Fin 32 => x2 (ix2 e k)) (fun k : Fin 32 => x13 (ix2 k c)) (x14 (ix1 c)) := by
  have el : ∀ k : Fin 32, lidx_main_v20 (ix2 e c) k = ix2 e k := fun k => funext fun a => Fin.ext (by match a with | ⟨0, _⟩ => rfl | ⟨1, _⟩ => rfl)
  have er : ∀ k : Fin 32, ridx_main_v20 (ix2 e c) k = ix2 k c := fun k => funext fun a => Fin.ext (by match a with | ⟨0, _⟩ => rfl | ⟨1, _⟩ => rfl)
  have eb : idx_main_v21 (idx_main_v22 (ix2 e c)) = ix1 c := funext fun a => Fin.ext (by match a with | ⟨0, _⟩ => rfl)
  rw [val_main_v23_apply, val_main_v20_apply, val_main_v22_apply, val_main_v21_apply]
  simp only [el, er, eb, Ideal.addf_def]
  rfl

/-- Entry d of head h of edge e's query: entry `16 h + d` of the gathered query row plus the edge projection. -/
theorem R1_q (e : Fin 800000) (h : Fin 8) (d : Fin 16) :
    val_main_v32 (F := Ideal) x0 x1 x2 x3 x4 x11 x12 (ix3 e h d)
      = val_main_v30 (F := Ideal) x0 x1 x3 x4 (ix2 e (col h d)) + lin (fun k : Fin 32 => x2 (ix2 e k)) (fun k : Fin 32 => x11 (ix2 k (col h d))) (x12 (ix1 (col h d))) := by
  have ei : idx_main_v32 (ix3 e h d) = ix2 e (col h d) := funext fun a => Fin.ext (by
    match a with
    | ⟨0, _⟩ => show ((e.val * 8 + h.val) * 16 + d.val) / 128 = e.val; omega
    | ⟨1, _⟩ => show ((e.val * 8 + h.val) * 16 + d.val) % 128 = 16 * h.val + d.val; omega)
  rw [val_main_v32_apply, ei, val_main_v31_apply, R1_eq]
  rfl

/-- Entry d of head h of edge e's key: entry `16 h + d` of the gathered key row. -/
theorem R1_k (e : Fin 800000) (h : Fin 8) (d : Fin 16) :
    val_main_v40 (F := Ideal) x0 x1 x5 x6 (ix3 e h d) = val_main_v39 (F := Ideal) x0 x1 x5 x6 (ix2 e (col h d)) := by
  have ei : idx_main_v40 (ix3 e h d) = ix2 e (col h d) := funext fun a => Fin.ext (by
    match a with
    | ⟨0, _⟩ => show ((e.val * 8 + h.val) * 16 + d.val) / 128 = e.val; omega
    | ⟨1, _⟩ => show ((e.val * 8 + h.val) * 16 + d.val) % 128 = 16 * h.val + d.val; omega)
  rw [val_main_v40_apply, ei]

/-- Head h's scaled score of edge e. -/
theorem R1_score (e : Fin 800000) (h : Fin 8) :
    val_main_v53 (F := Ideal) x0 x1 x2 x3 x4 x5 x6 x11 x12 (ix2 e h)
      = score (fun i : Fin 128 => val_main_v30 (F := Ideal) x0 x1 x3 x4 (ix2 e i) + lin (fun k : Fin 32 => x2 (ix2 e k)) (fun k : Fin 32 => x11 (ix2 k i)) (x12 (ix1 i)))
          (fun i : Fin 128 => val_main_v39 (F := Ideal) x0 x1 x5 x6 (ix2 e i)) h := by
  have e1 : ∀ d : Fin 16, idx_main_v51 (ix2 e h) d = ix3 e h d := fun d => funext fun a => Fin.ext (by
    match a with | ⟨0, _⟩ => rfl | ⟨1, _⟩ => rfl | ⟨2, _⟩ => rfl)
  rw [val_main_v53_apply, val_main_v51_apply, val_main_v52_apply, val_main_cst_5_apply, val_main_cst_apply]
  simp only [e1, val_main_v50_apply, R1_q, R1_k, Ideal.hostDivf_def, Ideal.ofBits_def, Ideal.ofBits_zero_f32, zero_add,
    Ideal.mulf_def, div_four]
  rfl

/-- Edge e's attention weight. -/
theorem R1a (e : Fin 800000) :
    val_main_v59 (F := Ideal) x0 x1 x2 x3 x4 x5 x6 x11 x12 (ix2 e (0 : Fin 1))
      = attn (fun i : Fin 128 => val_main_v30 (F := Ideal) x0 x1 x3 x4 (ix2 e i) + lin (fun k : Fin 32 => x2 (ix2 e k)) (fun k : Fin 32 => x11 (ix2 k i)) (x12 (ix1 i)))
          (fun i : Fin 128 => val_main_v39 (F := Ideal) x0 x1 x5 x6 (ix2 e i)) := by
  have e1 : idx_main_v57 (ix2 e (0 : Fin 1)) = ix1 e := funext fun a => Fin.ext (by match a with | ⟨0, _⟩ => rfl)
  have e2 : ∀ h : Fin 8, idx_main_v56 (ix1 e) h = ix2 e h := fun h => funext fun a => Fin.ext (by match a with | ⟨0, _⟩ => rfl | ⟨1, _⟩ => rfl)
  rw [val_main_v59_apply, val_main_v57_apply, e1, val_main_v56_apply, val_main_v58_apply, val_main_cst_9_apply,
    val_main_cst_8_apply]
  simp only [e2, val_main_v55_apply, val_main_v54_apply, val_main_call0_v4_apply, val_main_call0_v3_apply,
    val_main_cst_7_apply, val_main_call0_v2_apply, val_main_call0_v1_apply, val_main_call0_v0_apply,
    val_main_cst_6_apply, R1_score, Ideal.hostDivf_def, Ideal.ofBits_def, Ideal.ofBits_zero_f32, zero_add,
    Ideal.hostUnary_exp_def, Ideal.minimumf_def, Ideal.maximumf_def]
  rfl

/-- Entry (e, j) of the weighted value row: the gathered value plus the edge projection, times the edge's weight. -/
theorem R1w (e : Fin 800000) (j : Fin 128) :
    val_main_v63 (F := Ideal) x0 x1 x2 x3 x4 x5 x6 x7 x8 x11 x12 x13 x14 (ix2 e j)
      = (val_main_v47 (F := Ideal) x0 x1 x7 x8 (ix2 e j) + lin (fun k : Fin 32 => x2 (ix2 e k)) (fun k : Fin 32 => x13 (ix2 k j)) (x14 (ix1 j)))
        * attn (fun i : Fin 128 => val_main_v30 (F := Ideal) x0 x1 x3 x4 (ix2 e i) + lin (fun k : Fin 32 => x2 (ix2 e k)) (fun k : Fin 32 => x11 (ix2 k i)) (x12 (ix1 i)))
          (fun i : Fin 128 => val_main_v39 (F := Ideal) x0 x1 x5 x6 (ix2 e i)) := by
  have e49 : idx_main_v49 (idx_main_v63 (ix2 e j)) = ix2 e j := funext fun a => Fin.ext (by
    match a with
    | ⟨0, _⟩ =>
      show ((((e.val * 128 + j.val) / 128) * 8 + (e.val * 128 + j.val) / 16 % 8) * 16 + (e.val * 128 + j.val) % 16) / 128
        = e.val
      omega
    | ⟨1, _⟩ =>
      show ((((e.val * 128 + j.val) / 128) * 8 + (e.val * 128 + j.val) / 16 % 8) * 16 + (e.val * 128 + j.val) % 16) % 128
        = j.val
      omega)
  have e61 : idx_main_v60 (idx_main_v61 (idx_main_v63 (ix2 e j))) = ix2 e (0 : Fin 1) := funext fun a => Fin.ext (by
    match a with
    | ⟨0, _⟩ => show (e.val * 128 + j.val) / 128 = e.val; omega
    | ⟨1, _⟩ => rfl)
  rw [val_main_v63_apply, val_main_v62_apply, val_main_v49_apply, e49, val_main_v48_apply, R1_ev, val_main_v61_apply,
    val_main_v60_apply, e61, R1a]
  rfl

end Cert.RefStages

end
-- ==== Proof.RefStages2.lean ====
/-
  The reference's last stage read at an index: the aggregate divided by the summed weights, the output dense layer,
  the residual, and the layer normalisation of the resulting 128-wide row, in the row formulas of the specification.

  The two segment sums enter only as values read at an index. Each row formula is first stated over arbitrary extended
  reals (the `_eq` lemmas below) and then instantiated at the reference's values.
-/
import proofs.«119884_j21492016349943_1_alg».proof.Proof.Gen.ReferenceIdeal.Read
import proofs.«119884_j21492016349943_1_alg».proof.Proof.Spec

noncomputable section

namespace Cert.RefStages

open Cert.ReferenceIdeal Cert.ReferenceIdeal.Read Cert.Spec Idealize.ShloMosaic Idealize.ShloMosaic.ValueIdx

/-! ### The row formulas over arbitrary extended reals -/

/-- A quotient by `n + ε` is the normalised aggregate. -/
theorem normAgg_eq (o n : Ideal .f32) :
    FloatOps.hostDivf (F := Ideal) o (FloatOps.addf (F := Ideal) n (FloatOps.ofBits (F := Ideal) .f32 0x322BCC77#32))
      = normAgg o n := rfl

/-- An inner product plus a bias plus a residual. -/
theorem lin_res_eq {K : ℕ} (a w : Fin K → Ideal .f32) (b c : Ideal .f32) :
    FloatOps.addf (F := Ideal) (FloatOps.addf (F := Ideal) (∑ k : Fin K, a k * w k) b) c = lin a w b + c := rfl

/-- A sum started at the zero word and divided by the word of 128 is the mean. -/
theorem mean_eq (y : Fin 128 → Ideal .f32) :
    FloatOps.hostDivf (F := Ideal) (FloatOps.ofBits (F := Ideal) .f32 0x00000000#32 + ∑ k : Fin 128, y k)
        (FloatOps.ofBits (F := Ideal) .f32 0x43000000#32)
      = mean128 y := by
  rw [Ideal.ofBits_def, Ideal.ofBits_zero_f32, zero_add]
  rfl

/-- The normalised, scaled and shifted entry, given the row's mean and variance. -/
theorem layerNorm_eq (y γ β : Fin 128 → Ideal .f32) (j : Fin 128) (μ v : Ideal .f32) (hμ : μ = mean128 y)
    (hv : v = mean128 (fun i : Fin 128 => (y i - μ) * (y i - μ))) :
    FloatOps.addf (F := Ideal)
        (FloatOps.mulf (F := Ideal)
          (FloatOps.mulf (F := Ideal) (FloatOps.subf (F := Ideal) (y j) μ)
            (FloatOps.hostUnary (F := Ideal) .rsqrt
              (FloatOps.addf (F := Ideal) v (FloatOps.ofBits (F := Ideal) .f32 0x3727C5AC#32))))
          (γ j))
        (β j)
      = layerNorm y γ β j := by
  subst hμ
  subst hv
  rfl

/-! ### The reference's values -/

variable (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S32x128, .f32⟩ : BufTy).Contents (Elt Ideal))
  (x12 : (⟨S128, .f32⟩ : BufTy).Contents (Elt Ideal)) (x13 : (⟨S32x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal))

/-- Entry (r, k) of the aggregate divided by the summed weights. -/
theorem R2_norm (r : Fin 50000) (k : Fin 128) :
    val_main_v73 (F := Ideal) x0 x1 x2 x3 x4 x5 x6 x7 x8 x11 x12 x13 x14 (ix2 r k)
      = normAgg (val_main_v66 (F := Ideal) x0 x1 x2 x3 x4 x5 x6 x7 x8 x11 x12 x13 x14 (ix2 r k)) (val_main_v69 (F := Ideal) x0 x1 x2 x3 x4 x5 x6 x11 x12 (ix2 r (0 : Fin 1))) := by
  have en : idx_main_v72 (ix2 r k) = ix2 r (0 : Fin 1) := funext fun a => Fin.ext (by match a with | ⟨0, _⟩ => rfl | ⟨1, _⟩ => rfl)
  rw [val_main_v73_apply, val_main_v72_apply, en, val_main_v71_apply, val_main_v70_apply, val_main_cst_12_apply]
  exact normAgg_eq _ _

/-- Entry (r, i) of the row that is normalised: the dense layer of the normalised aggregate, plus the residual. -/
theorem R2_row (r : Fin 50000) (i : Fin 128) :
    val_main_v78 (F := Ideal) x0 x1 x2 x3 x4 x5 x6 x7 x8 x9 x10 x11 x12 x13 x14 (ix2 r i)
      = lin (fun k : Fin 128 => normAgg (val_main_v66 (F := Ideal) x0 x1 x2 x3 x4 x5 x6 x7 x8 x11 x12 x13 x14 (ix2 r k)) (val_main_v69 (F := Ideal) x0 x1 x2 x3 x4 x5 x6 x11 x12 (ix2 r (0 : Fin 1))))
          (fun k : Fin 128 => x9 (ix2 k i)) (x10 (ix1 i)) + x0 (ix2 r i) := by
  have el : ∀ k : Fin 128, lidx_main_v74 (ix2 r i) k = ix2 r k := fun k => funext fun a => Fin.ext (by match a with | ⟨0, _⟩ => rfl | ⟨1, _⟩ => rfl)
  have er : ∀ k : Fin 128, ridx_main_v74 (ix2 r i) k = ix2 k i := fun k => funext fun a => Fin.ext (by match a with | ⟨0, _⟩ => rfl | ⟨1, _⟩ => rfl)
  have eb : idx_main_v75 (idx_main_v76 (ix2 r i)) = ix1 i := funext fun a => Fin.ext (by match a with | ⟨0, _⟩ => rfl)
  have es : (∑ k : Fin 128, val_main_v73 (F := Ideal) x0 x1 x2 x3 x4 x5 x6 x7 x8 x11 x12 x13 x14 (lidx_main_v74 (ix2 r i) k) * x9 (ridx_main_v74 (ix2 r i) k))
      = ∑ k : Fin 128, normAgg (val_main_v66 (F := Ideal) x0 x1 x2 x3 x4 x5 x6 x7 x8 x11 x12 x13 x14 (ix2 r k)) (val_main_v69 (F := Ideal) x0 x1 x2 x3 x4 x5 x6 x11 x12 (ix2 r (0 : Fin 1))) * x9 (ix2 k i) :=
    Finset.sum_congr rfl fun k _ => by rw [el, er, R2_norm]
  rw [val_main_v78_apply, val_main_v77_apply, val_main_v74_apply, val_main_v76_apply, val_main_v75_apply, eb, es]
  exact lin_res_eq (fun k : Fin 128 => normAgg (val_main_v66 (F := Ideal) x0 x1 x2 x3 x4 x5 x6 x7 x8 x11 x12 x13 x14 (ix2 r k)) (val_main_v69 (F := Ideal) x0 x1 x2 x3 x4 x5 x6 x11 x12 (ix2 r (0 : Fin 1))))
    (fun k : Fin 128 => x9 (ix2 k i)) _ _

/-- The mean of row r. -/
theorem R2_mean (r : Fin 50000) :
    val_main_v82 (F := Ideal) x0 x1 x2 x3 x4 x5 x6 x7 x8 x9 x10 x11 x12 x13 x14 (ix2 r (0 : Fin 1))
      = mean128 (fun i : Fin 128 => val_main_v78 (F := Ideal) x0 x1 x2 x3 x4 x5 x6 x7 x8 x9 x10 x11 x12 x13 x14 (ix2 r i)) := by
  have e1 : idx_main_v80 (ix2 r (0 : Fin 1)) = ix1 r := funext fun a => Fin.ext (by match a with | ⟨0, _⟩ => rfl)
  have e2 : ∀ k : Fin 128, idx_main_v79 (ix1 r) k = ix2 r k := fun k => funext fun a => Fin.ext (by match a with | ⟨0, _⟩ => rfl | ⟨1, _⟩ => rfl)
  have es : (∑ k : Fin 128, val_main_v78 (F := Ideal) x0 x1 x2 x3 x4 x5 x6 x7 x8 x9 x10 x11 x12 x13 x14 (idx_main_v79 (ix1 r) k))
      = ∑ k : Fin 128, val_main_v78 (F := Ideal) x0 x1 x2 x3 x4 x5 x6 x7 x8 x9 x10 x11 x12 x13 x14 (ix2 r k) :=
    Finset.sum_congr rfl fun k _ => by rw [e2]
  rw [val_main_v82_apply, val_main_v80_apply, e1, val_main_v79_apply, val_main_v81_apply, val_main_cst_14_apply,
    val_main_cst_13_apply, es]
  exact mean_eq (fun i : Fin 128 => val_main_v78 (F := Ideal) x0 x1 x2 x3 x4 x5 x6 x7 x8 x9 x10 x11 x12 x13 x14 (ix2 r i))

/-- Entry (r, k) of the squared deviations from the row's mean. -/
theorem R2_sq (r : Fin 50000) (k : Fin 128) :
    val_main_v85 (F := Ideal) x0 x1 x2 x3 x4 x5 x6 x7 x8 x9 x10 x11 x12 x13 x14 (ix2 r k)
      = (val_main_v78 (F := Ideal) x0 x1 x2 x3 x4 x5 x6 x7 x8 x9 x10 x11 x12 x13 x14 (ix2 r k) - val_main_v82 (F := Ideal) x0 x1 x2 x3 x4 x5 x6 x7 x8 x9 x10 x11 x12 x13 x14 (ix2 r (0 : Fin 1)))
        * (val_main_v78 (F := Ideal) x0 x1 x2 x3 x4 x5 x6 x7 x8 x9 x10 x11 x12 x13 x14 (ix2 r k) - val_main_v82 (F := Ideal) x0 x1 x2 x3 x4 x5 x6 x7 x8 x9 x10 x11 x12 x13 x14 (ix2 r (0 : Fin 1))) := by
  have e3 : idx_main_v83 (ix2 r k) = ix2 r (0 : Fin 1) := funext fun a => Fin.ext (by match a with | ⟨0, _⟩ => rfl | ⟨1, _⟩ => rfl)
  rw [val_main_v85_apply, val_main_v84_apply, val_main_v83_apply, e3]
  rfl

/-- The variance of row r: the mean of the squared deviations from the row's mean. -/
theorem R2_var (r : Fin 50000) :
    val_main_v89 (F := Ideal) x0 x1 x2 x3 x4 x5 x6 x7 x8 x9 x10 x11 x12 x13 x14 (ix2 r (0 : Fin 1))
      = mean128 (fun i : Fin 128 =>
          (val_main_v78 (F := Ideal) x0 x1 x2 x3 x4 x5 x6 x7 x8 x9 x10 x11 x12 x13 x14 (ix2 r i) - val_main_v82 (F := Ideal) x0 x1 x2 x3 x4 x5 x6 x7 x8 x9 x10 x11 x12 x13 x14 (ix2 r (0 : Fin 1)))
            * (val_main_v78 (F := Ideal) x0 x1 x2 x3 x4 x5 x6 x7 x8 x9 x10 x11 x12 x13 x14 (ix2 r i) - val_main_v82 (F := Ideal) x0 x1 x2 x3 x4 x5 x6 x7 x8 x9 x10 x11 x12 x13 x14 (ix2 r (0 : Fin 1)))) := by
  have e1 : idx_main_v87 (ix2 r (0 : Fin 1)) = ix1 r := funext fun a => Fin.ext (by match a with | ⟨0, _⟩ => rfl)
  have e2 : ∀ k : Fin 128, idx_main_v86 (ix1 r) k = ix2 r k := fun k => funext fun a => Fin.ext (by match a with | ⟨0, _⟩ => rfl | ⟨1, _⟩ => rfl)
  have es : (∑ k : Fin 128, val_main_v85 (F := Ideal) x0 x1 x2 x3 x4 x5 x6 x7 x8 x9 x10 x11 x12 x13 x14 (idx_main_v86 (ix1 r) k))
      = ∑ k : Fin 128, (val_main_v78 (F := Ideal) x0 x1 x2 x3 x4 x5 x6 x7 x8 x9 x10 x11 x12 x13 x14 (ix2 r k) - val_main_v82 (F := Ideal) x0 x1 x2 x3 x4 x5 x6 x7 x8 x9 x10 x11 x12 x13 x14 (ix2 r (0 : Fin 1)))
          * (val_main_v78 (F := Ideal) x0 x1 x2 x3 x4 x5 x6 x7 x8 x9 x10 x11 x12 x13 x14 (ix2 r k) - val_main_v82 (F := Ideal) x0 x1 x2 x3 x4 x5 x6 x7 x8 x9 x10 x11 x12 x13 x14 (ix2 r (0 : Fin 1))) :=
    Finset.sum_congr rfl fun k _ => by rw [e2, R2_sq]
  rw [val_main_v89_apply, val_main_v87_apply, e1, val_main_v86_apply, val_main_v88_apply, val_main_cst_16_apply,
    val_main_cst_15_apply, es]
  exact mean_eq (fun i : Fin 128 =>
    (val_main_v78 (F := Ideal) x0 x1 x2 x3 x4 x5 x6 x7 x8 x9 x10 x11 x12 x13 x14 (ix2 r i) - val_main_v82 (F := Ideal) x0 x1 x2 x3 x4 x5 x6 x7 x8 x9 x10 x11 x12 x13 x14 (ix2 r (0 : Fin 1)))
      * (val_main_v78 (F := Ideal) x0 x1 x2 x3 x4 x5 x6 x7 x8 x9 x10 x11 x12 x13 x14 (ix2 r i) - val_main_v82 (F := Ideal) x0 x1 x2 x3 x4 x5 x6 x7 x8 x9 x10 x11 x12 x13 x14 (ix2 r (0 : Fin 1))))

/-- Entry (r, j) of the result, as the layer normalisation of the reference's own row. -/
theorem R2_of_row (r : Fin 50000) (j : Fin 128) :
    val_main_v102 (F := Ideal) x0 x1 x2 x3 x4 x5 x6 x7 x8 x9 x10 x11 x12 x13 x14 x15 x16 (ix2 r j)
      = layerNorm (fun i : Fin 128 => val_main_v78 (F := Ideal) x0 x1 x2 x3 x4 x5 x6 x7 x8 x9 x10 x11 x12 x13 x14 (ix2 r i))
          (fun i : Fin 128 => x15 (ix1 i)) (fun i : Fin 128 => x16 (ix1 i)) j := by
  have e90 : idx_main_v90 (ix2 r j) = ix2 r (0 : Fin 1) := funext fun a => Fin.ext (by match a with | ⟨0, _⟩ => rfl | ⟨1, _⟩ => rfl)
  have e95 : idx_main_v95 (ix2 r j) = ix2 r (0 : Fin 1) := funext fun a => Fin.ext (by match a with | ⟨0, _⟩ => rfl | ⟨1, _⟩ => rfl)
  have e97 : idx_main_v97 (idx_main_v98 (ix2 r j)) = ix1 j := funext fun a => Fin.ext (by match a with | ⟨0, _⟩ => rfl)
  have e100 : idx_main_v100 (idx_main_v101 (ix2 r j)) = ix1 j := funext fun a => Fin.ext (by match a with | ⟨0, _⟩ => rfl)
  rw [val_main_v102_apply, val_main_v99_apply, val_main_v96_apply, val_main_v91_apply, val_main_v90_apply, e90,
    val_main_v95_apply, e95, val_main_v94_apply, val_main_v93_apply, val_main_v92_apply, val_main_cst_17_apply,
    val_main_v98_apply, val_main_v97_apply, e97, val_main_v101_apply, val_main_v100_apply, e100]
  exact layerNorm_eq (fun i : Fin 128 => val_main_v78 (F := Ideal) x0 x1 x2 x3 x4 x5 x6 x7 x8 x9 x10 x11 x12 x13 x14 (ix2 r i))
    (fun i : Fin 128 => x15 (ix1 i)) (fun i : Fin 128 => x16 (ix1 i)) j _ _
    (R2_mean x0 x1 x2 x3 x4 x5 x6 x7 x8 x9 x10 x11 x12 x13 x14 r) (R2_var x0 x1 x2 x3 x4 x5 x6 x7 x8 x9 x10 x11 x12 x13 x14 r)

/-- Entry (r, j) of the result: the layer normalisation of the row of `R2_row`. -/
theorem R2 (r : Fin 50000) (j : Fin 128) :
    val_main_v102 (F := Ideal) x0 x1 x2 x3 x4 x5 x6 x7 x8 x9 x10 x11 x12 x13 x14 x15 x16 (ix2 r j)
      = layerNorm
          (fun i : Fin 128 => lin (fun k : Fin 128 => normAgg (val_main_v66 (F := Ideal) x0 x1 x2 x3 x4 x5 x6 x7 x8 x11 x12 x13 x14 (ix2 r k)) (val_main_v69 (F := Ideal) x0 x1 x2 x3 x4 x5 x6 x11 x12 (ix2 r (0 : Fin 1))))
          (fun k : Fin 128 => x9 (ix2 k i)) (x10 (ix1 i)) + x0 (ix2 r i))
          (fun i : Fin 128 => x15 (ix1 i)) (fun i : Fin 128 => x16 (ix1 i)) j :=
  (R2_of_row x0 x1 x2 x3 x4 x5 x6 x7 x8 x9 x10 x11 x12 x13 x14 x15 x16 r j).trans
    (congrArg (fun y : Fin 128 → EReal => layerNorm y (fun i : Fin 128 => x15 (ix1 i)) (fun i : Fin 128 => x16 (ix1 i)) j)
      (funext fun i : Fin 128 => R2_row x0 x1 x2 x3 x4 x5 x6 x7 x8 x9 x10 x11 x12 x13 x14 r i))

end Cert.RefStages

end
-- ==== Proof.KIBridge.lean ====
/-
  The kernel program's result array is the reference's result term of the same argument arrays.

  The comparison goes stage by stage and never opens a gather or a scatter-add. The projected query, key and value tables:
  a column block of the fused projection with concatenated weights is the separate projection with that block's weights.
  The gather indices are the same integer operations of the same edge list on both sides, so the gathered rows agree.
  The edge stage: with the edge projection's two halves read out of the concatenation, the weighted value rows and the
  attention weights are the reference's, edge by edge (the reference's division of a head's score by four is the kernel's
  product with a quarter). The scatter-adds apply to equal updates at equal indices. The output stage is the reference's,
  row by row.
-/
import proofs.«119884_j21492016349943_1_alg».proof.Proof.KIRun
import proofs.«119884_j21492016349943_1_alg».proof.Proof.KIArgs
import proofs.«119884_j21492016349943_1_alg».proof.Proof.KIVal0
import proofs.«119884_j21492016349943_1_alg».proof.Proof.KIVal1
import proofs.«119884_j21492016349943_1_alg».proof.Proof.KIVal2
import proofs.«119884_j21492016349943_1_alg».proof.Proof.KIHost
import proofs.«119884_j21492016349943_1_alg».proof.Proof.BridgeCat
import proofs.«119884_j21492016349943_1_alg».proof.Proof.RefStages0
import proofs.«119884_j21492016349943_1_alg».proof.Proof.RefStages1
import proofs.«119884_j21492016349943_1_alg».proof.Proof.RefStages2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.Spec Cert.RefStages
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## The argument arrays at launch -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)

/-! ## The projected tables -/

/-- Region 0's output: the fused projection of the input with the concatenated weights and biases. -/
theorem v6_eq : B2 m ρ c (Proc.devRef .tc main_v6)
    = proj (a0 m c) (concatenate S128x384 1 [⟨S128x128, a3 m c⟩, ⟨S128x128, a5 m c⟩, ⟨S128x128, a7 m c⟩] concatenates_S128x128_S128x128_S128x128_S128x384_d1)
        (concatenate S384 0 [⟨S128, a4 m c⟩, ⟨S128, a6 m c⟩, ⟨S128, a8 m c⟩] concatenates_S128_S128_S128_S384_d0) := by
  refine ((B2_arr m ρ c 3).trans (final0 (T1 m ρ) c)).trans ?_
  rw [show T1 m ρ c main_arg0 = a0 m c from B1_main_arg0 m ρ c,
    show T1 m ρ c main_v4 = _ from Host.h0_v4 (B0 m ρ c), show T1 m ρ c main_v5 = _ from Host.h0_v5 (B0 m ρ c)]

theorem q_eq : extractStridedSlice S50000x128 ![0, 0] (B2 m ρ c (Proc.devRef .tc main_v6)) slices_S50000x384_S50000x128_0_0
    = Cert.ReferenceIdeal.Read.val_main_v7 (a0 m c) (a3 m c) (a4 m c) := by
  rw [v6_eq]
  funext i
  obtain ⟨r, j, rfl⟩ : ∃ (r : Fin 50000) (j : Fin 128), i = ix2 r j := ⟨i 0, i 1, eq_ix2 i⟩
  exact (sliceQ _ _ _ _ _ _ _ r j).trans (R0q _ _ _ r j).symm

theorem k_eq : extractStridedSlice S50000x128 ![0, 128] (B2 m ρ c (Proc.devRef .tc main_v6)) slices_S50000x384_S50000x128_0_128
    = Cert.ReferenceIdeal.Read.val_main_v11 (a0 m c) (a5 m c) (a6 m c) := by
  rw [v6_eq]
  funext i
  obtain ⟨r, j, rfl⟩ : ∃ (r : Fin 50000) (j : Fin 128), i = ix2 r j := ⟨i 0, i 1, eq_ix2 i⟩
  exact (sliceK _ _ _ _ _ _ _ r j).trans (R0k _ _ _ r j).symm

theorem v_eq : extractStridedSlice S50000x128 ![0, 256] (B2 m ρ c (Proc.devRef .tc main_v6)) slices_S50000x384_S50000x128_0_256
    = Cert.ReferenceIdeal.Read.val_main_v15 (a0 m c) (a7 m c) (a8 m c) := by
  rw [v6_eq]
  funext i
  obtain ⟨r, j, rfl⟩ : ∃ (r : Fin 50000) (j : Fin 128), i = ix2 r j := ⟨i 0, i 1, eq_ix2 i⟩
  exact (sliceV _ _ _ _ _ _ _ r j).trans (R0v _ _ _ r j).symm

/-! ## The gather indices: the same integer operations of the same edge list -/

theorem src_eq : Host.gatherIdx (B2 m ρ c (Proc.devRef .tc main_v1)) = Cert.ReferenceIdeal.Read.val_main_v29 (a1 m c) := by
  rw [B2_main_v1 m ρ c, show B1 m ρ c (Proc.devRef .tc main_v1) = _ from Host.h0_v1 (B0 m ρ c)]; rfl

theorem src_eq' : Host.gatherIdx (B2 m ρ c (Proc.devRef .tc main_v1)) = Cert.ReferenceIdeal.Read.val_main_v46 (a1 m c) := by
  rw [B2_main_v1 m ρ c, show B1 m ρ c (Proc.devRef .tc main_v1) = _ from Host.h0_v1 (B0 m ρ c)]; rfl

theorem dst_eq : Host.gatherIdx (B2 m ρ c (Proc.devRef .tc main_v3)) = Cert.ReferenceIdeal.Read.val_main_v38 (a1 m c) := by
  rw [B2_main_v3 m ρ c, show B1 m ρ c (Proc.devRef .tc main_v3) = _ from Host.h0_v3 (B0 m ρ c)]; rfl

/-! ## The gathered rows -/

theorem g16_eq : B3 m ρ c (Proc.devRef .tc main_v16) = Cert.ReferenceIdeal.Read.val_main_v30 (a0 m c) (a1 m c) (a3 m c) (a4 m c) := by
  rw [show B3 m ρ c (Proc.devRef .tc main_v16) = _ from Host.h1_v16 (B2 m ρ c), q_eq, src_eq]; rfl

theorem g23_eq : B3 m ρ c (Proc.devRef .tc main_v23) = Cert.ReferenceIdeal.Read.val_main_v39 (a0 m c) (a1 m c) (a5 m c) (a6 m c) := by
  rw [show B3 m ρ c (Proc.devRef .tc main_v23) = _ from Host.h1_v23 (B2 m ρ c), k_eq, dst_eq]; rfl

theorem g30_eq : B3 m ρ c (Proc.devRef .tc main_v30) = Cert.ReferenceIdeal.Read.val_main_v47 (a0 m c) (a1 m c) (a7 m c) (a8 m c) := by
  rw [show B3 m ρ c (Proc.devRef .tc main_v30) = _ from Host.h1_v30 (B2 m ρ c), v_eq, src_eq']; rfl

theorem v31_eq : B3 m ρ c (Proc.devRef .tc main_v31)
    = concatenate S32x256 1 [⟨S32x128, a11 m c⟩, ⟨S32x128, a13 m c⟩] concatenates_S32x128_S32x128_S32x256_d1 := by
  rw [show B3 m ρ c (Proc.devRef .tc main_v31) = _ from Host.h1_v31 (B2 m ρ c), B2_main_arg11 m ρ c, B2_main_arg13 m ρ c]

theorem v32_eq : B3 m ρ c (Proc.devRef .tc main_v32)
    = concatenate S256 0 [⟨S128, a12 m c⟩, ⟨S128, a14 m c⟩] concatenates_S128_S128_S256_d0 := by
  rw [show B3 m ρ c (Proc.devRef .tc main_v32) = _ from Host.h1_v32 (B2 m ρ c), B2_main_arg12 m ρ c, B2_main_arg14 m ρ c]

/-! ## The edge stage -/

theorem w_eq : B4 m ρ c (Proc.devRef .tc main_v33_0)
    = Cert.ReferenceIdeal.Read.val_main_v63 (a0 m c) (a1 m c) (a2 m c) (a3 m c) (a4 m c) (a5 m c) (a6 m c) (a7 m c) (a8 m c) (a11 m c) (a12 m c) (a13 m c) (a14 m c) := by
  refine ((B4_arr m ρ c 6).trans (final1w (T3 m ρ) c)).trans ?_
  rw [show T3 m ρ c main_arg2 = a2 m c from B3_main_arg2 m ρ c, show T3 m ρ c main_v16 = _ from g16_eq m ρ c,
    show T3 m ρ c main_v23 = _ from g23_eq m ρ c, show T3 m ρ c main_v30 = _ from g30_eq m ρ c,
    show T3 m ρ c main_v31 = _ from v31_eq m ρ c, show T3 m ρ c main_v32 = _ from v32_eq m ρ c]
  funext i
  obtain ⟨e, j, rfl⟩ : ∃ (e : Fin 800000) (j : Fin 128), i = ix2 e j := ⟨i 0, i 1, eq_ix2 i⟩
  exact (catW _ _ _ _ _ _ _ _ e j).trans (R1w (a0 m c) (a1 m c) (a2 m c) (a3 m c) (a4 m c) (a5 m c) (a6 m c) (a7 m c) (a8 m c) (a11 m c) (a12 m c) (a13 m c) (a14 m c) e j).symm

theorem at_eq : B4 m ρ c (Proc.devRef .tc main_v33_1)
    = Cert.ReferenceIdeal.Read.val_main_v59 (a0 m c) (a1 m c) (a2 m c) (a3 m c) (a4 m c) (a5 m c) (a6 m c) (a11 m c) (a12 m c) := by
  refine ((B4_arr m ρ c 7).trans (final1a (T3 m ρ) c)).trans ?_
  rw [show T3 m ρ c main_arg2 = a2 m c from B3_main_arg2 m ρ c, show T3 m ρ c main_v16 = _ from g16_eq m ρ c,
    show T3 m ρ c main_v23 = _ from g23_eq m ρ c,
    show T3 m ρ c main_v31 = _ from v31_eq m ρ c, show T3 m ρ c main_v32 = _ from v32_eq m ρ c]
  funext i
  obtain ⟨e, z, rfl⟩ : ∃ (e : Fin 800000) (z : Fin 1), i = ix2 e z := ⟨i 0, i 1, eq_ix2 i⟩
  obtain rfl : z = 0 := Subsingleton.elim _ _
  exact (catA _ _ _ _ _ _ _ e).trans (R1a (a0 m c) (a1 m c) (a2 m c) (a3 m c) (a4 m c) (a5 m c) (a6 m c) (a11 m c) (a12 m c) e).symm

/-! ## The scatter-adds -/

theorem s36_eq : B5 m ρ c (Proc.devRef .tc main_v36)
    = Cert.ReferenceIdeal.Read.val_main_v66 (a0 m c) (a1 m c) (a2 m c) (a3 m c) (a4 m c) (a5 m c) (a6 m c) (a7 m c) (a8 m c) (a11 m c) (a12 m c) (a13 m c) (a14 m c) := by
  rw [show B5 m ρ c (Proc.devRef .tc main_v36) = _ from Host.h2_v36 (B4 m ρ c), w_eq, B4_main_v3 m ρ c,
    show B1 m ρ c (Proc.devRef .tc main_v3) = _ from Host.h0_v3 (B0 m ρ c)]; rfl

theorem s39_eq : B5 m ρ c (Proc.devRef .tc main_v39)
    = Cert.ReferenceIdeal.Read.val_main_v69 (a0 m c) (a1 m c) (a2 m c) (a3 m c) (a4 m c) (a5 m c) (a6 m c) (a11 m c) (a12 m c) := by
  rw [show B5 m ρ c (Proc.devRef .tc main_v39) = _ from Host.h2_v39 (B4 m ρ c), at_eq, B4_main_v3 m ρ c,
    show B1 m ρ c (Proc.devRef .tc main_v3) = _ from Host.h0_v3 (B0 m ρ c)]; rfl

/-! ## The result -/

/-- The output stage read at row `r`, column `j`, for any arrays. -/
theorem fin_ix2 (oa : S50000x128.Idx → EReal) (na : S50000x1.Idx → EReal) (x : S50000x128.Idx → EReal) (wo : S128x128.Idx → EReal)
    (bo g be : S128.Idx → EReal) (r : Fin 50000) (j : Fin 128) :
    fin oa na x wo bo g be (ix2 r j)
      = layerNorm (fun i' : Fin 128 => lin (fun k : Fin 128 => normAgg (oa (ix2 r k)) (na (ix2 r (0 : Fin 1)))) (fun k : Fin 128 => wo (ix2 k i')) (bo (ix1 i')) + x (ix2 r i'))
          (fun i' => g (ix1 i')) (fun i' => be (ix1 i')) j := rfl

/-- THE RESULT ARRAY of the kernel program is the reference's result term of the launch contents of the arguments. -/
theorem result_eq : Fr.result m ρ c = Cert.ReferenceIdeal.Read.val_main_v102 (a0 m c) (a1 m c) (a2 m c) (a3 m c) (a4 m c) (a5 m c) (a6 m c) (a7 m c) (a8 m c) (a9 m c) (a10 m c) (a11 m c) (a12 m c) (a13 m c) (a14 m c) (a15 m c) (a16 m c) := by
  unfold Fr.result
  refine ((B6_arr m ρ c 7).trans (final2 (T5 m ρ) c)).trans ?_
  rw [show T5 m ρ c main_v36 = _ from s36_eq m ρ c, show T5 m ρ c main_v39 = _ from s39_eq m ρ c,
    show T5 m ρ c main_arg0 = a0 m c from B5_main_arg0 m ρ c, show T5 m ρ c main_arg9 = a9 m c from B5_main_arg9 m ρ c,
    show T5 m ρ c main_arg10 = a10 m c from B5_main_arg10 m ρ c, show T5 m ρ c main_arg15 = a15 m c from B5_main_arg15 m ρ c,
    show T5 m ρ c main_arg16 = a16 m c from B5_main_arg16 m ρ c]
  funext i
  obtain ⟨r, j, rfl⟩ : ∃ (r : Fin 50000) (j : Fin 128), i = ix2 r j := ⟨i 0, i 1, eq_ix2 i⟩
  rw [fin_ix2]
  exact (R2 (a0 m c) (a1 m c) (a2 m c) (a3 m c) (a4 m c) (a5 m c) (a6 m c) (a7 m c) (a8 m c) (a9 m c) (a10 m c) (a11 m c) (a12 m c) (a13 m c) (a14 m c) (a15 m c) (a16 m c) r j).symm

end Cert.KernelIdeal.Val

end
-- ==== Proof.lean ====
/-
  The proof of `Cert.Claim`: the three frames, the (empty) idealization ledger, and the equality of the two idealized
  programs' results on the extended reals.

  The kernel program has three kernel regions — the fused query/key/value projection, the per-edge attention stage, the
  output stage with layer normalisation — among three stretches of host operations (index arithmetic, row gathers,
  concatenations, scatter-adds). Each region is run point by point: the body, on staging buffers holding the point's
  input blocks, leaves its outputs at a stated value of those blocks; the pipeline writes the blocks back, and the blocks
  tile each output array. That gives the frames of both readings of the kernel program, and, at the extended reals, each
  region's output array as one row-wise function of the arrays the region is entered with. The reference's run and its
  stages read at an index are generated modules. The two results are then compared stage by stage: every stage is
  row-local, the fused projections with concatenated weights are the separate projections column block by column block,
  the head sums over slices are the head sums over the reshaped rows, a product with a quarter is a division by four, and
  the gathers and scatter-adds are the same host operations applied to equal operands. No step distributes a product over
  a sum or cancels, so the finiteness of the inputs is never used.
-/
import proofs.«119884_j21492016349943_1_alg».proof.Defs
import proofs.«119884_j21492016349943_1_alg».proof.Proof.Gen.Kernel
import proofs.«119884_j21492016349943_1_alg».proof.Proof.Gen.KernelIdeal
import proofs.«119884_j21492016349943_1_alg».proof.Proof.Gen.ReferenceIdeal
import proofs.«119884_j21492016349943_1_alg».proof.Proof.Gen.Pre_finite_inputs
import proofs.«119884_j21492016349943_1_alg».proof.Proof.Gen.ReferenceIdeal.Run
import proofs.«119884_j21492016349943_1_alg».proof.Proof.Gen.ReferenceIdeal.Read
import proofs.«119884_j21492016349943_1_alg».proof.Proof.KBRun
import proofs.«119884_j21492016349943_1_alg».proof.Proof.KIRun
import proofs.«119884_j21492016349943_1_alg».proof.Proof.KIBridge
import Idealize.ShloMosaic.Adequacy
import Idealize.ShloMosaic.Init

noncomputable section

namespace Cert.Proof

open Idealize.ShloMosaic Idealize.ShloMosaic.TcCoe Idealize.SL.Sem

/-- The word-level kernel program runs to the end without a fault and leaves its argument arrays unchanged. -/
theorem frame_kernel : Cert.frame_Kernel := fun m ρ _ => Cert.Kernel.Fr.frame m ρ

/-- So does its reading at the extended reals. -/
theorem frame_kernelIdeal : Cert.frame_KernelIdeal := fun m ρ _ => Cert.KernelIdeal.Fr.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and their results are equal element by element:
    the kernel program's result array is the reference's result term of the launch contents (`result_eq`), and the two
    launch memories agree on every argument. -/
theorem algebraic : Cert.algebraic_KernelIdeal_ReferenceIdeal := by
  intro m ρ m' ρ' _ hagree
  refine ⟨Cert.KernelIdeal.Fr.result m ρ, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq m' c]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.KernelIdeal.Val.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
